-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x8192x64 : Shape := ⟨4, ![4, 16, 8192, 64]⟩
abbrev S4x8192 : Shape := ⟨2, ![4, 8192]⟩
abbrev S2 : Shape := ⟨1, ![2]⟩
abbrev S2x16x64 : Shape := ⟨3, ![2, 16, 64]⟩
abbrev S_ : Shape := ⟨0, ![]⟩

class Facts : Prop where
  bcast_S_S4x16x8192x64 : S_.BroadcastsInDim S4x16x8192x64 (![] : Fin 0 → Fin S4x16x8192x64.rank)
  reducesTo_S4x16x8192x64_S_d0_1_2_3 : S4x16x8192x64.ReducesTo [0, 1, 2, 3] S_
  h_S_ : 0 < S_.numel
  bcast_S_S4x8192 : S_.BroadcastsInDim S4x8192 (![] : Fin 0 → Fin S4x8192.rank)
  reducesTo_S4x8192_S_d0_1 : S4x8192.ReducesTo [0, 1] S_
  bcast_S_S2 : S_.BroadcastsInDim S2 (![] : Fin 0 → Fin S2.rank)
  reducesTo_S2_S_d0 : S2.ReducesTo [0] S_
  bcast_S_S2x16x64 : S_.BroadcastsInDim S2x16x64 (![] : Fin 0 → Fin S2x16x64.rank)
  reducesTo_S2x16x64_S_d0_1_2 : S2x16x64.ReducesTo [0, 1, 2] S_

variable [Facts]

def fn_part1 {F : FTy → Type} [FloatOps F] (main_arg4 : FVec F S2 .f32) (main_arg5 : FVec F S2x16x64 .f32) (main_v13 : IVec S_ 1) (main_v16 : IVec S4x8192 1) : IVec S_ 1 :=
  let main_c_5 : IVec S_ 1 := constantI S_ 1 1#1
  let main_v17 : IVec S_ 1 := (fun x v => Host.reduce IntOp.andi x v reducesTo_S4x8192_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x16x64 .f32 := Host.absf main_arg5
  let main_cst_8 : FVec F S_ .f32 := constant S_ .f32 0x7F800000#32
  let main_v25 : FVec F S2x16x64 .f32 := broadcastInDim S2x16x64 ![] bcast_S_S2x16x64 main_cst_8
  let main_v26 : IVec S2x16x64 1 := cmpf .olt main_v24 main_v25
  let main_c_9 : IVec S_ 1 := constantI S_ 1 1#1
  let main_v27 : IVec S_ 1 := (fun x v => Host.reduce IntOp.andi x v reducesTo_S2x16x64_S_d0_1_2 h_S_) main_v26 main_c_9
  let main_v28 : IVec S_ 1 := andi main_v23 main_v27
  main_v28

def fn {F : FTy → Type} [FloatOps F] (main_arg0 : FVec F S4x16x8192x64 .f32) (main_arg1 : FVec F S4x16x8192x64 .f32) (main_arg2 : FVec F S4x16x8192x64 .f32) (main_arg3 : FVec F S4x8192 .f32) (main_arg4 : FVec F S2 .f32) (main_arg5 : FVec F S2x16x64 .f32) : IVec S_ 1 :=
  let main_v0 : FVec F S4x16x8192x64 .f32 := Host.absf main_arg0
  let main_cst : FVec F S_ .f32 := constant S_ .f32 0x7F800000#32
  let main_v1 : FVec F S4x16x8192x64 .f32 := broadcastInDim S4x16x8192x64 ![] bcast_S_S4x16x8192x64 main_cst
  let main_v2 : IVec S4x16x8192x64 1 := cmpf .olt main_v0 main_v1
  let main_c : IVec S_ 1 := constantI S_ 1 1#1
  let main_v3 : IVec S_ 1 := (fun x v => Host.reduce IntOp.andi x v reducesTo_S4x16x8192x64_S_d0_1_2_3 h_S_) main_v2 main_c
  let main_v4 : FVec F S4x16x8192x64 .f32 := Host.absf main_arg1
  let main_cst_0 : FVec F S_ .f32 := constant S_ .f32 0x7F800000#32
  let main_v5 : FVec F S4x16x8192x64 .f32 := broadcastInDim S4x16x8192x64 ![] bcast_S_S4x16x8192x64 main_cst_0
  let main_v6 : IVec S4x16x8192x64 1 := cmpf .olt main_v4 main_v5
  let main_c_1 : IVec S_ 1 := constantI S_ 1 1#1
  let main_v7 : IVec S_ 1 := (fun x v => Host.reduce IntOp.andi x v reducesTo_S4x16x8192x64_S_d0_1_2_3 h_S_) main_v6 main_c_1
  let main_v8 : IVec S_ 1 := andi main_v3 main_v7
  let main_v9 : FVec F S4x16x8192x64 .f32 := Host.absf main_arg2
  let main_cst_2 : FVec F S_ .f32 := constant S_ .f32 0x7F800000#32
  let main_v10 : FVec F S4x16x8192x64 .f32 := broadcastInDim S4x16x8192x64 ![] bcast_S_S4x16x8192x64 main_cst_2
  let main_v11 : IVec S4x16x8192x64 1 := cmpf .olt main_v9 main_v10
  let main_c_3 : IVec S_ 1 := constantI S_ 1 1#1
  let main_v12 : IVec S_ 1 := (fun x v => Host.reduce IntOp.andi x v reducesTo_S4x16x8192x64_S_d0_1_2_3 h_S_) main_v11 main_c_3
  let main_v13 : IVec S_ 1 := andi main_v8 main_v12
  let main_v14 : FVec F S4x8192 .f32 := Host.absf main_arg3
  let main_cst_4 : FVec F S_ .f32 := constant S_ .f32 0x7F800000#32
  let main_v15 : FVec F S4x8192 .f32 := broadcastInDim S4x8192 ![] bcast_S_S4x8192 main_cst_4
  let main_v16 : IVec S4x8192 1 := cmpf .olt main_v14 main_v15
  fn_part1 (F := F) main_arg4 main_arg5 main_v13 main_v16
-- ==== Kernel.lean ====
abbrev S4x16x8192x64 : Shape := ⟨4, ![4, 16, 8192, 64]⟩
abbrev S4x8192 : Shape := ⟨2, ![4, 8192]⟩
abbrev S2 : Shape := ⟨1, ![2]⟩
abbrev S2x16x64 : Shape := ⟨3, ![2, 16, 64]⟩
abbrev S_ : Shape := ⟨0, ![]⟩
abbrev S1 : Shape := ⟨1, ![1]⟩
abbrev S1x16x64 : Shape := ⟨3, ![1, 16, 64]⟩
abbrev S16x64 : Shape := ⟨2, ![16, 64]⟩
abbrev S16x1x64 : Shape := ⟨3, ![16, 1, 64]⟩
abbrev S4x8192x1 : Shape := ⟨3, ![4, 8192, 1]⟩
abbrev S4x16x64x64 : Shape := ⟨4, ![4, 16, 64, 64]⟩
abbrev S1x1x4096x64 : Shape := ⟨4, ![1, 1, 4096, 64]⟩
abbrev S1x4096x1 : Shape := ⟨3, ![1, 4096, 1]⟩
abbrev S1x1x64 : Shape := ⟨3, ![1, 1, 64]⟩
abbrev S1x1x64x64 : Shape := ⟨4, ![1, 1, 64, 64]⟩
abbrev S64x64 : Shape := ⟨2, ![64, 64]⟩
abbrev S4096x64 : Shape := ⟨2, ![4096, 64]⟩
abbrev S4096x1 : Shape := ⟨2, ![4096, 1]⟩
abbrev S64 : Shape := ⟨1, ![64]⟩
abbrev S1x64 : Shape := ⟨2, ![1, 64]⟩
abbrev S1x1x8192x64 : Shape := ⟨4, ![1, 1, 8192, 64]⟩
abbrev S8192x64 : Shape := ⟨2, ![8192, 64]⟩

abbrev nBuf : Space → Nat
  | .hbm => 38
  | .vmem => 19
  | .smem => 0
  | _ => 0

abbrev bufTy : (tb : Table) → Fin (tcTables nBuf tb) → BufTy
  | .hbm, ⟨0, _⟩ => ⟨S4x16x8192x64, .f32⟩
  | .hbm, ⟨1, _⟩ => ⟨S4x16x8192x64, .f32⟩
  | .hbm, ⟨2, _⟩ => ⟨S4x16x8192x64, .f32⟩
  | .hbm, ⟨3, _⟩ => ⟨S4x8192, .f32⟩
  | .hbm, ⟨4, _⟩ => ⟨S2, .f32⟩
  | .hbm, ⟨5, _⟩ => ⟨S2x16x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2, .f32⟩
  | .hbm, ⟨10, _⟩ => ⟨S2, .f32⟩
  | .hbm, ⟨11, _⟩ => ⟨S_, .f32⟩
  | .hbm, ⟨12, _⟩ => ⟨S2, .f32⟩
  | .hbm, ⟨13, _⟩ => ⟨S2, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S1x16x64, .f32⟩
  | .hbm, ⟨20, _⟩ => ⟨S16x64, .f32⟩
  | .hbm, ⟨21, _⟩ => ⟨S1, .f32⟩
  | .hbm, ⟨22, _⟩ => ⟨S_, .f32⟩
  | .hbm, ⟨23, _⟩ => ⟨S16x64, .f32⟩
  | .hbm, ⟨24, _⟩ => ⟨S16x64, .f32⟩
  | .hbm, ⟨25, _⟩ => ⟨S1x16x64, .f32⟩
  | .hbm, ⟨26, _⟩ => ⟨S16x64, .f32⟩
  | .hbm, ⟨27, _⟩ => ⟨S1, .f32⟩
  | .hbm, ⟨28, _⟩ => ⟨S_, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x1x64, .f32⟩
  | .hbm, ⟨34, _⟩ => ⟨S16x1x64, .f32⟩
  | .hbm, ⟨35, _⟩ => ⟨S4x8192x1, .f32⟩
  | .hbm, ⟨36, _⟩ => ⟨S4x16x64x64, .f32⟩
  | .hbm, ⟨37, _⟩ => ⟨S4x16x8192x64, .f32⟩
  | .local _ .vmem, ⟨0, _⟩ => ⟨S1x1x4096x64, .f32⟩
  | .local _ .vmem, ⟨1, _⟩ => ⟨S1x1x4096x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x4096x1, .f32⟩
  | .local _ .vmem, ⟨5, _⟩ => ⟨S1x4096x1, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64x64, .f32⟩
  | .local _ .vmem, ⟨11, _⟩ => ⟨S1x1x64x64, .f32⟩
  | .local _ .vmem, ⟨12, _⟩ => ⟨S64x64, .f32⟩
  | .local _ .vmem, ⟨13, _⟩ => ⟨S1x1x8192x64, .f32⟩
  | .local _ .vmem, ⟨14, _⟩ => ⟨S1x1x8192x64, .f32⟩
  | .local _ .vmem, ⟨15, _⟩ => ⟨S1x1x64x64, .f32⟩
  | .local _ .vmem, ⟨16, _⟩ => ⟨S1x1x64x64, .f32⟩
  | .local _ .vmem, ⟨17, _⟩ => ⟨S1x1x8192x64, .f32⟩
  | .local _ .vmem, ⟨18, _⟩ => ⟨S1x1x8192x64, .f32⟩
  | _, _ => ⟨S4x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v38 : BitVec 1 := Scalar.cmpi .eq arg2 c1_i32
  let v39 : BitVec 32 := Scalar.extui v38
  let c0_i32_24 : BitVec 32 := 0#32
  let v40 : BitVec 1 := Scalar.cmpi .ne v39 c0_i32_24
  v40

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S2 : S_.BroadcastsInDim S2 (![] : Fin 0 → Fin S2.rank)
  slices_S2_S1_0 : S2.Slices ![0] S1
  shapeCasts_S1_S_ : S1.ShapeCasts S_
  slices_S2_S1_1 : S2.Slices ![1] S1
  slices_S2x16x64_S1x16x64_0_0_0 : S2x16x64.Slices ![0, 0, 0] S1x16x64
  shapeCasts_S1x16x64_S16x64 : S1x16x64.ShapeCasts S16x64
  bcast_S_S16x64 : S_.BroadcastsInDim S16x64 (![] : Fin 0 → Fin S16x64.rank)
  slices_S2x16x64_S1x16x64_1_0_0 : S2x16x64.Slices ![1, 0, 0] S1x16x64
  shapeCasts_S16x64_S16x1x64 : S16x64.ShapeCasts S16x1x64
  shapeCasts_S4x8192_S4x8192x1 : S4x8192.ShapeCasts S4x8192x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x64 : S64.ShapeCasts S1x64
  broadcasts_S1x64_S4096x64 : S1x64.Broadcasts S4096x64
  broadcasts_S4096x1_S4096x64 : S4096x1.Broadcasts S4096x64
  bitsLt_bf16_f32 : FTy.bits .bf16 < FTy.bits .f32
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  inb_S1x1x8192x64_S1x1x8192x64_0_0_0_0 : ∀ a, (![0, 0, 0, 0] : Fin 4 → Nat) a + S1x1x8192x64.size a ≤ S1x1x8192x64.size a
  h_S1x1x8192x64 : 0 < S1x1x8192x64.numel
  shapeCasts_S1x1x8192x64_S8192x64 : S1x1x8192x64.ShapeCasts S8192x64
  shapeCasts_S8192x64_S1x1x8192x64 : S8192x64.ShapeCasts S1x1x8192x64
  dot_S4096x64_S4096x64_S64x64_0_0_1_1_n_n_wf : DotDims.WF S4096x64 S4096x64 S64x64 [0] [0] [1] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x64.size a ≤ S4x16x8192x64.size a
  hwx0_0 : ∀ i : grid0.Coords, EltTy.bits .f32 = 32 ∨ (Rect.block (s := S4x16x8192x64) S1x1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S4x16x8192x64.size a
  hwx0_1 : ∀ i : grid0.Coords, EltTy.bits .f32 = 32 ∨ (Rect.block (s := S4x16x8192x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S4x8192x1.size a
  hwx0_2 : ∀ i : grid0.Coords, EltTy.bits .f32 = 32 ∨ (Rect.block (s := S4x8192x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S16x1x64.size a
  hwx0_3 : ∀ i : grid0.Coords, EltTy.bits .f32 = 32 ∨ (Rect.block (s := S16x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S16x1x64.size a
  hwx0_4 : ∀ i : grid0.Coords, EltTy.bits .f32 = 32 ∨ (Rect.block (s := S16x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64x64.size a ≤ S4x16x64x64.size a
  hwx0_5 : ∀ i : grid0.Coords, EltTy.bits .f32 = 32 ∨ (Rect.block (s := S4x16x64x64) S1x1x64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x8192x64.size a ≤ S4x16x8192x64.size a
  hwx1_0 : ∀ i : grid1.Coords, EltTy.bits .f32 = 32 ∨ (Rect.block (s := S4x16x8192x64) S1x1x8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x64.size a ≤ S4x16x64x64.size a
  hwx1_1 : ∀ i : grid1.Coords, EltTy.bits .f32 = 32 ∨ (Rect.block (s := S4x16x64x64) S1x1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x8192x64.size a ≤ S4x16x8192x64.size a
  hwx1_2 : ∀ i : grid1.Coords, EltTy.bits .f32 = 32 ∨ (Rect.block (s := S4x16x8192x64) S1x1x8192x64.size (cc1_transform_2 i) (hinb1_2 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg1) S1x1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x1x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x1x8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x1x8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x16x8192x64 : Shape := ⟨4, ![4, 16, 8192, 64]⟩
abbrev S4x8192 : Shape := ⟨2, ![4, 8192]⟩
abbrev S2 : Shape := ⟨1, ![2]⟩
abbrev S2x16x64 : Shape := ⟨3, ![2, 16, 64]⟩
abbrev S_ : Shape := ⟨0, ![]⟩
abbrev S1x16x64 : Shape := ⟨3, ![1, 16, 64]⟩
abbrev S16x64 : Shape := ⟨2, ![16, 64]⟩
abbrev S1x16x1x64 : Shape := ⟨4, ![1, 16, 1, 64]⟩
abbrev S1 : Shape := ⟨1, ![1]⟩
abbrev S4x1x8192x1 : Shape := ⟨4, ![4, 1, 8192, 1]⟩
abbrev S4x16x64x64 : Shape := ⟨4, ![4, 16, 64, 64]⟩

abbrev nBuf : Space → Nat
  | .hbm => 82
  | .vmem => 0
  | .smem => 0
  | _ => 0

abbrev bufTy : (tb : Table) → Fin (tcTables nBuf tb) → BufTy
  | .hbm, ⟨0, _⟩ => ⟨S4x16x8192x64, .f32⟩
  | .hbm, ⟨1, _⟩ => ⟨S4x16x8192x64, .f32⟩
  | .hbm, ⟨2, _⟩ => ⟨S4x16x8192x64, .f32⟩
  | .hbm, ⟨3, _⟩ => ⟨S4x8192, .f32⟩
  | .hbm, ⟨4, _⟩ => ⟨S2, .f32⟩
  | .hbm, ⟨5, _⟩ => ⟨S2x16x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2, .f32⟩
  | .hbm, ⟨10, _⟩ => ⟨S2, .f32⟩
  | .hbm, ⟨11, _⟩ => ⟨S_, .f32⟩
  | .hbm, ⟨12, _⟩ => ⟨S2, .f32⟩
  | .hbm, ⟨13, _⟩ => ⟨S2, .f32⟩
  | .hbm, ⟨14, _⟩ => ⟨S1x16x64, .f32⟩
  | .hbm, ⟨15, _⟩ => ⟨S16x64, .f32⟩
  | .hbm, ⟨16, _⟩ => ⟨S1x16x1x64, .f32⟩
  | .hbm, ⟨17, _⟩ => ⟨S4x16x8192x64, .f32⟩
  | .hbm, ⟨18, _⟩ => ⟨S4x16x8192x64, .f32⟩
  | .hbm, ⟨19, _⟩ => ⟨S1x16x64, .f32⟩
  | .hbm, ⟨20, _⟩ => ⟨S16x64, .f32⟩
  | .hbm, ⟨21, _⟩ => ⟨S1x16x1x64, .f32⟩
  | .hbm, ⟨22, _⟩ => ⟨S4x16x8192x64, .f32⟩
  | .hbm, ⟨23, _⟩ => ⟨S4x16x8192x64, .f32⟩
  | .hbm, ⟨24, _⟩ => ⟨S1, .f32⟩
  | .hbm, ⟨25, _⟩ => ⟨S_, .f32⟩
  | .hbm, ⟨26, _⟩ => ⟨S4x16x8192x64, .f32⟩
  | .hbm, ⟨27, _⟩ => ⟨S4x16x8192x64, .f32⟩
  | .hbm, ⟨28, _⟩ => ⟨S1, .f32⟩
  | .hbm, ⟨29, _⟩ => ⟨S_, .f32⟩
  | .hbm, ⟨30, _⟩ => ⟨S4x16x8192x64, .f32⟩
  | .hbm, ⟨31, _⟩ => ⟨S4x16x8192x64, .f32⟩
  | .hbm, ⟨32, _⟩ => ⟨S4x16x8192x64, .f32⟩
  | .hbm, ⟨33, _⟩ => ⟨S4x1x8192x1, .f32⟩
  | .hbm, ⟨34, _⟩ => ⟨S_, .f32⟩
  | .hbm, ⟨35, _⟩ => ⟨S4x16x8192x64, .f32⟩
  | .hbm, ⟨36, _⟩ => ⟨S4x16x8192x64, .i1⟩
  | .hbm, ⟨37, _⟩ => ⟨S_, .f32⟩
  | .hbm, ⟨38, _⟩ => ⟨S4x16x8192x64, .f32⟩
  | .hbm, ⟨39, _⟩ => ⟨S4x16x8192x64, .i1⟩
  | .hbm, ⟨40, _⟩ => ⟨S_, .f32⟩
  | .hbm, ⟨41, _⟩ => ⟨S_, .f32⟩
  | .hbm, ⟨42, _⟩ => ⟨S4x16x8192x64, .f32⟩
  | .hbm, ⟨43, _⟩ => ⟨S4x16x8192x64, .f32⟩
  | .hbm, ⟨44, _⟩ => ⟨S4x16x8192x64, .f32⟩
  | .hbm, ⟨45, _⟩ => ⟨S_, .f32⟩
  | .hbm, ⟨46, _⟩ => ⟨S4x16x8192x64, .f32⟩
  | .hbm, ⟨47, _⟩ => ⟨S4x16x8192x64, .f32⟩
  | .hbm, ⟨48, _⟩ => ⟨S4x16x8192x64, .f32⟩
  | .hbm, ⟨49, _⟩ => ⟨S_, .f32⟩
  | .hbm, ⟨50, _⟩ => ⟨S4x16x8192x64, .f32⟩
  | .hbm, ⟨51, _⟩ => ⟨S4x16x8192x64, .f32⟩
  | .hbm, ⟨52, _⟩ => ⟨S_, .f32⟩
  | .hbm, ⟨53, _⟩ => ⟨S4x16x8192x64, .f32⟩
  | .hbm, ⟨54, _⟩ => ⟨S4x16x8192x64, .f32⟩
  | .hbm, ⟨55, _⟩ => ⟨S_, .f32⟩
  | .hbm, ⟨56, _⟩ => ⟨S4x16x8192x64, .f32⟩
  | .hbm, ⟨57, _⟩ => ⟨S4x16x8192x64, .i1⟩
  | .hbm, ⟨58, _⟩ => ⟨S_, .f32⟩
  | .hbm, ⟨59, _⟩ => ⟨S4x16x8192x64, .f32⟩
  | .hbm, ⟨60, _⟩ => ⟨S4x16x8192x64, .i1⟩
  | .hbm, ⟨61, _⟩ => ⟨S_, .f32⟩
  | .hbm, ⟨62, _⟩ => ⟨S_, .f32⟩
  | .hbm, ⟨63, _⟩ => ⟨S4x16x8192x64, .f32⟩
  | .hbm, ⟨64, _⟩ => ⟨S4x16x8192x64, .f32⟩
  | .hbm, ⟨65, _⟩ => ⟨S4x16x8192x64, .f32⟩
  | .hbm, ⟨66, _⟩ => ⟨S_, .f32⟩
  | .hbm, ⟨67, _⟩ => ⟨S4x16x8192x64, .f32⟩
  | .hbm, ⟨68, _⟩ => ⟨S4x16x8192x64, .f32⟩
  | .hbm, ⟨69, _⟩ => ⟨S4x16x8192x64, .f32⟩
  | .hbm, ⟨70, _⟩ => ⟨S_, .f32⟩
  | .hbm, ⟨71, _⟩ => ⟨S4x16x8192x64, .f32⟩
  | .hbm, ⟨72, _⟩ => ⟨S4x16x8192x64, .f32⟩
  | .hbm, ⟨73, _⟩ => ⟨S4x16x8192x64, .f32⟩
  | .hbm, ⟨74, _⟩ => ⟨S4x16x8192x64, .f32⟩
  | .hbm, ⟨75, _⟩ => ⟨S_, .f32⟩
  | .hbm, ⟨76, _⟩ => ⟨S4x16x8192x64, .f32⟩
  | .hbm, ⟨77, _⟩ => ⟨S4x16x8192x64, .f32⟩
  | .hbm, ⟨78, _⟩ => ⟨S4x16x8192x64, .f32⟩
  | .hbm, ⟨79, _⟩ => ⟨S4x16x8192x64, .f32⟩
  | .hbm, ⟨80, _⟩ => ⟨S4x16x64x64, .f32⟩
  | .hbm, ⟨81, _⟩ => ⟨S4x16x8192x64, .f32⟩
  | _, _ => ⟨S4x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_cst_1 : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_v4 : Ref sig .tc := ⟨.hbm, 43, rfl⟩
abbrev main_call1_v5 : Ref sig .tc := ⟨.hbm, 44, rfl⟩
abbrev main_call1_cst_2 : Ref sig .tc := ⟨.hbm, 45, rfl⟩
abbrev main_call1_v6 : Ref sig .tc := ⟨.hbm, 46, rfl⟩
abbrev main_call1_v7 : Ref sig .tc := ⟨.hbm, 47, rfl⟩
abbrev main_v21 : Ref sig .tc := ⟨.hbm, 48, rfl⟩
abbrev main_cst_1 : Ref sig .tc := ⟨.hbm, 49, rfl⟩
abbrev main_v22 : Ref sig .tc := ⟨.hbm, 50, rfl⟩
abbrev main_v23 : Ref sig .tc := ⟨.hbm, 51, rfl⟩
abbrev main_cst_2 : Ref sig .tc := ⟨.hbm, 52, rfl⟩
abbrev main_v24 : Ref sig .tc := ⟨.hbm, 53, rfl⟩
abbrev main_v25 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_cst_0 : Ref sig .tc := ⟨.hbm, 58, rfl⟩
abbrev main_call2_v2 : Ref sig .tc := ⟨.hbm, 59, rfl⟩
abbrev main_call2_v3 : Ref sig .tc := ⟨.hbm, 60, rfl⟩
abbrev main_call2_cst_1 : Ref sig .tc := ⟨.hbm, 61, rfl⟩
abbrev main_call2_call0_v0 : Ref sig .tc := ⟨.hbm, 62, rfl⟩
abbrev main_call2_call0_v1 : Ref sig .tc := ⟨.hbm, 63, rfl⟩
abbrev main_call2_v4 : Ref sig .tc := ⟨.hbm, 64, rfl⟩
abbrev main_call2_v5 : Ref sig .tc := ⟨.hbm, 65, rfl⟩
abbrev main_call2_cst_2 : Ref sig .tc := ⟨.hbm, 66, rfl⟩
abbrev main_call2_v6 : Ref sig .tc := ⟨.hbm, 67, rfl⟩
abbrev main_call2_v7 : Ref sig .tc := ⟨.hbm, 68, rfl⟩
abbrev main_v26 : Ref sig .tc := ⟨.hbm, 69, rfl⟩
abbrev main_cst_3 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_4 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩

abbrev nD : Nat := 1
abbrev τ : Topo := Topo.v7x

variable {F : FTy → Type} [FloatOps F]

class Facts₀ : Prop where
  bcast_S_S2 : S_.BroadcastsInDim S2 (![] : Fin 0 → Fin S2.rank)
  slices_S2x16x64_S1x16x64_0_0_0 : S2x16x64.Slices ![0, 0, 0] S1x16x64
  shapeCasts_S1x16x64_S16x64 : S1x16x64.ShapeCasts S16x64
  bcast_S16x64_S1x16x1x64_1_3 : S16x64.BroadcastsInDim S1x16x1x64 (![1, 3] : Fin 2 → Fin S1x16x1x64.rank)
  bcast_S1x16x1x64_S4x16x8192x64_0_1_2_3 : S1x16x1x64.BroadcastsInDim S4x16x8192x64 (![0, 1, 2, 3] : Fin 4 → Fin S4x16x8192x64.rank)
  slices_S2x16x64_S1x16x64_1_0_0 : S2x16x64.Slices ![1, 0, 0] S1x16x64
  slices_S2_S1_0 : S2.Slices ![0] S1
  shapeCasts_S1_S_ : S1.ShapeCasts S_
  bcast_S_S4x16x8192x64 : S_.BroadcastsInDim S4x16x8192x64 (![] : Fin 0 → Fin S4x16x8192x64.rank)
  slices_S2_S1_1 : S2.Slices ![1] S1
  bcast_S4x8192_S4x1x8192x1_0_2 : S4x8192.BroadcastsInDim S4x1x8192x1 (![0, 2] : Fin 2 → Fin S4x1x8192x1.rank)
  bcast_S4x1x8192x1_S4x16x8192x64_0_1_2_3 : S4x1x8192x1.BroadcastsInDim S4x16x8192x64 (![0, 1, 2, 3] : Fin 4 → Fin S4x16x8192x64.rank)
  dot_S4x16x8192x64_S4x16x8192x64_S4x16x64x64_2_2_3_3_01_01_wf : DotDims.WF S4x16x8192x64 S4x16x8192x64 S4x16x64x64 [2] [2] [3] [3] [0, 1] [0, 1]
  dot_S4x16x8192x64_S4x16x64x64_S4x16x8192x64_3_2_2_3_01_01_wf : DotDims.WF S4x16x8192x64 S4x16x64x64 S4x16x8192x64 [3] [2] [2] [3] [0, 1] [0, 1]

variable [Facts₀]

def dot_S4x16x8192x64_S4x16x8192x64_S4x16x64x64_2_2_3_3_01_01 : DotDims S4x16x8192x64 S4x16x8192x64 S4x16x64x64 where
  lhsContracting := [2]
  rhsContracting := [2]
  lhsNonContracting := [3]
  rhsNonContracting := [3]
  lhsBatch := [0, 1]
  rhsBatch := [0, 1]
  wf := dot_S4x16x8192x64_S4x16x8192x64_S4x16x64x64_2_2_3_3_01_01_wf
def dot_S4x16x8192x64_S4x16x64x64_S4x16x8192x64_3_2_2_3_01_01 : DotDims S4x16x8192x64 S4x16x64x64 S4x16x8192x64 where
  lhsContracting := [3]
  rhsContracting := [2]
  lhsNonContracting := [2]
  rhsNonContracting := [3]
  lhsBatch := [0, 1]
  rhsBatch := [0, 1]
  wf := dot_S4x16x8192x64_S4x16x64x64_S4x16x8192x64_3_2_2_3_01_01_wf

class Facts : Prop extends Facts₀ where

variable [Facts]
-- ==== Proof.KB.Base0.lean ====
/-
  The first kernel (grid (batch, head, half of the sequence)): what its runs are stated over.
  The body zero-fills its 64×64 accumulator at the first half (coordinate 2 = 0), adds the half's
  contribution at every point, and copies the accumulator into the output block at the second half
  (coordinate 2 = 1); the output block is idle at the first half.
-/
import proofs.«130264_j15891378995472_2_alg».proof.Proof.Gen.Kernel.Launch
import proofs.«130264_j15891378995472_2_alg».proof.Proof.Gen.Kernel.Skeleton
import proofs.«130264_j15891378995472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- "This is the first half of the sequence": the accumulator is zero-filled. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "This is the second half": the accumulator is copied into the output block. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first-half point the output block is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At a second-half point it is stored into. -/
theorem liveAt0_5_B : ∀ t : Fin cfg0.N, ¬cond0_0 (grid0.coords t) → cond0_1 (grid0.coords t) → cfg0.idle 5 (grid0.coords t) = false := by decide +kernel

/-! ## The staging buffers and the accumulator -/

abbrev ms0_0 (t : Fin cfg0.N) : Memref sig .tc .vmem S1x1x4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x64 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S64x64 .f32 := Memref.whole cc0_scratch0
abbrev VS0_0 : View sig .tc .vmem S64x64 .f32 := scM0_0.view
/-- One staging buffer of the output window, through which its contents are stated. -/
abbrev VO0_5 : View sig .tc .vmem S1x1x64x64 .f32 := (Memref.whole cc0_stg5_0 : Memref sig .tc .vmem S1x1x64x64 .f32).view

/-- The scoped buffers of the core that belong to the other kernel, each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's scoped rest with the accumulator as a buffer owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

/-! ## The windows' blocks, at the contents `V` the region is entered with -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

end Cert.Kernel.Hand

end
-- ==== Proof.KB.Run0A.lean ====
/-
  The first kernel's body at a first-half point: the accumulator is zero-filled, then the half's
  contribution is added; the output block is left untouched.
-/
import proofs.«130264_j15891378995472_2_alg».proof.Proof.KB.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator at a first-half point (last first), with the run: on whole
    staging buffers — the inputs' at their contents, the idle output's at contents handed back untouched, the accumulator at
    anything — the body runs to the continuation holding the inputs' as they were and the accumulator with its pieces written. -/
noncomputable def kernelRun0_A (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x4096x64 .f32) (x1 : Vec F S1x1x4096x64 .f32) (x2 : Vec F S1x4096x1 .f32) (x3 : Vec F S1x1x64 .f32) (x4 : Vec F S1x1x64 .f32) :
    Σ' (L5 : List (View.Piece (Elt F) S1x1x64x64 .f32)), { LS0 : List (View.Piece (Elt F) S64x64 .f32) //
      ∀ (xi5 : Vec F S1x1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨[], ?_, fun xi5 E K => ?run⟩
  case run =>
    simp only [cc0_kv_kernel_eq_skeleton]; unfold cc0_kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KB.Run0B.lean ====
/-
  The first kernel's body at a second-half point: the half's contribution is added to the accumulator
  the first half left, and the accumulator is copied into the output block.
-/
import proofs.«130264_j15891378995472_2_alg».proof.Proof.KB.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at a second-half point (last first),
    with the run: on whole staging buffers — the inputs' at their contents, the output's at anything, the accumulator at the
    contents `xs0` the point before left — the body runs to the continuation holding the inputs' as they were and the output
    block and the accumulator with their pieces written. -/
noncomputable def kernelRun0_B (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) :
    Σ' (L5 : List (View.Piece (Elt F) S1x1x64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨?_, ?_, fun E K => ?run⟩
  case run =>
    simp only [cc0_kv_kernel_eq_skeleton]; unfold cc0_kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.KB.Dat0.lean ====
/-
  The first kernel's proof data at the contents `V` the region is entered with: what the output block and
  the accumulator hold after each point, by recursion on the point (a second-half point starts from what the
  first-half point before it left in the accumulator), the region invariant carrying the accumulator, and the
  body obligation.
-/
import proofs.«130264_j15891378995472_2_alg».proof.Proof.KB.Run0A
import proofs.«130264_j15891378995472_2_alg».proof.Proof.KB.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- A first-half point stores nothing into the output block: a placeholder nothing consults. -/
def out0_A_5 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x4096x64 .f32) (x1 : Vec F S1x1x4096x64 .f32) (x2 : Vec F S1x4096x1 .f32) (x3 : Vec F S1x1x64 .f32) (x4 : Vec F S1x1x64 .f32) : Vec F S1x1x64x64 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- Its stores into the accumulator cover it. -/
theorem scover0_A_0 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x4096x64 .f32) (x1 : Vec F S1x1x4096x64 .f32) (x2 : Vec F S1x4096x1 .f32) (x3 : Vec F S1x1x64 .f32) (x4 : Vec F S1x1x64 .f32) (y : S64x64.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S64x64.size (by sl_kernel_rfl) y

/-- What a first-half point leaves in the accumulator. -/
def sout0_A_0 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x4096x64 .f32) (x1 : Vec F S1x1x4096x64 .f32) (x2 : Vec F S1x4096x1 .f32) (x3 : Vec F S1x1x64 .f32) (x4 : Vec F S1x1x64 .f32) : Vec F S64x64 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- A second-half point's store into the output block covers it. -/
theorem cover0_B_5 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) (y : S1x1x64x64.Idx) :
    ∃ pc ∈ (kernelRun0_B c i arg3 harg3 arg4 harg4 arg5 harg5 arg6 harg6 arg7 harg7 arg8 harg8 arg9 harg9 hc0 hc1 x0 x1 x2 x3 x4 xs0).1, y ∈ pc.1.set :=
  View.cover_of_tiledL (kernelRun0_B c i arg3 harg3 arg4 harg4 arg5 harg5 arg6 harg6 arg7 harg7 arg8 harg8 arg9 harg9 hc0 hc1 x0 x1 x2 x3 x4 xs0).1 S1x1x64x64.size (by sl_kernel_rfl) y

/-- What a second-half point leaves in the output block. -/
def out0_B_5 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) : Vec F S1x1x64x64 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

theorem scover0_B_0 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) (y : S64x64.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S64x64.size (by sl_kernel_rfl) y

/-- What a second-half point leaves in the accumulator. -/
def sout0_B_0 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) : Vec F S64x64 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

section
variable (V : (c : Dev nD) → (b : Ref sig .tc) → Buf (Elt F) ((c : Thread nD τ).loc b))

theorem hcA0 (t : Fin cfg0.N) (h0 : t.val % 2 = 0) : cond0_0 (grid0.coords t) := (hcond0_0 t).mpr h0
theorem hcA1 (t : Fin cfg0.N) (h0 : t.val % 2 = 0) : ¬cond0_1 (grid0.coords t) := fun h => by
  have := (hcond0_1 t).mp h; omega
theorem hcB0 (t : Fin cfg0.N) (h1 : t.val % 2 = 1) : ¬cond0_0 (grid0.coords t) := fun h => by
  have := (hcond0_0 t).mp h; omega
theorem hcB1 (t : Fin cfg0.N) (h1 : t.val % 2 = 1) : cond0_1 (grid0.coords t) := (hcond0_1 t).mpr h1

/-- The output block and the accumulator after a first-half point `t`. -/
def pairA (c : Dev nD) (t : Fin cfg0.N) (h0 : t.val % 2 = 0) : Vec F S1x1x64x64 .f32 × Vec F S64x64 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (hcA0 t h0) (hcA1 t h0) (iblk0 V c 0 t) (iblk0 V c 1 t) (iblk0 V c 2 t) (iblk0 V c 3 t) (iblk0 V c 4 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (hcA0 t h0) (hcA1 t h0) (iblk0 V c 0 t) (iblk0 V c 1 t) (iblk0 V c 2 t) (iblk0 V c 3 t) (iblk0 V c 4 t))

/-- The output block and the accumulator after a second-half point `t` that found the accumulator at `xs`. -/
def pairB (c : Dev nD) (t : Fin cfg0.N) (h1 : t.val % 2 = 1) (xs : Vec F S64x64 .f32) : Vec F S1x1x64x64 .f32 × Vec F S64x64 .f32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (hcB0 t h1) (hcB1 t h1) (iblk0 V c 0 t) (iblk0 V c 1 t) (iblk0 V c 2 t) (iblk0 V c 3 t) (iblk0 V c 4 t) xs,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (hcB0 t h1) (hcB1 t h1) (iblk0 V c 0 t) (iblk0 V c 1 t) (iblk0 V c 2 t) (iblk0 V c 3 t) (iblk0 V c 4 t) xs)

/-- THE ACCUMULATION: the output block and the accumulator after the body at position `n`. -/
def outsAt0 (c : Dev nD) : (n : ℕ) → n < cfg0.N → Vec F S1x1x64x64 .f32 × Vec F S64x64 .f32
  | 0, hn => pairA V c ⟨0, hn⟩ (Nat.zero_mod _)
  | n + 1, hn =>
    if h0 : (n + 1) % 2 = 0 then pairA V c ⟨n + 1, hn⟩ h0
    else pairB V c ⟨n + 1, hn⟩ (by show (n + 1) % 2 = 1; omega) (outsAt0 c n (Nat.lt_of_succ_lt hn)).2

theorem outsAt0_A (c : Dev nD) (t : Fin cfg0.N) (h0 : t.val % 2 = 0) :
    outsAt0 V c t.val t.isLt = pairA V c t h0 := by
  obtain ⟨n, hn⟩ := t
  cases n with
  | zero => exact rfl
  | succ n => exact dif_pos h0

theorem outsAt0_B (c : Dev nD) (t : Fin cfg0.N) (h1 : t.val % 2 = 1) :
    outsAt0 V c t.val t.isLt = pairB V c t h1 (outsAt0 V c (t.val - 1) (Nat.lt_of_le_of_lt (Nat.sub_le _ _) t.isLt)).2 := by
  obtain ⟨n, hn⟩ := t
  cases n with
  | zero => exact absurd h1 (by show ¬ (0 % 2 = 1); decide)
  | succ n => exact dif_neg (by show ¬ (n + 1) % 2 = 0; have : (n + 1) % 2 = 1 := h1; omega)

/-- The region invariant before position `n`: before the first point the scoped rest at anything; afterwards the accumulator at
    what the point before left, the other kernel's scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_4 t, after0_4]

set_option maxHeartbeats 4800000 in
/-- The body at any point: the inputs' buffers hold their blocks; the parity of the point says which case it is in; the
    invariant hands the body the accumulator at what the point before left (at anything at the very first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4]
  have hN : t.val < 128 := lt_of_lt_of_eq t.isLt (show cfg0.N = 128 from N_0)
  by_cases h0 : t.val % 2 = 0
  · rw [Dat.leavesExact_idle (dat0 V c) 5 t (idleAt0_5_A t (hcA0 t h0) (hcA1 t h0)) (noFlush0_5_A t (hcA0 t h0) (hcA1 t h0))]
    rw [outsAt0_A V c t h0]
    unfold pairA sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (hcA0 t h0) (hcA1 t h0) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (hcA0 t h0) (hcA1 t h0) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hz : t.val ≠ 0 := by omega
    rw [show (dat0 V c).leavesExact 5 t = owns (c : Thread nD τ) (ms0_5 t) fullShare ((dat0 V c).after 5 t) from by
      unfold Dat.leavesExact; rw [liveAt0_5_B t (hcB0 t h1) (hcB1 t h1)], after0_5]
    rw [outsAt0_B V c t h1]
    unfold pairB out0_B_5 sout0_B_0; (try dsimp only)
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (hcB0 t h1) (hcB1 t h1) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA0_eq]
  iintro ⟨⟨HS0, HR⟩, Hg⟩
  isplitl [HS0 HR]
  · isplitl [HS0]
    · iexists _; iexact HS0
    iexact HR
  iexact Hg

end

end Cert.Kernel.Hand

end
-- ==== Proof.KB.Body1.lean ====
/-
  The second kernel (one grid point per (batch, head)): its body on whole staging buffers.
  The body reads the query block x0 [1,1,8192,64] and the state block x1 [1,1,64,64] and stores, through
  the whole output block, the product of the featurised queries with the state (the skeleton's payload).
-/
import proofs.«130264_j15891378995472_2_alg».proof.Proof.Gen.Kernel.Launch
import proofs.«130264_j15891378995472_2_alg».proof.Proof.Gen.Kernel.Skeleton
import proofs.«130264_j15891378995472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: each goes through its buffer's whole rectangle -/

abbrev rQ : Rect S1x1x8192x64 := Rect.unit (s := S1x1x8192x64) ![0, 0, 0, 0] S1x1x8192x64.size inb_S1x1x8192x64_S1x1x8192x64_0_0_0_0
abbrev rS : Rect S1x1x64x64 := Rect.unit (s := S1x1x64x64) ![0, 0, 0, 0] S1x1x64x64.size inb_S1x1x64x64_S1x1x64x64_0_0_0_0

/-- What the body leaves in the output block, from the query block and the state block: its one store. -/
def out1_2 (x0 : Vec F S1x1x8192x64 .f32) (x1 : Vec F S1x1x64x64 .f32) : Vec F S1x1x8192x64 .f32 :=
  View.canon [⟨rQ, k1_pay1 (View.ld x0 rQ) (View.ld x1 rS)⟩]

/-- The one store goes through the whole block, so it covers it. -/
theorem cover1_2 (p0 : Vec F S1x1x8192x64 .f32) (y : S1x1x8192x64.Idx) :
    ∃ pc ∈ ([⟨rQ, p0⟩] : List (View.Piece (Elt F) S1x1x8192x64 .f32)), y ∈ pc.1.set :=
  View.cover_of_tiled [⟨rQ, p0⟩] S1x1x8192x64.size (by rfl) y

set_option maxHeartbeats 1000000 in
/-- The body on whole staging buffers, the inputs' at read contents and the output's at anything, runs to the
    continuation holding the inputs' as they were and the output's at `out1_2` of them. -/
theorem sound_kernel1 (c : Dev nD) (E : Set ℕ) (i : grid1.Coords)
    (arg2 : Memref sig .tc .vmem S1x1x8192x64 .f32) (harg2 : arg2.IsWhole)
    (arg3 : Memref sig .tc .vmem S1x1x64x64 .f32) (harg3 : arg3.IsWhole)
    (arg4 : Memref sig .tc .vmem S1x1x8192x64 .f32) (harg4 : arg4.IsWhole)
    (x0 : Vec F S1x1x8192x64 .f32) (x1 : Vec F S1x1x64x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_out_kernel i arg2 harg2 arg3 harg3 arg4 harg4) K := by
  simp only [cc1_out_kernel_eq_skeleton]; unfold cc1_out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.Kernel.Hand

end
-- ==== Proof.KB.Dat1.lean ====
/-
  The second kernel's proof data at the contents `V` the region is entered with, and its body obligation:
  after the body at a point each input's buffer holds its block and the output's the body's result on them.
-/
import proofs.«130264_j15891378995472_2_alg».proof.Proof.KB.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body each input's buffer at its block, the output's at
    the body's result on the two blocks; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KB.Run.lean ====
/-
  The whole run of the kernel's program: three stretches of host operations, the first kernel's region, the
  second kernel's region. The buffer contents at each boundary are a fold from the launch memory; each region
  leaves its arrays at what its write-backs make of them; every execution terminates with every unscoped
  buffer at the last boundary's contents.
-/
import proofs.«130264_j15891378995472_2_alg».proof.Proof.KB.Dat0
import proofs.«130264_j15891378995472_2_alg».proof.Proof.KB.Dat1
import proofs.«130264_j15891378995472_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch, and after each of the three host stretches (the last is the first region's entry). -/
abbrev W0 : Dev nD → Valuation τ sig (Elt F) := fun c => Gen.V0 m c
abbrev W3 : Dev nD → Valuation τ sig (Elt F) := fun c => Gen.V3 m c
abbrev V3 : (c : Dev nD) → (b : Ref sig .tc) → Buf (Elt F) ((c : Thread nD τ).loc b) := fun c b => W3 m c b
/-- At the first region's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- At the second region's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ### The arguments end as launched: no host operation writes one, and a region only reads them -/

theorem W5_main_arg0 (c : Dev nD) : W5 m c (Proc.devRef .tc main_arg0) = m ((c : Thread nD τ).loc main_arg0) :=
  (W5_arr m c 0).trans <| (((dat1 (V4 m) c).arrAt_in 0 rfl _).trans (A_eq1 (V4 m) c 0)).trans <|
    (W4_of_ne m c main_arg0 (by decide)).trans <| (Gen.V3_of m c main_arg0 (by decide)).trans <| (Gen.V2_of m c main_arg0 (by decide)).trans <| (Gen.V1_of m c main_arg0 (by decide)).trans rfl
theorem W5_main_arg1 (c : Dev nD) : W5 m c (Proc.devRef .tc main_arg1) = m ((c : Thread nD τ).loc main_arg1) :=
  (W5_of_ne m c main_arg1 (by decide)).trans <| (W4_arr m c 0).trans <| (((dat0 (V3 m) c).arrAt_in 0 rfl _).trans (A_eq0 (V3 m) c 0)).trans <| (Gen.V3_of m c main_arg1 (by decide)).trans <| (Gen.V2_of m c main_arg1 (by decide)).trans <| (Gen.V1_of m c main_arg1 (by decide)).trans rfl
theorem W5_main_arg2 (c : Dev nD) : W5 m c (Proc.devRef .tc main_arg2) = m ((c : Thread nD τ).loc main_arg2) :=
  (W5_of_ne m c main_arg2 (by decide)).trans <| (W4_arr m c 1).trans <| (((dat0 (V3 m) c).arrAt_in 1 rfl _).trans (A_eq0 (V3 m) c 1)).trans <| (Gen.V3_of m c main_arg2 (by decide)).trans <| (Gen.V2_of m c main_arg2 (by decide)).trans <| (Gen.V1_of m c main_arg2 (by decide)).trans rfl
theorem W5_main_arg3 (c : Dev nD) : W5 m c (Proc.devRef .tc main_arg3) = m ((c : Thread nD τ).loc main_arg3) :=
  (W5_of_ne m c main_arg3 (by decide)).trans <| (W4_of_ne m c main_arg3 (by decide)).trans <| (Gen.V3_of m c main_arg3 (by decide)).trans <| (Gen.V2_of m c main_arg3 (by decide)).trans <| (Gen.V1_of m c main_arg3 (by decide)).trans rfl
theorem W5_main_arg4 (c : Dev nD) : W5 m c (Proc.devRef .tc main_arg4) = m ((c : Thread nD τ).loc main_arg4) :=
  (W5_of_ne m c main_arg4 (by decide)).trans <| (W4_of_ne m c main_arg4 (by decide)).trans <| (Gen.V3_of m c main_arg4 (by decide)).trans <| (Gen.V2_of m c main_arg4 (by decide)).trans <| (Gen.V1_of m c main_arg4 (by decide)).trans rfl
theorem W5_main_arg5 (c : Dev nD) : W5 m c (Proc.devRef .tc main_arg5) = m ((c : Thread nD τ).loc main_arg5) :=
  (W5_of_ne m c main_arg5 (by decide)).trans <| (W4_of_ne m c main_arg5 (by decide)).trans <| (Gen.V3_of m c main_arg5 (by decide)).trans <| (Gen.V2_of m c main_arg5 (by decide)).trans <| (Gen.V1_of m c main_arg5 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-- The class invariant from its parts, and back. -/
theorem phiA_of {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
theorem of_phiA {gr W : Nat} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state "every unscoped buffer at the boundary's contents, the generator register at some
    state, nothing owed": its arrays split out of the unscoped buffers at entry and put back at their final contents at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of spec0 c _).trans (hin0 (V3 m) c)
  hout c := by
    rw [Pipeline.ownSems0_none]
    exact (hout0 (V3 m) c).trans (of_phiA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at their final contents at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .host (hseg hostOps0_1 hostOps0_1_sub Gen.hostOps0_1_fresh (fun c => Gen.V1 m c)),
    .host (hseg hostOps0_2 hostOps0_2_sub Gen.hostOps0_2_fresh (fun c => Gen.V2 m c)),
    .region (reg0 m),
    .region (reg1 m) ]

theorem main_run (c : Dev nD) : main (F := F) c = Pipeline.Seg.run (segs m) :=
  (main_chain c).trans (by rw [Pipeline.Seg.run_eq_chain]; rfl)

set_option backward.isDefEq.respectTransparency.types false in
/-- THE RUN: from any memory with zero counters every weakly fair execution of the program terminates, nothing faulting,
    and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.Kernel.Hand

end
-- ==== Proof.KI.Base0.lean ====
/-
  The first kernel (grid (batch, head, half of the sequence)): what its runs are stated over.
  The body zero-fills its 64×64 accumulator at the first half (coordinate 2 = 0), adds the half's
  contribution at every point, and copies the accumulator into the output block at the second half
  (coordinate 2 = 1); the output block is idle at the first half.
-/
import proofs.«130264_j15891378995472_2_alg».proof.Proof.Gen.KernelIdeal.Launch
import proofs.«130264_j15891378995472_2_alg».proof.Proof.Gen.KernelIdeal.Skeleton
import proofs.«130264_j15891378995472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- "This is the first half of the sequence": the accumulator is zero-filled. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "This is the second half": the accumulator is copied into the output block. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first-half point the output block is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At a second-half point it is stored into. -/
theorem liveAt0_5_B : ∀ t : Fin cfg0.N, ¬cond0_0 (grid0.coords t) → cond0_1 (grid0.coords t) → cfg0.idle 5 (grid0.coords t) = false := by decide +kernel

/-! ## The staging buffers and the accumulator -/

abbrev ms0_0 (t : Fin cfg0.N) : Memref sig .tc .vmem S1x1x4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x64 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S64x64 .f32 := Memref.whole cc0_scratch0
abbrev VS0_0 : View sig .tc .vmem S64x64 .f32 := scM0_0.view
/-- One staging buffer of the output window, through which its contents are stated. -/
abbrev VO0_5 : View sig .tc .vmem S1x1x64x64 .f32 := (Memref.whole cc0_stg5_0 : Memref sig .tc .vmem S1x1x64x64 .f32).view

/-- The scoped buffers of the core that belong to the other kernel, each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's scoped rest with the accumulator as a buffer owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

/-! ## The windows' blocks, at the contents `V` the region is entered with -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

end Cert.KernelIdeal.Hand

end
-- ==== Proof.KI.Run0A.lean ====
/-
  The first kernel's body at a first-half point: the accumulator is zero-filled, then the half's
  contribution is added; the output block is left untouched.
-/
import proofs.«130264_j15891378995472_2_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator at a first-half point (last first), with the run: on whole
    staging buffers — the inputs' at their contents, the idle output's at contents handed back untouched, the accumulator at
    anything — the body runs to the continuation holding the inputs' as they were and the accumulator with its pieces written. -/
noncomputable def kernelRun0_A (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x4096x64 .f32) (x1 : Vec F S1x1x4096x64 .f32) (x2 : Vec F S1x4096x1 .f32) (x3 : Vec F S1x1x64 .f32) (x4 : Vec F S1x1x64 .f32) :
    Σ' (L5 : List (View.Piece (Elt F) S1x1x64x64 .f32)), { LS0 : List (View.Piece (Elt F) S64x64 .f32) //
      ∀ (xi5 : Vec F S1x1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨[], ?_, fun xi5 E K => ?run⟩
  case run =>
    simp only [cc0_kv_kernel_eq_skeleton]; unfold cc0_kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KI.Run0B.lean ====
/-
  The first kernel's body at a second-half point: the half's contribution is added to the accumulator
  the first half left, and the accumulator is copied into the output block.
-/
import proofs.«130264_j15891378995472_2_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at a second-half point (last first),
    with the run: on whole staging buffers — the inputs' at their contents, the output's at anything, the accumulator at the
    contents `xs0` the point before left — the body runs to the continuation holding the inputs' as they were and the output
    block and the accumulator with their pieces written. -/
noncomputable def kernelRun0_B (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) :
    Σ' (L5 : List (View.Piece (Elt F) S1x1x64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨?_, ?_, fun E K => ?run⟩
  case run =>
    simp only [cc0_kv_kernel_eq_skeleton]; unfold cc0_kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KI.Dat0.lean ====
/-
  The first kernel's proof data at the contents `V` the region is entered with: what the output block and
  the accumulator hold after each point, by recursion on the point (a second-half point starts from what the
  first-half point before it left in the accumulator), the region invariant carrying the accumulator, and the
  body obligation.
-/
import proofs.«130264_j15891378995472_2_alg».proof.Proof.KI.Run0A
import proofs.«130264_j15891378995472_2_alg».proof.Proof.KI.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- A first-half point stores nothing into the output block: a placeholder nothing consults. -/
def out0_A_5 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x4096x64 .f32) (x1 : Vec F S1x1x4096x64 .f32) (x2 : Vec F S1x4096x1 .f32) (x3 : Vec F S1x1x64 .f32) (x4 : Vec F S1x1x64 .f32) : Vec F S1x1x64x64 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- Its stores into the accumulator cover it. -/
theorem scover0_A_0 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x4096x64 .f32) (x1 : Vec F S1x1x4096x64 .f32) (x2 : Vec F S1x4096x1 .f32) (x3 : Vec F S1x1x64 .f32) (x4 : Vec F S1x1x64 .f32) (y : S64x64.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S64x64.size (by sl_kernel_rfl) y

/-- What a first-half point leaves in the accumulator. -/
def sout0_A_0 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x4096x64 .f32) (x1 : Vec F S1x1x4096x64 .f32) (x2 : Vec F S1x4096x1 .f32) (x3 : Vec F S1x1x64 .f32) (x4 : Vec F S1x1x64 .f32) : Vec F S64x64 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- A second-half point's store into the output block covers it. -/
theorem cover0_B_5 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) (y : S1x1x64x64.Idx) :
    ∃ pc ∈ (kernelRun0_B c i arg3 harg3 arg4 harg4 arg5 harg5 arg6 harg6 arg7 harg7 arg8 harg8 arg9 harg9 hc0 hc1 x0 x1 x2 x3 x4 xs0).1, y ∈ pc.1.set :=
  View.cover_of_tiledL (kernelRun0_B c i arg3 harg3 arg4 harg4 arg5 harg5 arg6 harg6 arg7 harg7 arg8 harg8 arg9 harg9 hc0 hc1 x0 x1 x2 x3 x4 xs0).1 S1x1x64x64.size (by sl_kernel_rfl) y

/-- What a second-half point leaves in the output block. -/
def out0_B_5 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) : Vec F S1x1x64x64 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

theorem scover0_B_0 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) (y : S64x64.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S64x64.size (by sl_kernel_rfl) y

/-- What a second-half point leaves in the accumulator. -/
def sout0_B_0 (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) : Vec F S64x64 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

section
variable (V : (c : Dev nD) → (b : Ref sig .tc) → Buf (Elt F) ((c : Thread nD τ).loc b))

theorem hcA0 (t : Fin cfg0.N) (h0 : t.val % 2 = 0) : cond0_0 (grid0.coords t) := (hcond0_0 t).mpr h0
theorem hcA1 (t : Fin cfg0.N) (h0 : t.val % 2 = 0) : ¬cond0_1 (grid0.coords t) := fun h => by
  have := (hcond0_1 t).mp h; omega
theorem hcB0 (t : Fin cfg0.N) (h1 : t.val % 2 = 1) : ¬cond0_0 (grid0.coords t) := fun h => by
  have := (hcond0_0 t).mp h; omega
theorem hcB1 (t : Fin cfg0.N) (h1 : t.val % 2 = 1) : cond0_1 (grid0.coords t) := (hcond0_1 t).mpr h1

/-- The output block and the accumulator after a first-half point `t`. -/
def pairA (c : Dev nD) (t : Fin cfg0.N) (h0 : t.val % 2 = 0) : Vec F S1x1x64x64 .f32 × Vec F S64x64 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (hcA0 t h0) (hcA1 t h0) (iblk0 V c 0 t) (iblk0 V c 1 t) (iblk0 V c 2 t) (iblk0 V c 3 t) (iblk0 V c 4 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (hcA0 t h0) (hcA1 t h0) (iblk0 V c 0 t) (iblk0 V c 1 t) (iblk0 V c 2 t) (iblk0 V c 3 t) (iblk0 V c 4 t))

/-- The output block and the accumulator after a second-half point `t` that found the accumulator at `xs`. -/
def pairB (c : Dev nD) (t : Fin cfg0.N) (h1 : t.val % 2 = 1) (xs : Vec F S64x64 .f32) : Vec F S1x1x64x64 .f32 × Vec F S64x64 .f32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (hcB0 t h1) (hcB1 t h1) (iblk0 V c 0 t) (iblk0 V c 1 t) (iblk0 V c 2 t) (iblk0 V c 3 t) (iblk0 V c 4 t) xs,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (hcB0 t h1) (hcB1 t h1) (iblk0 V c 0 t) (iblk0 V c 1 t) (iblk0 V c 2 t) (iblk0 V c 3 t) (iblk0 V c 4 t) xs)

/-- THE ACCUMULATION: the output block and the accumulator after the body at position `n`. -/
def outsAt0 (c : Dev nD) : (n : ℕ) → n < cfg0.N → Vec F S1x1x64x64 .f32 × Vec F S64x64 .f32
  | 0, hn => pairA V c ⟨0, hn⟩ (Nat.zero_mod _)
  | n + 1, hn =>
    if h0 : (n + 1) % 2 = 0 then pairA V c ⟨n + 1, hn⟩ h0
    else pairB V c ⟨n + 1, hn⟩ (by show (n + 1) % 2 = 1; omega) (outsAt0 c n (Nat.lt_of_succ_lt hn)).2

theorem outsAt0_A (c : Dev nD) (t : Fin cfg0.N) (h0 : t.val % 2 = 0) :
    outsAt0 V c t.val t.isLt = pairA V c t h0 := by
  obtain ⟨n, hn⟩ := t
  cases n with
  | zero => exact rfl
  | succ n => exact dif_pos h0

theorem outsAt0_B (c : Dev nD) (t : Fin cfg0.N) (h1 : t.val % 2 = 1) :
    outsAt0 V c t.val t.isLt = pairB V c t h1 (outsAt0 V c (t.val - 1) (Nat.lt_of_le_of_lt (Nat.sub_le _ _) t.isLt)).2 := by
  obtain ⟨n, hn⟩ := t
  cases n with
  | zero => exact absurd h1 (by show ¬ (0 % 2 = 1); decide)
  | succ n => exact dif_neg (by show ¬ (n + 1) % 2 = 0; have : (n + 1) % 2 = 1 := h1; omega)

/-- The region invariant before position `n`: before the first point the scoped rest at anything; afterwards the accumulator at
    what the point before left, the other kernel's scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_4 t, after0_4]

set_option maxHeartbeats 4800000 in
/-- The body at any point: the inputs' buffers hold their blocks; the parity of the point says which case it is in; the
    invariant hands the body the accumulator at what the point before left (at anything at the very first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4]
  have hN : t.val < 128 := lt_of_lt_of_eq t.isLt (show cfg0.N = 128 from N_0)
  by_cases h0 : t.val % 2 = 0
  · rw [Dat.leavesExact_idle (dat0 V c) 5 t (idleAt0_5_A t (hcA0 t h0) (hcA1 t h0)) (noFlush0_5_A t (hcA0 t h0) (hcA1 t h0))]
    rw [outsAt0_A V c t h0]
    unfold pairA sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (hcA0 t h0) (hcA1 t h0) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (hcA0 t h0) (hcA1 t h0) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hz : t.val ≠ 0 := by omega
    rw [show (dat0 V c).leavesExact 5 t = owns (c : Thread nD τ) (ms0_5 t) fullShare ((dat0 V c).after 5 t) from by
      unfold Dat.leavesExact; rw [liveAt0_5_B t (hcB0 t h1) (hcB1 t h1)], after0_5]
    rw [outsAt0_B V c t h1]
    unfold pairB out0_B_5 sout0_B_0; (try dsimp only)
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (hcB0 t h1) (hcB1 t h1) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA0_eq]
  iintro ⟨⟨HS0, HR⟩, Hg⟩
  isplitl [HS0 HR]
  · isplitl [HS0]
    · iexists _; iexact HS0
    iexact HR
  iexact Hg

end

end Cert.KernelIdeal.Hand

end
-- ==== Proof.KI.Body1.lean ====
/-
  The second kernel (one grid point per (batch, head)): its body on whole staging buffers.
  The body reads the query block x0 [1,1,8192,64] and the state block x1 [1,1,64,64] and stores, through
  the whole output block, the product of the featurised queries with the state (the skeleton's payload).
-/
import proofs.«130264_j15891378995472_2_alg».proof.Proof.Gen.KernelIdeal.Launch
import proofs.«130264_j15891378995472_2_alg».proof.Proof.Gen.KernelIdeal.Skeleton
import proofs.«130264_j15891378995472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: each goes through its buffer's whole rectangle -/

abbrev rQ : Rect S1x1x8192x64 := Rect.unit (s := S1x1x8192x64) ![0, 0, 0, 0] S1x1x8192x64.size inb_S1x1x8192x64_S1x1x8192x64_0_0_0_0
abbrev rS : Rect S1x1x64x64 := Rect.unit (s := S1x1x64x64) ![0, 0, 0, 0] S1x1x64x64.size inb_S1x1x64x64_S1x1x64x64_0_0_0_0

/-- What the body leaves in the output block, from the query block and the state block: its one store. -/
def out1_2 (x0 : Vec F S1x1x8192x64 .f32) (x1 : Vec F S1x1x64x64 .f32) : Vec F S1x1x8192x64 .f32 :=
  View.canon [⟨rQ, k1_pay1 (View.ld x0 rQ) (View.ld x1 rS)⟩]

/-- The one store goes through the whole block, so it covers it. -/
theorem cover1_2 (p0 : Vec F S1x1x8192x64 .f32) (y : S1x1x8192x64.Idx) :
    ∃ pc ∈ ([⟨rQ, p0⟩] : List (View.Piece (Elt F) S1x1x8192x64 .f32)), y ∈ pc.1.set :=
  View.cover_of_tiled [⟨rQ, p0⟩] S1x1x8192x64.size (by rfl) y

set_option maxHeartbeats 1000000 in
/-- The body on whole staging buffers, the inputs' at read contents and the output's at anything, runs to the
    continuation holding the inputs' as they were and the output's at `out1_2` of them. -/
theorem sound_kernel1 (c : Dev nD) (E : Set ℕ) (i : grid1.Coords)
    (arg2 : Memref sig .tc .vmem S1x1x8192x64 .f32) (harg2 : arg2.IsWhole)
    (arg3 : Memref sig .tc .vmem S1x1x64x64 .f32) (harg3 : arg3.IsWhole)
    (arg4 : Memref sig .tc .vmem S1x1x8192x64 .f32) (harg4 : arg4.IsWhole)
    (x0 : Vec F S1x1x8192x64 .f32) (x1 : Vec F S1x1x64x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_out_kernel i arg2 harg2 arg3 harg3 arg4 harg4) K := by
  simp only [cc1_out_kernel_eq_skeleton]; unfold cc1_out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.KernelIdeal.Hand

end
-- ==== Proof.KI.Dat1.lean ====
/-
  The second kernel's proof data at the contents `V` the region is entered with, and its body obligation:
  after the body at a point each input's buffer holds its block and the output's the body's result on them.
-/
import proofs.«130264_j15891378995472_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body each input's buffer at its block, the output's at
    the body's result on the two blocks; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
/-
  The whole run of the kernel's program: three stretches of host operations, the first kernel's region, the
  second kernel's region. The buffer contents at each boundary are a fold from the launch memory; each region
  leaves its arrays at what its write-backs make of them; every execution terminates with every unscoped
  buffer at the last boundary's contents.
-/
import proofs.«130264_j15891378995472_2_alg».proof.Proof.KI.Dat0
import proofs.«130264_j15891378995472_2_alg».proof.Proof.KI.Dat1
import proofs.«130264_j15891378995472_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch, and after each of the three host stretches (the last is the first region's entry). -/
abbrev W0 : Dev nD → Valuation τ sig (Elt F) := fun c => Gen.V0 m c
abbrev W3 : Dev nD → Valuation τ sig (Elt F) := fun c => Gen.V3 m c
abbrev V3 : (c : Dev nD) → (b : Ref sig .tc) → Buf (Elt F) ((c : Thread nD τ).loc b) := fun c b => W3 m c b
/-- At the first region's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- At the second region's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ### The arguments end as launched: no host operation writes one, and a region only reads them -/

theorem W5_main_arg0 (c : Dev nD) : W5 m c (Proc.devRef .tc main_arg0) = m ((c : Thread nD τ).loc main_arg0) :=
  (W5_arr m c 0).trans <| (((dat1 (V4 m) c).arrAt_in 0 rfl _).trans (A_eq1 (V4 m) c 0)).trans <|
    (W4_of_ne m c main_arg0 (by decide)).trans <| (Gen.V3_of m c main_arg0 (by decide)).trans <| (Gen.V2_of m c main_arg0 (by decide)).trans <| (Gen.V1_of m c main_arg0 (by decide)).trans rfl
theorem W5_main_arg1 (c : Dev nD) : W5 m c (Proc.devRef .tc main_arg1) = m ((c : Thread nD τ).loc main_arg1) :=
  (W5_of_ne m c main_arg1 (by decide)).trans <| (W4_arr m c 0).trans <| (((dat0 (V3 m) c).arrAt_in 0 rfl _).trans (A_eq0 (V3 m) c 0)).trans <| (Gen.V3_of m c main_arg1 (by decide)).trans <| (Gen.V2_of m c main_arg1 (by decide)).trans <| (Gen.V1_of m c main_arg1 (by decide)).trans rfl
theorem W5_main_arg2 (c : Dev nD) : W5 m c (Proc.devRef .tc main_arg2) = m ((c : Thread nD τ).loc main_arg2) :=
  (W5_of_ne m c main_arg2 (by decide)).trans <| (W4_arr m c 1).trans <| (((dat0 (V3 m) c).arrAt_in 1 rfl _).trans (A_eq0 (V3 m) c 1)).trans <| (Gen.V3_of m c main_arg2 (by decide)).trans <| (Gen.V2_of m c main_arg2 (by decide)).trans <| (Gen.V1_of m c main_arg2 (by decide)).trans rfl
theorem W5_main_arg3 (c : Dev nD) : W5 m c (Proc.devRef .tc main_arg3) = m ((c : Thread nD τ).loc main_arg3) :=
  (W5_of_ne m c main_arg3 (by decide)).trans <| (W4_of_ne m c main_arg3 (by decide)).trans <| (Gen.V3_of m c main_arg3 (by decide)).trans <| (Gen.V2_of m c main_arg3 (by decide)).trans <| (Gen.V1_of m c main_arg3 (by decide)).trans rfl
theorem W5_main_arg4 (c : Dev nD) : W5 m c (Proc.devRef .tc main_arg4) = m ((c : Thread nD τ).loc main_arg4) :=
  (W5_of_ne m c main_arg4 (by decide)).trans <| (W4_of_ne m c main_arg4 (by decide)).trans <| (Gen.V3_of m c main_arg4 (by decide)).trans <| (Gen.V2_of m c main_arg4 (by decide)).trans <| (Gen.V1_of m c main_arg4 (by decide)).trans rfl
theorem W5_main_arg5 (c : Dev nD) : W5 m c (Proc.devRef .tc main_arg5) = m ((c : Thread nD τ).loc main_arg5) :=
  (W5_of_ne m c main_arg5 (by decide)).trans <| (W4_of_ne m c main_arg5 (by decide)).trans <| (Gen.V3_of m c main_arg5 (by decide)).trans <| (Gen.V2_of m c main_arg5 (by decide)).trans <| (Gen.V1_of m c main_arg5 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-- The class invariant from its parts, and back. -/
theorem phiA_of {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
theorem of_phiA {gr W : Nat} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state "every unscoped buffer at the boundary's contents, the generator register at some
    state, nothing owed": its arrays split out of the unscoped buffers at entry and put back at their final contents at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of spec0 c _).trans (hin0 (V3 m) c)
  hout c := by
    rw [Pipeline.ownSems0_none]
    exact (hout0 (V3 m) c).trans (of_phiA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at their final contents at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .host (hseg hostOps0_1 hostOps0_1_sub Gen.hostOps0_1_fresh (fun c => Gen.V1 m c)),
    .host (hseg hostOps0_2 hostOps0_2_sub Gen.hostOps0_2_fresh (fun c => Gen.V2 m c)),
    .region (reg0 m),
    .region (reg1 m) ]

theorem main_run (c : Dev nD) : main (F := F) c = Pipeline.Seg.run (segs m) :=
  (main_chain c).trans (by rw [Pipeline.Seg.run_eq_chain]; rfl)

set_option backward.isDefEq.respectTransparency.types false in
/-- THE RUN: from any memory with zero counters every weakly fair execution of the program terminates, nothing faulting,
    and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.KI.Pieces0.lean ====
/-
  What the first kernel's body leaves, read as values: at a first-half point the accumulator ends at the
  half's contribution added onto the zero fill; at a second-half point it ends at the contribution added onto
  what it held, and the output block at a copy of that.
-/
import proofs.«130264_j15891378995472_2_alg».proof.Proof.KI.Dat0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem sout0_A_eq (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x4096x64 .f32) (x1 : Vec F S1x1x4096x64 .f32) (x2 : Vec F S1x4096x1 .f32) (x3 : Vec F S1x1x64 .f32) (x4 : Vec F S1x1x64 .f32) :
    sout0_A_0 (F := F) c i arg3 harg3 arg4 harg4 arg5 harg5 arg6 harg6 arg7 harg7 arg8 harg8 arg9 harg9 hc0 hc1 x0 x1 x2 x3 x4 = k0_pay1 (k0_pay4 x0 x3 x4) (k0_pay5 x1 x2) (k0_pay3 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  refine (View.canon_cons_unit_zero hz2 _ _ _).trans ?_
  simp only [View.readAt_eq_ld, harg3.read_unread, harg4.read_unread, harg5.read_unread, harg6.read_unread, harg7.read_unread]
  rw [View.readCov_unit_zero _ hz2]
  simp only [View.ld_unit_zero (S := S1x1x4096x64) hz4, View.ld_unit_zero (S := S1x4096x1) hz3, View.ld_unit_zero (S := S1x1x64) hz3]

theorem sout0_B_eq (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) :
    sout0_B_0 (F := F) c i arg3 harg3 arg4 harg4 arg5 harg5 arg6 harg6 arg7 harg7 arg8 harg8 arg9 harg9 hc0 hc1 x0 x1 x2 x3 x4 xs0 = k0_pay1 (k0_pay4 x0 x3 x4) (k0_pay5 x1 x2) xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  refine (View.canon_unit_zero hz2 _ _).trans ?_
  simp only [View.readAt_eq_ld, harg3.read_unread, harg4.read_unread, harg5.read_unread, harg6.read_unread, harg7.read_unread, harg9.read_unread]
  simp only [View.ld_unit_zero (S := S1x1x4096x64) hz4, View.ld_unit_zero (S := S1x4096x1) hz3, View.ld_unit_zero (S := S1x1x64) hz3, View.ld_unit_zero (S := S64x64) hz2]

theorem out0_B_eq (c : Dev nD) (i : grid0.Coords) (arg3 : Memref sig .tc .vmem S1x1x4096x64 .f32) (harg3 : arg3.IsWhole) (arg4 : Memref sig .tc .vmem S1x1x4096x64 .f32) (harg4 : arg4.IsWhole) (arg5 : Memref sig .tc .vmem S1x4096x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x4096x64 .f32) (x1 : Vec F S1x1x4096x64 .f32) (x2 : Vec F S1x4096x1 .f32) (x3 : Vec F S1x1x64 .f32) (x4 : Vec F S1x1x64 .f32) (xs0 : Vec F S64x64 .f32) :
    out0_B_5 (F := F) c i arg3 harg3 arg4 harg4 arg5 harg5 arg6 harg6 arg7 harg7 arg8 harg8 arg9 harg9 hc0 hc1 x0 x1 x2 x3 x4 xs0 = k0_pay2 (k0_pay1 (k0_pay4 x0 x3 x4) (k0_pay5 x1 x2) xs0) := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xs0)]
  unfold kernelRun0_B
  dsimp only
  sl_unfold_words
  refine (View.canon_unit_zero hz4 _ _).trans ?_
  rw [View.readCov_unit_zero _ hz2]
  simp only [View.readAt_eq_ld, harg3.read_unread, harg4.read_unread, harg5.read_unread, harg6.read_unread, harg7.read_unread, harg9.read_unread]
  simp only [View.ld_unit_zero (S := S1x1x4096x64) hz4, View.ld_unit_zero (S := S1x4096x1) hz3, View.ld_unit_zero (S := S1x1x64) hz3, View.ld_unit_zero (S := S64x64) hz2]

end Cert.KernelIdeal.Hand

end
-- ==== Proof.Spec.lean ====
/-
  The two arrangements of the computation, as functions on the extended reals over plain coordinates.

  Both programs compute kernelised linear attention with a two-component key shift:
  with p = clip(pi) to [0,1], a feature map phi(x) = elu(x) + 1 and a scale s,
    out[b,h,l,e] = Σ_d phi(Q[b,h,l,d])·s · Σ_l' (phi(Km[b,h,l',d])·m[b,l']·s) · (V[b,h,l',e]·m[b,l']).
  The kernel's arrangement factors the shifted key as (p0+p1)·K − (mu0·p0 + mu1·p1), writes phi as
  "x+1 if x>0 else exp x", folds both mask factors into the value side, and sums the sequence in two halves
  onto a zero accumulator. The reference's arrangement shifts the key per component, writes phi through
  expm1, masks key and value separately, and sums the sequence at once. The float literals are kept as the
  words both programs print.
-/
import Idealize.ShloMosaic.PureOps.Ideal
import Idealize.ShloMosaic.Lib.ValueIdx

noncomputable section

namespace Cert.Spec

open Idealize.ShloMosaic

/-- The three f32 words the two programs share, as the extended reals they denote. -/
def zero : EReal := Ideal.ofBits .f32 0x00000000#32
def one : EReal := Ideal.ofBits .f32 0x3F800000#32
def scale : EReal := Ideal.ofBits .f32 0x3DD744FD#32

/-- "x > 0", as the bit a float comparison returns. -/
def pos (x : EReal) : BitVec 1 := Ideal.cmp .ogt x zero

/-- A mixture weight clipped to [0, 1]. -/
def clip (x : EReal) : EReal := min one (max zero x)

section
variable (Q K V : Fin 4 → Fin 16 → Fin 8192 → Fin 64 → EReal) (mask : Fin 4 → Fin 8192 → EReal)
  (pi : Fin 2 → EReal) (mu : Fin 2 → Fin 16 → Fin 64 → EReal)

/-! ## The kernel's arrangement -/

/-- elu(x) + 1 as the kernel writes it. -/
def phiK (x : EReal) : EReal := Scalar.select (pos x) (x + one) (Ideal.exp x)
/-- The sum of the clipped weights, and the weighted mean shift. -/
def coef : EReal := clip (pi 0) + clip (pi 1)
def adj (h : Fin 16) (d : Fin 64) : EReal := mu 0 h d * clip (pi 0) + mu 1 h d * clip (pi 1)
def kmK (b : Fin 4) (h : Fin 16) (l : Fin 8192) (d : Fin 64) : EReal := coef pi * K b h l d - adj pi mu h d
def kfK (b : Fin 4) (h : Fin 16) (l : Fin 8192) (d : Fin 64) : EReal := phiK (kmK K pi mu b h l d) * scale
def vmK (b : Fin 4) (h : Fin 16) (l : Fin 8192) (e : Fin 64) : EReal := V b h l e * (mask b l * mask b l)
/-- Row `r` of half `j` of the sequence. -/
def row (j : Fin 2) (r : Fin 4096) : Fin 8192 := ⟨4096 * j.val + r.val, by omega⟩
/-- One half's contribution to the state. -/
def halfK (b : Fin 4) (h : Fin 16) (j : Fin 2) (d e : Fin 64) : EReal :=
  ∑ r : Fin 4096, kfK K pi mu b h (row j r) d * vmK V mask b h (row j r) e
/-- The state: the two halves added onto a zero accumulator. -/
def kvK (b : Fin 4) (h : Fin 16) (d e : Fin 64) : EReal :=
  (zero + halfK K V mask pi mu b h 0 d e) + halfK K V mask pi mu b h 1 d e
def qfK (b : Fin 4) (h : Fin 16) (l : Fin 8192) (d : Fin 64) : EReal := phiK (Q b h l d) * scale
def outK (b : Fin 4) (h : Fin 16) (l : Fin 8192) (e : Fin 64) : EReal :=
  ∑ d : Fin 64, qfK Q b h l d * kvK K V mask pi mu b h d e

/-! ## The reference's arrangement -/

/-- elu(x) as jax writes it: x where x > 0, else 1 · (exp(x') − 1) at x' = 0 where x > 0, else x. -/
def elu (x : EReal) : EReal := Scalar.select (pos x) x (one * (Ideal.exp (Scalar.select (pos x) zero x) - 1))
def kmR (b : Fin 4) (h : Fin 16) (l : Fin 8192) (d : Fin 64) : EReal :=
  (K b h l d - mu 0 h d) * clip (pi 0) + (K b h l d - mu 1 h d) * clip (pi 1)
def qfR (b : Fin 4) (h : Fin 16) (l : Fin 8192) (d : Fin 64) : EReal := (elu (Q b h l d) + one) * scale
def kfR (b : Fin 4) (h : Fin 16) (l : Fin 8192) (d : Fin 64) : EReal := ((elu (kmR K pi mu b h l d) + one) * mask b l) * scale
def vmR (b : Fin 4) (h : Fin 16) (l : Fin 8192) (e : Fin 64) : EReal := V b h l e * mask b l
def kvR (b : Fin 4) (h : Fin 16) (d e : Fin 64) : EReal := ∑ l : Fin 8192, kfR K mask pi mu b h l d * vmR V mask b h l e
def outR (b : Fin 4) (h : Fin 16) (l : Fin 8192) (e : Fin 64) : EReal :=
  ∑ d : Fin 64, qfR Q b h l d * kvR K V mask pi mu b h d e

end

end Cert.Spec

end
-- ==== Proof.LibColDot.lean ====
/-
  A matrix product that contracts the leading axis of both operands, read at an index.

  The dimension numbers of a [c, a] × [c, b] → [a, b] product contract the left operand's axis 0 with the right
  operand's axis 0 and have no batch axis: the left operand enters transposed. At result index (p, q) and contraction
  position k the left operand is read at (k, p) and the right operand at (k, q), so the sum over the contraction
  shape's one-axis index set is the sum over k : Fin c of lhs (k, p) * rhs (k, q) — in any commutative additive monoid
  with a product, the extended reals included. The statement is over variable extents; a printed record with these six
  lists is this one by reflexivity.
-/
import Idealize.ShloMosaic.Lib.ValueIdx
import Idealize.ShloMosaic.PureOps.Ideal.Laws

noncomputable section

namespace Cert.Lib.ColDot

open Idealize.ShloMosaic Idealize.ShloMosaic.ValueIdx
open scoped BigOperators

variable {a c b : Nat}

/-- The dimension numbers of the product [c, a] × [c, b] → [a, b] contracting the leading axes. -/
abbrev dims (wf : DotDims.WF ⟨2, ![c, a]⟩ ⟨2, ![c, b]⟩ ⟨2, ![a, b]⟩ [0] [0] [1] [1] [] []) :
    DotDims ⟨2, ![c, a]⟩ ⟨2, ![c, b]⟩ ⟨2, ![a, b]⟩ where
  lhsContracting := [0]
  rhsContracting := [0]
  lhsNonContracting := [1]
  rhsNonContracting := [1]
  lhsBatch := []
  rhsBatch := []
  wf := wf

variable (wf : DotDims.WF ⟨2, ![c, a]⟩ ⟨2, ![c, b]⟩ ⟨2, ![a, b]⟩ [0] [0] [1] [1] [] [])

/-- The left operand's row is the contraction position. -/
theorem lhs_row (i : (⟨2, ![a, b]⟩ : Shape).Idx) (k : (dims wf).contr.Idx) :
    ((dims wf).lhsIdx i k 0).val = (k ⟨0, Nat.one_pos⟩).val :=
  (dims wf).lhsIdx_val_of_single rfl i k

/-- The left operand's column is the result's row. -/
theorem lhs_col (i : (⟨2, ![a, b]⟩ : Shape).Idx) (k : (dims wf).contr.Idx) :
    ((dims wf).lhsIdx i k 1).val = (i 0).val := by
  unfold DotDims.lhsIdx
  rw [dif_neg (show ¬(1 : Fin 2) ∈ (dims wf).lhsBatch from List.not_mem_nil),
    dif_pos (show (1 : Fin 2) ∈ (dims wf).lhsNonContracting from List.mem_singleton.mpr rfl)]
  rfl

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (k, p) times the right operand at (k, q). -/
theorem sum_apply {M : Type*} [AddCommMonoid M] [Mul M] (lhs : (⟨2, ![c, a]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 k p) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 k p :=
    funext fun ax => Fin.ext (by
      match ax with
      | ⟨0, _⟩ => exact (lhs_row wf _ _).trans hk
      | ⟨1, _⟩ => exact lhs_col wf _ _)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![c, a]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 k p) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![c, a]⟩ φ₁)
    (rhs : FVec Ideal ⟨2, ![c, b]⟩ φ₂) (p : Fin a) (q : Fin b) :
    Host.dotGeneral (dims wf) prec lhs rhs (ix2 p q) = ∑ k : Fin c, lhs (ix2 k p) * rhs (ix2 k q) :=
  (Ideal.dotGeneral_apply (dims wf) prec _ lhs rhs (ix2 p q)).trans (sum_apply wf lhs rhs p q)

end Cert.Lib.ColDot

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.Payloads.lean ====
/-
  The kernel bodies' pure payloads read at an index, at the exact values.

  A float is an extended real, every operation the textbook one and a change of format the identity. Each payload is
  a chain of pointwise operations around layout operations (casts that add or drop leading unit axes, a row or a
  column broadcast over a matrix) and, twice, a matrix product into a zero accumulator. Read at one index, a layout
  operation reads its operand at one index, a pointwise operation acts on the elements, and a product is the sum
  over the contraction coordinate of the operands' products.
-/
import proofs.«130264_j15891378995472_2_alg».proof.Proof.Gen.KernelIdeal.Skeleton
import proofs.«130264_j15891378995472_2_alg».proof.Proof.Spec
import proofs.«130264_j15891378995472_2_alg».proof.Proof.LibColDot
import proofs.«130264_j15891378995472_2_alg».proof.Proof.LibPlainDot
import Idealize.ShloMosaic.Lib.ValueIdx
import Idealize.ShloMosaic.Lib.ValueLayout
import Idealize.ShloMosaic.PureOps.Ideal.Laws

noncomputable section

namespace Cert.KernelIdeal.PayIdx

open Idealize.ShloMosaic Idealize.ShloMosaic.ValueIdx
open Cert.KernelIdeal Cert.KernelIdeal.Gen
open scoped BigOperators

/-! ## Layout operations at literal indices -/

section Layout
variable {α : Type}

/-- A `[1, 1, a, b]` array cast to `[a, b]` reads, at `(i, j)`, the operand at `(0, 0, i, j)`. -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A `[1, 1, a]` array cast to `[a]` reads, at `i`, the operand at `(0, 0, i)`. -/
theorem cast_11a_a {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a, 1]` column broadcast to `[a, b]` reads, at `(p, c)`, the column at `p`. -/
theorem bcast_a1_ab {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-`b` vector stored as `[1, 1, b]`, cast to `[b]`, then to `[1, b]`, then broadcast over `a` rows, reads at
    `(p, c)` the stored vector at `(0, 0, c)`. -/
theorem rowOf_11b_apply {α : Type} {a b : ℕ} (x : (⟨3, ![1, 1, b]⟩ : Shape).Idx → α)
    (h1 : (⟨3, ![1, 1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ x h1) h2) h3 (ix2 p c)
      = x (ix3 (0 : Fin 1) (0 : Fin 1) c) :=
  (broadcastTo_1b_ab_apply _ _ p c).trans ((shapeCast_a_1a_apply _ _ 0 c).trans (cast_11a_a _ _ c))

end Layout

/-! ## The first kernel's payloads -/

/-- The key feature at `(r, d)`: the feature map of the shifted key, `x3 d · x0 (r, d) − x4 d`, times the scale. -/
theorem pay4_apply (x0 : Vec Ideal S1x1x4096x64 .f32) (x3 x4 : Vec Ideal S1x1x64 .f32) (r : Fin 4096) (d : Fin 64) :
    k0_pay4 (F := Ideal) x0 x3 x4 (ix2 r d)
      = Spec.phiK (x3 (ix3 (0 : Fin 1) (0 : Fin 1) d) * x0 (ix4 (0 : Fin 1) (0 : Fin 1) r d)
          - x4 (ix3 (0 : Fin 1) (0 : Fin 1) d)) * Spec.scale := by
  unfold k0_pay4
  have h4 : shapeCast S4096x64 x0 shapeCasts_S1x1x4096x64_S4096x64 (ix2 r d)
      = x0 (ix4 (0 : Fin 1) (0 : Fin 1) r d) := cast_11ab_ab _ _ r d
  have h14 : broadcastTo S4096x64 (shapeCast S1x64 (shapeCast S64 x3 shapeCasts_S1x1x64_S64) shapeCasts_S64_S1x64)
      broadcasts_S1x64_S4096x64 (ix2 r d) = x3 (ix3 (0 : Fin 1) (0 : Fin 1) d) := rowOf_11b_apply _ _ _ _ r d
  have h17 : broadcastTo S4096x64 (shapeCast S1x64 (shapeCast S64 x4 shapeCasts_S1x1x64_S64) shapeCasts_S64_S1x64)
      broadcasts_S1x64_S4096x64 (ix2 r d) = x4 (ix3 (0 : Fin 1) (0 : Fin 1) d) := rowOf_11b_apply _ _ _ _ r d
  show Spec.phiK
      (broadcastTo S4096x64 (shapeCast S1x64 (shapeCast S64 x3 shapeCasts_S1x1x64_S64) shapeCasts_S64_S1x64)
          broadcasts_S1x64_S4096x64 (ix2 r d)
        * shapeCast S4096x64 x0 shapeCasts_S1x1x4096x64_S4096x64 (ix2 r d)
        - broadcastTo S4096x64 (shapeCast S1x64 (shapeCast S64 x4 shapeCasts_S1x1x64_S64) shapeCasts_S64_S1x64)
          broadcasts_S1x64_S4096x64 (ix2 r d)) * Spec.scale = _
  rw [h4, h14, h17]

/-- The masked value at `(r, e)`: the value at `(r, e)` times the square of the mask at `r`. -/
theorem pay5_apply (x1 : Vec Ideal S1x1x4096x64 .f32) (x2 : Vec Ideal S1x4096x1 .f32) (r : Fin 4096) (e : Fin 64) :
    k0_pay5 (F := Ideal) x1 x2 (ix2 r e)
      = x1 (ix4 (0 : Fin 1) (0 : Fin 1) r e)
          * (x2 (ix3 (0 : Fin 1) r (0 : Fin 1)) * x2 (ix3 (0 : Fin 1) r (0 : Fin 1))) := by
  unfold k0_pay5
  have h6 : shapeCast S4096x64 x1 shapeCasts_S1x1x4096x64_S4096x64 (ix2 r e)
      = x1 (ix4 (0 : Fin 1) (0 : Fin 1) r e) := cast_11ab_ab _ _ r e
  have h8 : shapeCast S4096x1 x2 shapeCasts_S1x4096x1_S4096x1 (ix2 r (0 : Fin 1))
      = x2 (ix3 (0 : Fin 1) r (0 : Fin 1)) := shapeCast_1ab_ab_apply _ _ r 0
  have h28 : ∀ v : FVec Ideal S4096x1 .f32,
      broadcastTo S4096x64 (mulf v v) broadcasts_S4096x1_S4096x64 (ix2 r e)
        = v (ix2 r (0 : Fin 1)) * v (ix2 r (0 : Fin 1)) := fun v => bcast_a1_ab _ _ r e
  show shapeCast S4096x64 x1 shapeCasts_S1x1x4096x64_S4096x64 (ix2 r e)
      * broadcastTo S4096x64
        (mulf (shapeCast S4096x1 x2 shapeCasts_S1x4096x1_S4096x1 : FVec Ideal S4096x1 .f32)
          (shapeCast S4096x1 x2 shapeCasts_S1x4096x1_S4096x1))
        broadcasts_S4096x1_S4096x64 (ix2 r e) = _
  rw [h6, h28, h8]

/-- The accumulator's new contents at `(d, e)`: the old contents plus the sum over the rows `r` of the half of the key
    feature at `(r, d)` times the masked value at `(r, e)`. -/
theorem pay1_apply (v30 v31 : FVec Ideal S4096x64 .bf16) (v32 : Vec Ideal S64x64 .f32) (d e : Fin 64) :
    k0_pay1 (F := Ideal) v30 v31 v32 (ix2 d e)
      = v32 (ix2 d e) + ∑ r : Fin 4096, v30 (ix2 r d) * v31 (ix2 r e) := by
  unfold k0_pay1
  refine (congrFun (shapeCast_self _ _) _).trans ?_
  refine congrArg (v32 (ix2 d e) + ·) ?_
  exact Cert.Lib.ColDot.matmul_zero_apply dot_S4096x64_S4096x64_S64x64_0_0_1_1_n_n_wf none v30 v31 d e

/-- The output block's contents at `(0, 0, d, e)`: the accumulator at `(d, e)`. -/
theorem pay2_apply (v41 : Vec Ideal S64x64 .f32) (d e : Fin 64) :
    k0_pay2 (F := Ideal) v41 (ix4 (0 : Fin 1) (0 : Fin 1) d e) = v41 (ix2 d e) := by
  unfold k0_pay2
  exact cast_ab_11ab _ _ 0 0 d e

/-- The accumulator's first contents: zero everywhere. -/
theorem pay3_apply (d e : Fin 64) : k0_pay3 (F := Ideal) (ix2 d e) = Spec.zero := by
  unfold k0_pay3
  exact congrFun (shapeCast_self _ _) _

/-! ## The second kernel's payload -/

/-- The output block at `(0, 0, l, e)`: the sum over `d` of the scaled feature of the query at `(l, d)` times the
    state at `(d, e)`. -/
theorem k1_apply (x0 : Vec Ideal S1x1x8192x64 .f32) (x1 : Vec Ideal S1x1x64x64 .f32) (l : Fin 8192) (e : Fin 64) :
    k1_pay1 (F := Ideal) x0 x1 (ix4 (0 : Fin 1) (0 : Fin 1) l e)
      = ∑ d : Fin 64, (Spec.phiK (x0 (ix4 (0 : Fin 1) (0 : Fin 1) l d)) * Spec.scale)
          * x1 (ix4 (0 : Fin 1) (0 : Fin 1) d e) := by
  unfold k1_pay1
  refine (cast_ab_11ab _ _ 0 0 l e).trans ?_
  refine (Cert.Lib.PlainDot.matmul_zero_apply dot_S8192x64_S64x64_S8192x64_1_0_0_1_n_n_wf none _ _ l e).trans ?_
  refine Finset.sum_congr rfl fun d _ => ?_
  have h1 : shapeCast S8192x64 x0 shapeCasts_S1x1x8192x64_S8192x64 (ix2 l d) = x0 (ix4 (0 : Fin 1) (0 : Fin 1) l d) :=
    cast_11ab_ab _ _ l d
  have h3 : shapeCast S64x64 x1 shapeCasts_S1x1x64x64_S64x64 (ix2 d e) = x1 (ix4 (0 : Fin 1) (0 : Fin 1) d e) :=
    cast_11ab_ab _ _ d e
  show Scalar.select (Ideal.cmp .ogt (shapeCast S8192x64 x0 shapeCasts_S1x1x8192x64_S8192x64 (ix2 l d)) Spec.zero)
        (shapeCast S8192x64 x0 shapeCasts_S1x1x8192x64_S8192x64 (ix2 l d) + Spec.one)
        (Ideal.exp (shapeCast S8192x64 x0 shapeCasts_S1x1x8192x64_S8192x64 (ix2 l d))) * Spec.scale
      * shapeCast S64x64 x1 shapeCasts_S1x1x64x64_S64x64 (ix2 d e) = _
  rw [h1, h3]
  rfl

end Cert.KernelIdeal.PayIdx

end
-- ==== Proof.KI.Value0.lean ====
/-
  The first kernel's output array after the run, as one function of the arrays the region is entered with:
  S[b,h,d,e] = (0 + Σ_r kf[b,h,r,d]·vm[b,h,r,e]) + Σ_r kf[b,h,4096+r,d]·vm[b,h,4096+r,e], the sequence summed in
  two halves onto a zero accumulator, where kf[b,h,l,d] = phi(cf[h,d]·K[b,h,l,d] − ad[h,d])·s and
  vm[b,h,l,e] = V[b,h,l,e]·(m[b,l]·m[b,l]). The grid is (batch, head, half); the second-half point of each
  (batch, head) writes back the block [b,h,:,:], and these blocks tile the array.
-/
import proofs.«130264_j15891378995472_2_alg».proof.Proof.KI.Pieces0
import proofs.«130264_j15891378995472_2_alg».proof.Proof.Payloads
import proofs.«130264_j15891378995472_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.KernelIdeal.PayIdx
open scoped BigOperators

/-! ## The value -/

/-- The key feature, over the whole arrays: the coefficient and shift rows of the head, the key at the coordinate. -/
def kfW (cf ad : S16x1x64.Idx → EReal) (k : S4x16x8192x64.Idx → EReal) (b : Fin 4) (h : Fin 16) (l : Fin 8192) (d : Fin 64) : EReal :=
  Spec.phiK (cf (ix3 h 0 d) * k (ix4 b h l d) - ad (ix3 h 0 d)) * Spec.scale
/-- The value with both mask factors folded in. -/
def vmW (v : S4x16x8192x64.Idx → EReal) (mk : S4x8192x1.Idx → EReal) (b : Fin 4) (h : Fin 16) (l : Fin 8192) (e : Fin 64) : EReal :=
  v (ix4 b h l e) * (mk (ix3 b l 0) * mk (ix3 b l 0))
/-- One half's contribution to the state. -/
def halfW (k v : S4x16x8192x64.Idx → EReal) (mk : S4x8192x1.Idx → EReal) (cf ad : S16x1x64.Idx → EReal)
    (b : Fin 4) (h : Fin 16) (j : Fin 2) (d e : Fin 64) : EReal :=
  ∑ r : Fin 4096, kfW cf ad k b h (Spec.row j r) d * vmW v mk b h (Spec.row j r) e
/-- The state array as a function of the key, value, mask, coefficient and shift arrays. -/
def G0 (k v : S4x16x8192x64.Idx → EReal) (mk : S4x8192x1.Idx → EReal) (cf ad : S16x1x64.Idx → EReal) : S4x16x64x64.Idx → EReal :=
  fun i => (Spec.zero + halfW k v mk cf ad (i 0) (i 1) 0 (i 2) (i 3)) + halfW k v mk cf ad (i 0) (i 1) 1 (i 2) (i 3)

/-! ## The index maps over the grid -/

/-- Point t is (batch t/32, head t/2 mod 16, half t mod 2): the key and value blocks sit at (batch, head, half, 0),
    the mask block at (batch, half, 0), the coefficient and shift blocks at (head, 0, 0), the state block at
    (batch, head, 0, 0). -/
theorem idx_facts0 : ∀ t : Fin cfg0.N,
    win0_0.index t (0 : Fin 4) = t.val / 32 ∧ win0_0.index t (1 : Fin 4) = t.val / 2 % 16
    ∧ win0_0.index t (2 : Fin 4) = t.val % 2 ∧ win0_0.index t (3 : Fin 4) = 0
    ∧ win0_1.index t (0 : Fin 4) = t.val / 32 ∧ win0_1.index t (1 : Fin 4) = t.val / 2 % 16
    ∧ win0_1.index t (2 : Fin 4) = t.val % 2 ∧ win0_1.index t (3 : Fin 4) = 0
    ∧ win0_2.index t (0 : Fin 3) = t.val / 32 ∧ win0_2.index t (1 : Fin 3) = t.val % 2 ∧ win0_2.index t (2 : Fin 3) = 0
    ∧ win0_3.index t (0 : Fin 3) = t.val / 2 % 16 ∧ win0_3.index t (1 : Fin 3) = 0 ∧ win0_3.index t (2 : Fin 3) = 0
    ∧ win0_4.index t (0 : Fin 3) = t.val / 2 % 16 ∧ win0_4.index t (1 : Fin 3) = 0 ∧ win0_4.index t (2 : Fin 3) = 0
    ∧ win0_5.index t (0 : Fin 4) = t.val / 32 ∧ win0_5.index t (1 : Fin 4) = t.val / 2 % 16
    ∧ win0_5.index t (2 : Fin 4) = 0 ∧ win0_5.index t (3 : Fin 4) = 0 :=
  (by decide +kernel : ∀ t : Fin grid0.N, _)

/-- Every (batch, head) is the state block of some second-half point. -/
theorem idx_onto0 : ∀ (q0 : Fin 4) (q1 : Fin 16), ∃ t : Fin cfg0.N, t.val % 2 = 1 ∧ win0_5.index t = ![q0.val, q1.val, 0, 0] :=
  (by decide +kernel : ∀ (q0 : Fin 4) (q1 : Fin 16), ∃ t : Fin grid0.N, t.val % 2 = 1 ∧ win0_5.index t = ![q0.val, q1.val, 0, 0])

/-! ## One (batch, head): the two halves' points, over plain variables -/

/-- A half's sum from its point's blocks: if the key and value blocks are rows (B,H,row j ·,·) of `k` and `v`, the mask
    block is rows (B,row j ·,0) of `mk`, and the coefficient and shift blocks are row (H,0,·) of `cf` and `ad`, the
    point's contraction at (d,e) is the half's contribution. -/
theorem half0 (k v : S4x16x8192x64.Idx → EReal) (mk : S4x8192x1.Idx → EReal) (cf ad : S16x1x64.Idx → EReal)
    (x0 x1 : Vec Ideal S1x1x4096x64 .f32) (x2 : Vec Ideal S1x4096x1 .f32) (x3 x4 : Vec Ideal S1x1x64 .f32)
    (B : Fin 4) (H : Fin 16) (j : Fin 2)
    (h0 : ∀ (r : Fin 4096) (d : Fin 64), x0 (ix4 0 0 r d) = k (ix4 B H (Spec.row j r) d))
    (h1 : ∀ (r : Fin 4096) (e : Fin 64), x1 (ix4 0 0 r e) = v (ix4 B H (Spec.row j r) e))
    (h2 : ∀ (r : Fin 4096), x2 (ix3 0 r 0) = mk (ix3 B (Spec.row j r) 0))
    (h3 : ∀ (d : Fin 64), x3 (ix3 0 0 d) = cf (ix3 H 0 d))
    (h4 : ∀ (d : Fin 64), x4 (ix3 0 0 d) = ad (ix3 H 0 d)) (d e : Fin 64) :
    ∑ r : Fin 4096, k0_pay4 (F := Ideal) x0 x3 x4 (ix2 r d) * k0_pay5 (F := Ideal) x1 x2 (ix2 r e)
      = halfW k v mk cf ad B H j d e := by
  unfold halfW kfW vmW
  exact Finset.sum_congr rfl fun r _ => by rw [pay4_apply, pay5_apply, h0, h1, h2, h3, h4]

/-- What the second-half point writes at (0,0,d,e) of its block, from its own blocks `x·` and the blocks `y·` of the
    first-half point before it: the state at (B,H,d,e). -/
theorem point0 (k v : S4x16x8192x64.Idx → EReal) (mk : S4x8192x1.Idx → EReal) (cf ad : S16x1x64.Idx → EReal)
    (x0 x1 : Vec Ideal S1x1x4096x64 .f32) (x2 : Vec Ideal S1x4096x1 .f32) (x3 x4 : Vec Ideal S1x1x64 .f32)
    (y0 y1 : Vec Ideal S1x1x4096x64 .f32) (y2 : Vec Ideal S1x4096x1 .f32) (y3 y4 : Vec Ideal S1x1x64 .f32)
    (B : Fin 4) (H : Fin 16)
    (hx0 : ∀ (r : Fin 4096) (d : Fin 64), x0 (ix4 0 0 r d) = k (ix4 B H (Spec.row 1 r) d))
    (hx1 : ∀ (r : Fin 4096) (e : Fin 64), x1 (ix4 0 0 r e) = v (ix4 B H (Spec.row 1 r) e))
    (hx2 : ∀ (r : Fin 4096), x2 (ix3 0 r 0) = mk (ix3 B (Spec.row 1 r) 0))
    (hx3 : ∀ (d : Fin 64), x3 (ix3 0 0 d) = cf (ix3 H 0 d))
    (hx4 : ∀ (d : Fin 64), x4 (ix3 0 0 d) = ad (ix3 H 0 d))
    (hy0 : ∀ (r : Fin 4096) (d : Fin 64), y0 (ix4 0 0 r d) = k (ix4 B H (Spec.row 0 r) d))
    (hy1 : ∀ (r : Fin 4096) (e : Fin 64), y1 (ix4 0 0 r e) = v (ix4 B H (Spec.row 0 r) e))
    (hy2 : ∀ (r : Fin 4096), y2 (ix3 0 r 0) = mk (ix3 B (Spec.row 0 r) 0))
    (hy3 : ∀ (d : Fin 64), y3 (ix3 0 0 d) = cf (ix3 H 0 d))
    (hy4 : ∀ (d : Fin 64), y4 (ix3 0 0 d) = ad (ix3 H 0 d)) (d e : Fin 64) :
    k0_pay2 (F := Ideal) (k0_pay1 (k0_pay4 x0 x3 x4) (k0_pay5 x1 x2) (k0_pay1 (k0_pay4 y0 y3 y4) (k0_pay5 y1 y2) (k0_pay3 (F := Ideal)))) (ix4 0 0 d e)
      = G0 k v mk cf ad (ix4 B H d e) := by
  rw [pay2_apply, pay1_apply, pay1_apply, pay3_apply,
    half0 k v mk cf ad x0 x1 x2 x3 x4 B H 1 hx0 hx1 hx2 hx3 hx4 d e,
    half0 k v mk cf ad y0 y1 y2 y3 y4 B H 0 hy0 hy1 hy2 hy3 hy4 d e]
  rfl

section
variable (V : (c : Dev nD) → (b : Ref sig .tc) → Buf (Elt Ideal) ((c : Thread nD τ).loc b))

/-- Before a second-half point comes the first-half point of the same (batch, head): the accumulation there. -/
theorem outsAt0_pred (c : Dev nD) (t : Fin cfg0.N) (h1 : t.val % 2 = 1) :
    outsAt0 V c (t.val - 1) (Nat.lt_of_le_of_lt (Nat.sub_le _ _) t.isLt)
      = pairA V c ⟨t.val - 1, Nat.lt_of_le_of_lt (Nat.sub_le _ _) t.isLt⟩ (by show (t.val - 1) % 2 = 0; omega) :=
  outsAt0_A V c ⟨t.val - 1, Nat.lt_of_le_of_lt (Nat.sub_le _ _) t.isLt⟩ _

set_option maxHeartbeats 4000000 in
/-- WHAT A SECOND-HALF POINT `t` WRITES BACK is block `t` of `G0` of the arrays as the region finds them. -/
theorem flushed0_eq (c : Dev nD) (t : Fin cfg0.N) (h1 : t.val % 2 = 1) :
    (dat0 (F := Ideal) V c).flushed 5 t
      = ((cfg0.win 5).blk t).view.read (Elt Ideal) (G0 (V c main_arg1) (V c main_arg2) (V c main_v22) (V c main_v20) (V c main_v21)) := by
  show (cfg0.win 5).cut (grid0.coords t) ((dat0 V c).after 5 t) = _
  rw [after0_5, outsAt0_B V c t h1, outsAt0_pred V c t h1]
  unfold pairB pairA
  dsimp only
  rw [out0_B_eq, sout0_A_eq]
  have hN : t.val < 128 := lt_of_lt_of_eq t.isLt (show cfg0.N = 128 from N_0)
  have hs : t.val - 1 < cfg0.N := Nat.lt_of_le_of_lt (Nat.sub_le _ _) t.isLt
  obtain ⟨a0, a1, a2, a3, b0, b1, b2, b3, m0, m1, m2, c0, c1, c2, d0, d1, d2, o0, o1, o2, o3⟩ := idx_facts0 t
  obtain ⟨a0', a1', a2', a3', b0', b1', b2', b3', m0', m1', m2', c0', c1', c2', d0', d1', d2', -, -, -, -⟩ := idx_facts0 ⟨t.val - 1, hs⟩
  replace a0' : win0_0.index ⟨t.val - 1, hs⟩ (0 : Fin 4) = (t.val - 1) / 32 := a0'
  replace a1' : win0_0.index ⟨t.val - 1, hs⟩ (1 : Fin 4) = (t.val - 1) / 2 % 16 := a1'
  replace a2' : win0_0.index ⟨t.val - 1, hs⟩ (2 : Fin 4) = (t.val - 1) % 2 := a2'
  replace b0' : win0_1.index ⟨t.val - 1, hs⟩ (0 : Fin 4) = (t.val - 1) / 32 := b0'
  replace b1' : win0_1.index ⟨t.val - 1, hs⟩ (1 : Fin 4) = (t.val - 1) / 2 % 16 := b1'
  replace b2' : win0_1.index ⟨t.val - 1, hs⟩ (2 : Fin 4) = (t.val - 1) % 2 := b2'
  replace m0' : win0_2.index ⟨t.val - 1, hs⟩ (0 : Fin 3) = (t.val - 1) / 32 := m0'
  replace m1' : win0_2.index ⟨t.val - 1, hs⟩ (1 : Fin 3) = (t.val - 1) % 2 := m1'
  replace c0' : win0_3.index ⟨t.val - 1, hs⟩ (0 : Fin 3) = (t.val - 1) / 2 % 16 := c0'
  replace d0' : win0_4.index ⟨t.val - 1, hs⟩ (0 : Fin 3) = (t.val - 1) / 2 % 16 := d0'
  refine funext fun (j : S1x1x64x64.Idx) => ?_
  have hj : j = ix4 (0 : Fin 1) (0 : Fin 1) (j 2) (j 3) := by
    funext a; apply Fin.ext
    match a with
    | ⟨0, _⟩ => exact Nat.lt_one_iff.mp (j 0).isLt
    | ⟨1, _⟩ => exact Nat.lt_one_iff.mp (j 1).isLt
    | ⟨2, _⟩ => rfl
    | ⟨3, _⟩ => rfl
  rw [hj]
  refine (point0 (V c main_arg1) (V c main_arg2) (V c main_v22) (V c main_v20) (V c main_v21)
    (iblk0 V c 0 t) (iblk0 V c 1 t) (iblk0 V c 2 t) (iblk0 V c 3 t) (iblk0 V c 4 t)
    (iblk0 V c 0 ⟨t.val - 1, hs⟩) (iblk0 V c 1 ⟨t.val - 1, hs⟩) (iblk0 V c 2 ⟨t.val - 1, hs⟩) (iblk0 V c 3 ⟨t.val - 1, hs⟩) (iblk0 V c 4 ⟨t.val - 1, hs⟩)
    ⟨t.val / 32, by omega⟩ ⟨t.val / 2 % 16, by omega⟩ ?_ ?_ ?_ ?_ ?_ ?_ ?_ ?_ ?_ ?_ (j 2) (j 3)).trans ?_
  · intro r d
    show V c main_arg1 (((cfg0.win 0).blk t).view.emb (ix4 0 0 r d)) = _
    refine congrArg _ ?_
    funext a; apply Fin.ext
    match a with
    | ⟨0, _⟩ => show win0_0.index t (0 : Fin 4) * 1 + 1 * 0 = t.val / 32; omega
    | ⟨1, _⟩ => show win0_0.index t (1 : Fin 4) * 1 + 1 * 0 = t.val / 2 % 16; omega
    | ⟨2, _⟩ => show win0_0.index t (2 : Fin 4) * 4096 + 1 * r.val = 4096 * 1 + r.val; omega
    | ⟨3, _⟩ => show win0_0.index t (3 : Fin 4) * 64 + 1 * d.val = d.val; omega
  · intro r e
    show V c main_arg2 (((cfg0.win 1).blk t).view.emb (ix4 0 0 r e)) = _
    refine congrArg _ ?_
    funext a; apply Fin.ext
    match a with
    | ⟨0, _⟩ => show win0_1.index t (0 : Fin 4) * 1 + 1 * 0 = t.val / 32; omega
    | ⟨1, _⟩ => show win0_1.index t (1 : Fin 4) * 1 + 1 * 0 = t.val / 2 % 16; omega
    | ⟨2, _⟩ => show win0_1.index t (2 : Fin 4) * 4096 + 1 * r.val = 4096 * 1 + r.val; omega
    | ⟨3, _⟩ => show win0_1.index t (3 : Fin 4) * 64 + 1 * e.val = e.val; omega
  · intro r
    show V c main_v22 (((cfg0.win 2).blk t).view.emb (ix3 0 r 0)) = _
    refine congrArg _ ?_
    funext a; apply Fin.ext
    match a with
    | ⟨0, _⟩ => show win0_2.index t (0 : Fin 3) * 1 + 1 * 0 = t.val / 32; omega
    | ⟨1, _⟩ => show win0_2.index t (1 : Fin 3) * 4096 + 1 * r.val = 4096 * 1 + r.val; omega
    | ⟨2, _⟩ => show win0_2.index t (2 : Fin 3) * 1 + 1 * 0 = 0; omega
  · intro d
    show V c main_v20 (((cfg0.win 3).blk t).view.emb (ix3 0 0 d)) = _
    refine congrArg _ ?_
    funext a; apply Fin.ext
    match a with
    | ⟨0, _⟩ => show win0_3.index t (0 : Fin 3) * 1 + 1 * 0 = t.val / 2 % 16; omega
    | ⟨1, _⟩ => show win0_3.index t (1 : Fin 3) * 1 + 1 * 0 = 0; omega
    | ⟨2, _⟩ => show win0_3.index t (2 : Fin 3) * 64 + 1 * d.val = d.val; omega
  · intro d
    show V c main_v21 (((cfg0.win 4).blk t).view.emb (ix3 0 0 d)) = _
    refine congrArg _ ?_
    funext a; apply Fin.ext
    match a with
    | ⟨0, _⟩ => show win0_4.index t (0 : Fin 3) * 1 + 1 * 0 = t.val / 2 % 16; omega
    | ⟨1, _⟩ => show win0_4.index t (1 : Fin 3) * 1 + 1 * 0 = 0; omega
    | ⟨2, _⟩ => show win0_4.index t (2 : Fin 3) * 64 + 1 * d.val = d.val; omega
  · intro r d
    show V c main_arg1 (((cfg0.win 0).blk ⟨t.val - 1, hs⟩).view.emb (ix4 0 0 r d)) = _
    refine congrArg _ ?_
    funext a; apply Fin.ext
    match a with
    | ⟨0, _⟩ => show win0_0.index ⟨t.val - 1, hs⟩ (0 : Fin 4) * 1 + 1 * 0 = t.val / 32; omega
    | ⟨1, _⟩ => show win0_0.index ⟨t.val - 1, hs⟩ (1 : Fin 4) * 1 + 1 * 0 = t.val / 2 % 16; omega
    | ⟨2, _⟩ => show win0_0.index ⟨t.val - 1, hs⟩ (2 : Fin 4) * 4096 + 1 * r.val = 4096 * 0 + r.val; omega
    | ⟨3, _⟩ => show win0_0.index ⟨t.val - 1, hs⟩ (3 : Fin 4) * 64 + 1 * d.val = d.val; omega
  · intro r e
    show V c main_arg2 (((cfg0.win 1).blk ⟨t.val - 1, hs⟩).view.emb (ix4 0 0 r e)) = _
    refine congrArg _ ?_
    funext a; apply Fin.ext
    match a with
    | ⟨0, _⟩ => show win0_1.index ⟨t.val - 1, hs⟩ (0 : Fin 4) * 1 + 1 * 0 = t.val / 32; omega
    | ⟨1, _⟩ => show win0_1.index ⟨t.val - 1, hs⟩ (1 : Fin 4) * 1 + 1 * 0 = t.val / 2 % 16; omega
    | ⟨2, _⟩ => show win0_1.index ⟨t.val - 1, hs⟩ (2 : Fin 4) * 4096 + 1 * r.val = 4096 * 0 + r.val; omega
    | ⟨3, _⟩ => show win0_1.index ⟨t.val - 1, hs⟩ (3 : Fin 4) * 64 + 1 * e.val = e.val; omega
  · intro r
    show V c main_v22 (((cfg0.win 2).blk ⟨t.val - 1, hs⟩).view.emb (ix3 0 r 0)) = _
    refine congrArg _ ?_
    funext a; apply Fin.ext
    match a with
    | ⟨0, _⟩ => show win0_2.index ⟨t.val - 1, hs⟩ (0 : Fin 3) * 1 + 1 * 0 = t.val / 32; omega
    | ⟨1, _⟩ => show win0_2.index ⟨t.val - 1, hs⟩ (1 : Fin 3) * 4096 + 1 * r.val = 4096 * 0 + r.val; omega
    | ⟨2, _⟩ => show win0_2.index ⟨t.val - 1, hs⟩ (2 : Fin 3) * 1 + 1 * 0 = 0; omega
  · intro d
    show V c main_v20 (((cfg0.win 3).blk ⟨t.val - 1, hs⟩).view.emb (ix3 0 0 d)) = _
    refine congrArg _ ?_
    funext a; apply Fin.ext
    match a with
    | ⟨0, _⟩ => show win0_3.index ⟨t.val - 1, hs⟩ (0 : Fin 3) * 1 + 1 * 0 = t.val / 2 % 16; omega
    | ⟨1, _⟩ => show win0_3.index ⟨t.val - 1, hs⟩ (1 : Fin 3) * 1 + 1 * 0 = 0; omega
    | ⟨2, _⟩ => show win0_3.index ⟨t.val - 1, hs⟩ (2 : Fin 3) * 64 + 1 * d.val = d.val; omega
  · intro d
    show V c main_v21 (((cfg0.win 4).blk ⟨t.val - 1, hs⟩).view.emb (ix3 0 0 d)) = _
    refine congrArg _ ?_
    funext a; apply Fin.ext
    match a with
    | ⟨0, _⟩ => show win0_4.index ⟨t.val - 1, hs⟩ (0 : Fin 3) * 1 + 1 * 0 = t.val / 2 % 16; omega
    | ⟨1, _⟩ => show win0_4.index ⟨t.val - 1, hs⟩ (1 : Fin 3) * 1 + 1 * 0 = 0; omega
    | ⟨2, _⟩ => show win0_4.index ⟨t.val - 1, hs⟩ (2 : Fin 3) * 64 + 1 * d.val = d.val; omega
  · show G0 _ _ _ _ _ _ = G0 (V c main_arg1) (V c main_arg2) (V c main_v22) (V c main_v20) (V c main_v21) (((cfg0.win 5).blk t).view.emb (ix4 0 0 (j 2) (j 3)))
    refine congrArg _ ?_
    funext a; apply Fin.ext
    match a with
    | ⟨0, _⟩ => show t.val / 32 = win0_5.index t (0 : Fin 4) * 1 + 1 * 0; omega
    | ⟨1, _⟩ => show t.val / 2 % 16 = win0_5.index t (1 : Fin 4) * 1 + 1 * 0; omega
    | ⟨2, _⟩ => show (j 2).val = win0_5.index t (2 : Fin 4) * 64 + 1 * (j 2).val; omega
    | ⟨3, _⟩ => show (j 3).val = win0_5.index t (3 : Fin 4) * 64 + 1 * (j 3).val; omega

/-- An index of the array is in point `t`'s block iff each coordinate is in the block's range on its axis. -/
theorem mem_blk0 (t : Fin cfg0.N) (i : S4x16x64x64.Idx) :
    i ∈ ((cfg0.win 5).blk t).view.set ↔ ∀ a : Fin 4, win0_5.index t a * S1x1x64x64.size a ≤ (i a).val ∧ (i a).val < win0_5.index t a * S1x1x64x64.size a + S1x1x64x64.size a := by
  show i ∈ ((View.whole main_v23).slice (win0_5.rect t)).set ↔ _
  rw [View.set_slice_whole, Rect.mem_set_unit]
  exact Iff.rfl

/-- The written blocks tile the array: index (b,h,d,e) is in the block of the second-half point at (b,h). -/
theorem cover0 (i : S4x16x64x64.Idx) :
    ∃ t : Fin cfg0.N, (cfg0.win 5).flush t = true ∧ i ∈ ((cfg0.win 5).blk t).view.set := by
  obtain ⟨t, hodd, ht⟩ := idx_onto0 (i 0) (i 1)
  have q0 : win0_5.index t (0 : Fin 4) = (i 0).val := congrFun ht 0
  have q1 : win0_5.index t (1 : Fin 4) = (i 1).val := congrFun ht 1
  have q2 : win0_5.index t (2 : Fin 4) = 0 := congrFun ht 2
  have q3 : win0_5.index t (3 : Fin 4) = 0 := congrFun ht 3
  have hi2 : (i 2).val < 64 := (i 2).isLt
  have hi3 : (i 3).val < 64 := (i 3).isLt
  refine ⟨t, (flush0_5 t).mpr hodd, ?_⟩
  rw [mem_blk0]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 64 ≤ (i 2).val ∧ (i 2).val < win0_5.index t (2 : Fin 4) * 64 + 64; omega
  | ⟨3, _⟩ => show win0_5.index t (3 : Fin 4) * 64 ≤ (i 3).val ∧ (i 3).val < win0_5.index t (3 : Fin 4) * 64 + 64; omega

/-- THE STATE ARRAY after the region. -/
theorem final0 (c : Dev nD) :
    (dat0 (F := Ideal) V c).arrAt 5 cfg0.N = G0 (V c main_arg1) (V c main_arg2) (V c main_v22) (V c main_v20) (V c main_v21) :=
  (dat0 V c).arrAt_eq_of_cover 5 (G0 (V c main_arg1) (V c main_arg2) (V c main_v22) (V c main_v20) (V c main_v21))
    (fun t ht => flushed0_eq V c t ((flush0_5 t).mp ht)) cover0

end

end Cert.KernelIdeal.Hand

end
-- ==== Proof.KI.Value1.lean ====
/-
  The second kernel's output array after the run, as one function of the arrays the region is entered with:
  out[b,h,l,e] = Σ_d phi(Q[b,h,l,d])·s · S[b,h,d,e], where S is the state array the first kernel left.
  Each grid point (b,h) writes back the block [b,h,:,:], and these blocks tile the array.
-/
import proofs.«130264_j15891378995472_2_alg».proof.Proof.KI.Dat1
import proofs.«130264_j15891378995472_2_alg».proof.Proof.Payloads
import proofs.«130264_j15891378995472_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.KernelIdeal.PayIdx

theorem hz4' : (![0, 0, 0, 0] : Fin 4 → Nat) = fun _ => 0 := funext fun a => by fin_cases a <;> rfl

/-- The output array as a function of the query array and the state array. -/
def G1 (q : S4x16x8192x64.Idx → EReal) (kv : S4x16x64x64.Idx → EReal) : S4x16x8192x64.Idx → EReal :=
  fun i => ∑ d : Fin 64, (Spec.phiK (q (ix4 (i 0) (i 1) (i 2) d)) * Spec.scale) * kv (ix4 (i 0) (i 1) d (i 3))

/-- The index maps over the grid: every window's block sits at (batch, head) of the point, spanning the other axes. -/
theorem idx_facts1 : ∀ t : Fin cfg1.N,
    win1_0.index t (0 : Fin 4) = win1_2.index t (0 : Fin 4) ∧ win1_0.index t (1 : Fin 4) = win1_2.index t (1 : Fin 4)
    ∧ win1_0.index t (2 : Fin 4) = 0 ∧ win1_0.index t (3 : Fin 4) = 0
    ∧ win1_1.index t (0 : Fin 4) = win1_2.index t (0 : Fin 4) ∧ win1_1.index t (1 : Fin 4) = win1_2.index t (1 : Fin 4)
    ∧ win1_1.index t (2 : Fin 4) = 0 ∧ win1_1.index t (3 : Fin 4) = 0
    ∧ win1_2.index t (0 : Fin 4) < 4 ∧ win1_2.index t (1 : Fin 4) < 16 ∧ win1_2.index t (2 : Fin 4) = 0 ∧ win1_2.index t (3 : Fin 4) = 0 :=
  (by decide +kernel : ∀ t : Fin grid1.N, _)

/-- Every (batch, head) is some point's. -/
theorem idx_onto1 : ∀ (q0 : Fin 4) (q1 : Fin 16), ∃ t : Fin cfg1.N, win1_2.index t = ![q0.val, q1.val, 0, 0] :=
  (by decide +kernel : ∀ (q0 : Fin 4) (q1 : Fin 16), ∃ t : Fin grid1.N, win1_2.index t = ![q0.val, q1.val, 0, 0])

/-- One point's result read at an index of its block, over plain variables: if the query block is rows (B,H,·,·) of `q` and
    the state block is (B,H,·,·) of `kv`, the body's payload at (0,0,l,e) is `G1 q kv` at (B,H,l,e). -/
theorem point1 (q : S4x16x8192x64.Idx → EReal) (kv : S4x16x64x64.Idx → EReal)
    (x0 : Vec Ideal S1x1x8192x64 .f32) (x1 : Vec Ideal S1x1x64x64 .f32) (B : Fin 4) (H : Fin 16)
    (h0 : ∀ (l : Fin 8192) (d : Fin 64), x0 (ix4 0 0 l d) = q (ix4 B H l d))
    (h1 : ∀ (d e : Fin 64), x1 (ix4 0 0 d e) = kv (ix4 B H d e)) (l : Fin 8192) (e : Fin 64) :
    k1_pay1 (F := Ideal) x0 x1 (ix4 0 0 l e) = G1 q kv (ix4 B H l e) := by
  rw [k1_apply]
  show _ = ∑ d : Fin 64, (Spec.phiK (q (ix4 B H l d)) * Spec.scale) * kv (ix4 B H d e)
  exact Finset.sum_congr rfl fun d _ => by rw [h0, h1]

section
variable (V : (c : Dev nD) → (b : Ref sig .tc) → Buf (Elt Ideal) ((c : Thread nD τ).loc b))

/-- WHAT POINT `t` WRITES BACK is block `t` of `G1` of the arrays as the region finds them. -/
theorem flushed1_eq (c : Dev nD) (t : Fin cfg1.N) :
    (dat1 (F := Ideal) V c).flushed 2 t = ((cfg1.win 2).blk t).view.read (Elt Ideal) (G1 (V c main_arg0) (V c main_v23)) := by
  show (cfg1.win 2).cut (grid1.coords t) ((dat1 V c).after 2 t) = _
  rw [after1_2]
  unfold out1_2
  rw [View.canon_unit_zero hz4']
  simp only [View.ld_unit_zero (S := S1x1x8192x64) hz4', View.ld_unit_zero (S := S1x1x64x64) hz4']
  obtain ⟨e0, e1, e2, e3, e4, e5, e6, e7, b0, b1, e8, e9⟩ := idx_facts1 t
  refine funext fun (j : S1x1x8192x64.Idx) => ?_
  have hj0 : @Eq (Fin 1) (j 0) 0 := Fin.ext (Nat.lt_one_iff.mp (j 0).isLt)
  have hj1 : @Eq (Fin 1) (j 1) 0 := Fin.ext (Nat.lt_one_iff.mp (j 1).isLt)
  have hj : j = ix4 (0 : Fin 1) (0 : Fin 1) (j 2) (j 3) :=
    (eq_ix4 j).trans (congrArg₂ (fun (a b : Fin 1) => ix4 a b (j 2) (j 3)) hj0 hj1)
  rw [hj]
  refine (point1 (V c main_arg0) (V c main_v23) _ _ ⟨win1_2.index t (0 : Fin 4), b0⟩ ⟨win1_2.index t (1 : Fin 4), b1⟩ ?_ ?_ (j 2) (j 3)).trans ?_
  · intro l d
    show V c main_arg0 (((cfg1.win 0).blk t).view.emb (ix4 0 0 l d)) = _
    refine congrArg _ ?_
    funext a; apply Fin.ext
    match a with
    | ⟨0, _⟩ => show win1_0.index t (0 : Fin 4) * 1 + 1 * 0 = win1_2.index t (0 : Fin 4); omega
    | ⟨1, _⟩ => show win1_0.index t (1 : Fin 4) * 1 + 1 * 0 = win1_2.index t (1 : Fin 4); omega
    | ⟨2, _⟩ => show win1_0.index t (2 : Fin 4) * 8192 + 1 * l.val = l.val; omega
    | ⟨3, _⟩ => show win1_0.index t (3 : Fin 4) * 64 + 1 * d.val = d.val; omega
  · intro d e
    show V c main_v23 (((cfg1.win 1).blk t).view.emb (ix4 0 0 d e)) = _
    refine congrArg _ ?_
    funext a; apply Fin.ext
    match a with
    | ⟨0, _⟩ => show win1_1.index t (0 : Fin 4) * 1 + 1 * 0 = win1_2.index t (0 : Fin 4); omega
    | ⟨1, _⟩ => show win1_1.index t (1 : Fin 4) * 1 + 1 * 0 = win1_2.index t (1 : Fin 4); omega
    | ⟨2, _⟩ => show win1_1.index t (2 : Fin 4) * 64 + 1 * d.val = d.val; omega
    | ⟨3, _⟩ => show win1_1.index t (3 : Fin 4) * 64 + 1 * e.val = e.val; omega
  · show G1 _ _ _ = G1 (V c main_arg0) (V c main_v23) (((cfg1.win 2).blk t).view.emb (ix4 0 0 (j 2) (j 3)))
    refine congrArg _ ?_
    funext a; apply Fin.ext
    match a with
    | ⟨0, _⟩ => show win1_2.index t (0 : Fin 4) = win1_2.index t (0 : Fin 4) * 1 + 1 * 0; omega
    | ⟨1, _⟩ => show win1_2.index t (1 : Fin 4) = win1_2.index t (1 : Fin 4) * 1 + 1 * 0; omega
    | ⟨2, _⟩ => show (j 2).val = win1_2.index t (2 : Fin 4) * 8192 + 1 * (j 2).val; omega
    | ⟨3, _⟩ => show (j 3).val = win1_2.index t (3 : Fin 4) * 64 + 1 * (j 3).val; omega

/-- An index of the array is in point `t`'s block iff each coordinate is in the block's range on its axis. -/
theorem mem_blk1 (t : Fin cfg1.N) (i : S4x16x8192x64.Idx) :
    i ∈ ((cfg1.win 2).blk t).view.set ↔ ∀ a : Fin 4, win1_2.index t a * S1x1x8192x64.size a ≤ (i a).val ∧ (i a).val < win1_2.index t a * S1x1x8192x64.size a + S1x1x8192x64.size a := by
  show i ∈ ((View.whole main_v24).slice (win1_2.rect t)).set ↔ _
  rw [View.set_slice_whole, Rect.mem_set_unit]
  exact Iff.rfl

/-- The blocks tile the array: index (b,h,l,e) is in the block of the point at (b,h). -/
theorem cover1 (i : S4x16x8192x64.Idx) :
    ∃ t : Fin cfg1.N, (cfg1.win 2).flush t = true ∧ i ∈ ((cfg1.win 2).blk t).view.set := by
  obtain ⟨t, ht⟩ := idx_onto1 (i 0) (i 1)
  have q0 : win1_2.index t (0 : Fin 4) = (i 0).val := congrFun ht 0
  have q1 : win1_2.index t (1 : Fin 4) = (i 1).val := congrFun ht 1
  have q2 : win1_2.index t (2 : Fin 4) = 0 := congrFun ht 2
  have q3 : win1_2.index t (3 : Fin 4) = 0 := congrFun ht 3
  have hi2 : (i 2).val < 8192 := (i 2).isLt
  have hi3 : (i 3).val < 64 := (i 3).isLt
  refine ⟨t, flush1_2 t, ?_⟩
  rw [mem_blk1]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 1 ≤ (i 1).val ∧ (i 1).val < win1_2.index t (1 : Fin 4) * 1 + 1; omega
  | ⟨2, _⟩ => show win1_2.index t (2 : Fin 4) * 8192 ≤ (i 2).val ∧ (i 2).val < win1_2.index t (2 : Fin 4) * 8192 + 8192; omega
  | ⟨3, _⟩ => show win1_2.index t (3 : Fin 4) * 64 ≤ (i 3).val ∧ (i 3).val < win1_2.index t (3 : Fin 4) * 64 + 64; omega

/-- THE OUTPUT ARRAY after the region. -/
theorem final1 (c : Dev nD) : (dat1 (F := Ideal) V c).arrAt 2 cfg1.N = G1 (V c main_arg0) (V c main_v23) :=
  (dat1 V c).arrAt_eq_of_cover 2 (G1 (V c main_arg0) (V c main_v23)) (fun t _ => flushed1_eq V c t) cover1

end

end Cert.KernelIdeal.Hand

end
-- ==== Proof.HostVals.lean ====
/-
  What the host operations before the first kernel leave in its three host-written operands, at the ideal instance.

  Before the first kernel runs, the program clips the two mixture weights to [0, 1] (p = min(1, max(0, pi))), and from
  them and the component shifts mu builds three arrays by slices, reshapes, broadcasts, products and sums:
    * the sum p0 + p1 of the clipped weights, broadcast over [16, 64] and reshaped to [16, 1, 64];
    * the weighted shift mu0·p0 + mu1·p1 over [16, 64], reshaped to [16, 1, 64];
    * the mask, reshaped from [4, 8192] to [4, 8192, 1].
  Each buffer is first written as the composed term of the operations that produce it, over the launch contents; the
  term is then read at an index: a reshape keeps the row-major position, a slice shifts by its offsets, a broadcast of a
  scalar is constant, and the arithmetic is pointwise. The three query/key/value arguments are written by no host
  operation and hold their launch contents.
-/
import proofs.«130264_j15891378995472_2_alg».proof.Proof.Gen.KernelIdeal.Regions
import proofs.«130264_j15891378995472_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostVals

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (c : Dev nD)

/-! ## The launch contents the host operations read -/

/-- The mixture weights at launch. -/
abbrev piV : FVec Ideal S2 .f32 := m ((c : Thread nD τ).loc main_arg4)
/-- The component shifts at launch. -/
abbrev muV : FVec Ideal S2x16x64 .f32 := m ((c : Thread nD τ).loc main_arg5)
/-- The mask at launch. -/
abbrev maskV : FVec Ideal S4x8192 .f32 := m ((c : Thread nD τ).loc main_arg3)

/-! ## The host operations' values as composed terms -/

/-- The clipped weights: the pointwise minimum of a broadcast one with the pointwise maximum of a broadcast zero and
    the weights. -/
def clipT : FVec Ideal S2 .f32 :=
  minimumf (broadcastInDim S2 ![] bcast_S_S2 (constant (F := Ideal) S_ .f32 0x3F800000#32))
    (maximumf (broadcastInDim S2 ![] bcast_S_S2 (constant (F := Ideal) S_ .f32 0x00000000#32)) (piV m c))

/-- The first clipped weight as a scalar: entry 0 sliced out and reshaped to rank 0. -/
def p0T : FVec Ideal S_ .f32 := shapeCast S_ (extractStridedSlice S1 ![0] (clipT m c) slices_S2_S1_0) shapeCasts_S1_S_
/-- The second clipped weight as a scalar: entry 1 sliced out and reshaped to rank 0. -/
def p1T : FVec Ideal S_ .f32 := shapeCast S_ (extractStridedSlice S1 ![1] (clipT m c) slices_S2_S1_1) shapeCasts_S1_S_

/-- The sum of the clipped weights, a scalar. -/
def coefT : FVec Ideal S_ .f32 := addf (p0T m c) (p1T m c)

/-- The weighted shift over [16, 64]: each component's shifts times its clipped weight broadcast, the two added. -/
def adjT : FVec Ideal S16x64 .f32 :=
  addf
    (mulf
      (shapeCast S16x64 (extractStridedSlice S1x16x64 ![0, 0, 0] (muV m c) slices_S2x16x64_S1x16x64_0_0_0) shapeCasts_S1x16x64_S16x64)
      (broadcastInDim S16x64 ![] bcast_S_S16x64 (p0T m c)))
    (mulf
      (shapeCast S16x64 (extractStridedSlice S1x16x64 ![1, 0, 0] (muV m c) slices_S2x16x64_S1x16x64_1_0_0) shapeCasts_S1x16x64_S16x64)
      (broadcastInDim S16x64 ![] bcast_S_S16x64 (p1T m c)))

/-- The mask's buffer for the first kernel: the mask reshaped to [4, 8192, 1]. -/
theorem v22_term : (Gen.V3 (F := Ideal) m c (Proc.devRef .tc main_v22) : S4x8192x1.Idx → EReal)
    = shapeCast S4x8192x1 (maskV m c) shapeCasts_S4x8192_S4x8192x1 := by
  dsimp only [Gen.V3, Gen.V2, Gen.V1, Gen.V0]
  simp only [hostOps0_2]
  after_results
  rfl

/-- The weights' buffer for the first kernel: the sum of the clipped weights broadcast to [16, 64], reshaped to [16, 1, 64]. -/
theorem v20_term : (Gen.V3 (F := Ideal) m c (Proc.devRef .tc main_v20) : S16x1x64.Idx → EReal)
    = shapeCast S16x1x64 (broadcastInDim S16x64 ![] bcast_S_S16x64 (coefT m c)) shapeCasts_S16x64_S16x1x64 := by
  dsimp only [Gen.V3, Gen.V2, Gen.V1, Gen.V0]
  simp only [hostOps0_2]
  after_results_simp
  rfl

/-- The shifts' buffer for the first kernel: the weighted shift reshaped to [16, 1, 64]. -/
theorem v21_term : (Gen.V3 (F := Ideal) m c (Proc.devRef .tc main_v21) : S16x1x64.Idx → EReal)
    = shapeCast S16x1x64 (adjT m c) shapeCasts_S16x64_S16x1x64 := by
  dsimp only [Gen.V3, Gen.V2, Gen.V1, Gen.V0]
  simp only [hostOps0_2]
  after_results_simp
  rfl

/-! ## The terms read at an index -/

/-- A clipped weight is the weight clipped to [0, 1]. -/
theorem clipT_apply (i : Fin 2) : clipT m c (ix1 i) = Spec.clip (piV m c (ix1 i)) := by
  unfold clipT
  rw [minimumf_apply, maximumf_apply,
    broadcastInDim_apply (s := S_) (t := S2) ![] bcast_S_S2 _ (ix1 i) ix0 (fun a => a.elim0),
    broadcastInDim_apply (s := S_) (t := S2) ![] bcast_S_S2 _ (ix1 i) ix0 (fun a => a.elim0),
    constant_apply, constant_apply]
  rfl

/-- The first scalar is the first weight clipped. -/
theorem p0T_apply (j : S_.Idx) : p0T m c j = Spec.clip (piV m c (ix1 (0 : Fin 2))) := by
  unfold p0T
  refine (shapeCast_apply (s := S1) (t := S_) _ shapeCasts_S1_S_ j (ix1 (0 : Fin 1)) ?_).trans ?_
  · rw [Shape.rowMajor_val_one]
    show (0 : ℕ) = (Shape.rowMajorPi _ j).val
    rw [Shape.rowMajorPi_zero]
  · refine (extractStridedSlice_apply (s := S2) (t := S1) ![0] (clipT m c) slices_S2_S1_0 (ix1 (0 : Fin 1)) (ix1 (0 : Fin 2)) ?_).trans
      (clipT_apply m c 0)
    intro a
    match a with
    | ⟨0, _⟩ => rfl

/-- The second scalar is the second weight clipped. -/
theorem p1T_apply (j : S_.Idx) : p1T m c j = Spec.clip (piV m c (ix1 (1 : Fin 2))) := by
  unfold p1T
  refine (shapeCast_apply (s := S1) (t := S_) _ shapeCasts_S1_S_ j (ix1 (0 : Fin 1)) ?_).trans ?_
  · rw [Shape.rowMajor_val_one]
    show (0 : ℕ) = (Shape.rowMajorPi _ j).val
    rw [Shape.rowMajorPi_zero]
  · refine (extractStridedSlice_apply (s := S2) (t := S1) ![1] (clipT m c) slices_S2_S1_1 (ix1 (0 : Fin 1)) (ix1 (1 : Fin 2)) ?_).trans
      (clipT_apply m c 1)
    intro a
    match a with
    | ⟨0, _⟩ => rfl

/-- The scalar sum is the sum of the two clipped weights. -/
theorem coefT_apply (j : S_.Idx) :
    coefT m c j = Spec.clip (piV m c (ix1 (0 : Fin 2))) + Spec.clip (piV m c (ix1 (1 : Fin 2))) := by
  unfold coefT
  rw [addf_apply, p0T_apply, p1T_apply]

/-- The first component's shifts, sliced out of the [2, 16, 64] array and reshaped to [16, 64], read at (h, d). -/
theorem mu0_apply (h : Fin 16) (d : Fin 64) :
    shapeCast S16x64 (extractStridedSlice S1x16x64 ![0, 0, 0] (muV m c) slices_S2x16x64_S1x16x64_0_0_0) shapeCasts_S1x16x64_S16x64 (ix2 h d)
      = muV m c (ix3 (0 : Fin 2) h d) := by
  refine (shapeCast_1ab_ab_apply _ shapeCasts_S1x16x64_S16x64 h d).trans ?_
  refine extractStridedSlice_apply (s := S2x16x64) (t := S1x16x64) ![0, 0, 0] (muV m c) slices_S2x16x64_S1x16x64_0_0_0
    (ix3 (0 : Fin 1) h d) (ix3 (0 : Fin 2) h d) ?_
  intro a
  match a with
  | ⟨0, _⟩ => rfl
  | ⟨1, _⟩ => show h.val = 0 + h.val; omega
  | ⟨2, _⟩ => show d.val = 0 + d.val; omega

/-- The second component's shifts, likewise. -/
theorem mu1_apply (h : Fin 16) (d : Fin 64) :
    shapeCast S16x64 (extractStridedSlice S1x16x64 ![1, 0, 0] (muV m c) slices_S2x16x64_S1x16x64_1_0_0) shapeCasts_S1x16x64_S16x64 (ix2 h d)
      = muV m c (ix3 (1 : Fin 2) h d) := by
  refine (shapeCast_1ab_ab_apply _ shapeCasts_S1x16x64_S16x64 h d).trans ?_
  refine extractStridedSlice_apply (s := S2x16x64) (t := S1x16x64) ![1, 0, 0] (muV m c) slices_S2x16x64_S1x16x64_1_0_0
    (ix3 (0 : Fin 1) h d) (ix3 (1 : Fin 2) h d) ?_
  intro a
  match a with
  | ⟨0, _⟩ => rfl
  | ⟨1, _⟩ => show h.val = 0 + h.val; omega
  | ⟨2, _⟩ => show d.val = 0 + d.val; omega

/-- The weighted shift at (h, d). -/
theorem adjT_apply (h : Fin 16) (d : Fin 64) :
    adjT m c (ix2 h d)
      = muV m c (ix3 (0 : Fin 2) h d) * Spec.clip (piV m c (ix1 (0 : Fin 2)))
        + muV m c (ix3 (1 : Fin 2) h d) * Spec.clip (piV m c (ix1 (1 : Fin 2))) := by
  unfold adjT
  rw [addf_apply, mulf_apply, mulf_apply, mu0_apply, mu1_apply,
    broadcastInDim_apply (s := S_) (t := S16x64) ![] bcast_S_S16x64 (p0T m c) (ix2 h d) ix0 (fun a => a.elim0),
    broadcastInDim_apply (s := S_) (t := S16x64) ![] bcast_S_S16x64 (p1T m c) (ix2 h d) ix0 (fun a => a.elim0),
    p0T_apply, p1T_apply]

/-- A [16, 64] array reshaped to [16, 1, 64] reads, at (h, 0, d), the array at (h, d). -/
theorem shapeCast_16x1x64_apply (x : S16x64.Idx → EReal) (h : Fin 16) (d : Fin 64) :
    shapeCast S16x1x64 x shapeCasts_S16x64_S16x1x64 (ix3 h (0 : Fin 1) d) = x (ix2 h d) := by
  refine shapeCast_apply (s := S16x64) (t := S16x1x64) x _ _ _ ?_
  rw [Shape.rowMajor_val_two, Shape.rowMajor_val_three]
  show h.val * 64 + d.val = (h.val * 1 + 0) * 64 + d.val
  omega

/-! ## What the first kernel's three host-written operands hold -/

/-- The mask operand at (b, l, 0) is the mask at (b, l). -/
theorem v22_apply (b : Fin 4) (l : Fin 8192) :
    (Gen.V3 (F := Ideal) m c (Proc.devRef .tc main_v22) : S4x8192x1.Idx → EReal) (ix3 b l (0 : Fin 1))
      = (m ((c : Thread nD τ).loc main_arg3) : S4x8192.Idx → EReal) (ix2 b l) := by
  rw [v22_term]
  refine shapeCast_apply (s := S4x8192) (t := S4x8192x1) _ _ _ _ ?_
  show (S4x8192.rowMajor (ix2 b l)).val = (S4x8192x1.rowMajor (ix3 b l (0 : Fin 1))).val
  rw [Shape.rowMajor_val_two, Shape.rowMajor_val_three]
  show b.val * 8192 + l.val = (b.val * 8192 + l.val) * 1 + 0
  omega

/-- The weights operand holds, at every (h, 0, d), the sum of the two clipped weights. -/
theorem v20_apply (h : Fin 16) (d : Fin 64) :
    (Gen.V3 (F := Ideal) m c (Proc.devRef .tc main_v20) : S16x1x64.Idx → EReal) (ix3 h (0 : Fin 1) d)
      = Spec.coef (fun i : Fin 2 => (m ((c : Thread nD τ).loc main_arg4) : S2.Idx → EReal) (ix1 i)) := by
  rw [v20_term, shapeCast_16x1x64_apply,
    broadcastInDim_apply (s := S_) (t := S16x64) ![] bcast_S_S16x64 (coefT m c) (ix2 h d) ix0 (fun a => a.elim0),
    coefT_apply]
  rfl

/-- The shifts operand holds, at (h, 0, d), the weighted shift mu0·p0 + mu1·p1 at (h, d). -/
theorem v21_apply (h : Fin 16) (d : Fin 64) :
    (Gen.V3 (F := Ideal) m c (Proc.devRef .tc main_v21) : S16x1x64.Idx → EReal) (ix3 h (0 : Fin 1) d)
      = Spec.adj (fun i : Fin 2 => (m ((c : Thread nD τ).loc main_arg4) : S2.Idx → EReal) (ix1 i))
          (fun (i : Fin 2) (h : Fin 16) (d : Fin 64) => (m ((c : Thread nD τ).loc main_arg5) : S2x16x64.Idx → EReal) (ix3 i h d)) h d := by
  rw [v21_term, shapeCast_16x1x64_apply, adjT_apply]
  rfl

/-! ## The arguments the first kernel reads are as launched -/

theorem arg0_eq : Gen.V3 (F := Ideal) m c (Proc.devRef .tc main_arg0) = m ((c : Thread nD τ).loc main_arg0) :=
  (V3_of m c main_arg0 (by decide)).trans <| (V2_of m c main_arg0 (by decide)).trans <| (V1_of m c main_arg0 (by decide)).trans rfl
theorem arg1_eq : Gen.V3 (F := Ideal) m c (Proc.devRef .tc main_arg1) = m ((c : Thread nD τ).loc main_arg1) :=
  (V3_of m c main_arg1 (by decide)).trans <| (V2_of m c main_arg1 (by decide)).trans <| (V1_of m c main_arg1 (by decide)).trans rfl
theorem arg2_eq : Gen.V3 (F := Ideal) m c (Proc.devRef .tc main_arg2) = m ((c : Thread nD τ).loc main_arg2) :=
  (V3_of m c main_arg2 (by decide)).trans <| (V2_of m c main_arg2 (by decide)).trans <| (V1_of m c main_arg2 (by decide)).trans rfl

end Cert.KernelIdeal.HostVals

end
-- ==== Proof.KI.KernelValue.lean ====
/-
  The kernel program's result array as a value: the second kernel's output over the query array and the state
  the first kernel left, which in turn is a function of the keys, the values, the reshaped mask and the two
  host-computed arrays (the clipped weights' sum and the weighted mean shift). Read at an index it is the
  kernel's arrangement of the attention formula.
-/
import proofs.«130264_j15891378995472_2_alg».proof.Proof.KI.Run
import proofs.«130264_j15891378995472_2_alg».proof.Proof.KI.Value0
import proofs.«130264_j15891378995472_2_alg».proof.Proof.KI.Value1
import proofs.«130264_j15891378995472_2_alg».proof.Proof.HostVals
import proofs.«130264_j15891378995472_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.KernelIdeal.HostVals

variable (m : (ℓ : Loc nD τ sig) → Buf (Elt Ideal) ℓ) (c : Dev nD)

/-- The six argument arrays over plain coordinates. -/
abbrev aQ : Fin 4 → Fin 16 → Fin 8192 → Fin 64 → EReal := fun b h l d => m ((c : Thread nD τ).loc main_arg0) (ix4 b h l d)
abbrev aK : Fin 4 → Fin 16 → Fin 8192 → Fin 64 → EReal := fun b h l d => m ((c : Thread nD τ).loc main_arg1) (ix4 b h l d)
abbrev aV : Fin 4 → Fin 16 → Fin 8192 → Fin 64 → EReal := fun b h l d => m ((c : Thread nD τ).loc main_arg2) (ix4 b h l d)
abbrev aMask : Fin 4 → Fin 8192 → EReal := fun b l => m ((c : Thread nD τ).loc main_arg3) (ix2 b l)
abbrev aPi : Fin 2 → EReal := fun i => m ((c : Thread nD τ).loc main_arg4) (ix1 i)
abbrev aMu : Fin 2 → Fin 16 → Fin 64 → EReal := fun i h d => m ((c : Thread nD τ).loc main_arg5) (ix3 i h d)

/-- The result buffer after the run, as the two kernels' functions composed. -/
theorem W5_v24 : W5 (F := Ideal) m c (Proc.devRef .tc main_v24)
    = G1 (m ((c : Thread nD τ).loc main_arg0))
        (G0 (m ((c : Thread nD τ).loc main_arg1)) (m ((c : Thread nD τ).loc main_arg2))
          (V3 m c main_v22) (V3 m c main_v20) (V3 m c main_v21)) := by
  have e1 : W5 (F := Ideal) m c (Proc.devRef .tc main_v24) = (dat1 (V4 m) c).arrAt 2 cfg1.N := W5_arr m c 2
  have e2 : V4 (F := Ideal) m c main_arg0 = m ((c : Thread nD τ).loc main_arg0) :=
    (W4_of_ne m c main_arg0 (by decide)).trans (arg0_eq m c)
  have e3 : V4 (F := Ideal) m c main_v23 = (dat0 (V3 m) c).arrAt 5 cfg0.N := W4_arr m c 5
  have e4 : V3 (F := Ideal) m c main_arg1 = m ((c : Thread nD τ).loc main_arg1) := arg1_eq m c
  have e5 : V3 (F := Ideal) m c main_arg2 = m ((c : Thread nD τ).loc main_arg2) := arg2_eq m c
  rw [e1, final1 (V4 m) c, e2, e3, final0 (V3 m) c, e4, e5]

/-- The state array at an index is the kernel's arrangement of the state. -/
theorem state_apply (b : Fin 4) (h : Fin 16) (d e : Fin 64) :
    G0 (m ((c : Thread nD τ).loc main_arg1)) (m ((c : Thread nD τ).loc main_arg2))
        (V3 m c main_v22) (V3 m c main_v20) (V3 m c main_v21) (ix4 b h d e)
      = Spec.kvK (aK m c) (aV m c) (aMask m c) (aPi m c) (aMu m c) b h d e := by
  show (Spec.zero + halfW _ _ _ _ _ b h 0 d e) + halfW _ _ _ _ _ b h 1 d e = _
  unfold Spec.kvK Spec.halfK halfW kfW vmW Spec.kfK Spec.vmK Spec.kmK
  have h20 : V3 m c main_v20 (ix3 h 0 d) = Spec.coef (aPi m c) := v20_apply m c h d
  have h21 : V3 m c main_v21 (ix3 h 0 d) = Spec.adj (aPi m c) (aMu m c) h d := v21_apply m c h d
  have h22 : ∀ l : Fin 8192, V3 m c main_v22 (ix3 b l 0) = aMask m c b l := fun l => v22_apply m c b l
  rw [h20, h21]
  simp only [h22]

/-- THE KERNEL'S RESULT at an index. -/
theorem result_apply (b : Fin 4) (h : Fin 16) (l : Fin 8192) (e : Fin 64) :
    W5 (F := Ideal) m c (Proc.devRef .tc main_v24) (ix4 b h l e)
      = Spec.outK (aQ m c) (aK m c) (aV m c) (aMask m c) (aPi m c) (aMu m c) b h l e := by
  rw [W5_v24]
  show ∑ d : Fin 64, (Spec.phiK (m ((c : Thread nD τ).loc main_arg0) (ix4 b h l d)) * Spec.scale) * G0 _ _ _ _ _ (ix4 b h d e) = _
  unfold Spec.outK Spec.qfK
  exact Finset.sum_congr rfl fun d _ => by rw [state_apply]

end Cert.KernelIdeal.Hand

end
-- ==== Proof.RefRun.lean ====
/- The reference program's @main as one straight line of host operations — each call's callee operations
   listed at the call site over that call's buffers — and its run read back: every weakly fair execution
   terminates, the result buffer holds `refOut` of the six argument arrays, the arguments are unchanged. -/
import proofs.«130264_j15891378995472_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The value: the operations composed, stage by stage -/

/-- A scalar f32 word at every index of the two-element shape. -/
def splat2 (b : BitVec 32) : FVec F S2 .f32 := broadcastInDim S2 ![] bcast_S_S2 (constant S_ .f32 b)
/-- A scalar f32 word at every index of the full shape. -/
def splat4 (b : BitVec 32) : FVec F S4x16x8192x64 .f32 :=
  broadcastInDim S4x16x8192x64 ![] bcast_S_S4x16x8192x64 (constant S_ .f32 b)

/-- The mixture weights clipped to [0, 1]: the minimum of one and the maximum of zero and the weight. -/
def clipP (pi : FVec F S2 .f32) : FVec F S2 .f32 :=
  minimumf (splat2 0x3F800000#32) (maximumf (splat2 0x00000000#32) pi)

/-- Clipped weight 0 at every index of the full shape. -/
def pB0 (pi : FVec F S2 .f32) : FVec F S4x16x8192x64 .f32 :=
  broadcastInDim S4x16x8192x64 ![] bcast_S_S4x16x8192x64
    (shapeCast S_ (extractStridedSlice S1 ![0] (clipP pi) slices_S2_S1_0) shapeCasts_S1_S_)
/-- Clipped weight 1 at every index of the full shape. -/
def pB1 (pi : FVec F S2 .f32) : FVec F S4x16x8192x64 .f32 :=
  broadcastInDim S4x16x8192x64 ![] bcast_S_S4x16x8192x64
    (shapeCast S_ (extractStridedSlice S1 ![1] (clipP pi) slices_S2_S1_1) shapeCasts_S1_S_)

/-- Mean 0 (a row per head and feature) along the batch and sequence axes. -/
def muB0 (mu : FVec F S2x16x64 .f32) : FVec F S4x16x8192x64 .f32 :=
  broadcastInDim S4x16x8192x64 ![0, 1, 2, 3] bcast_S1x16x1x64_S4x16x8192x64_0_1_2_3
    (broadcastInDim S1x16x1x64 ![1, 3] bcast_S16x64_S1x16x1x64_1_3
      (shapeCast S16x64 (extractStridedSlice S1x16x64 ![0, 0, 0] mu slices_S2x16x64_S1x16x64_0_0_0) shapeCasts_S1x16x64_S16x64))
/-- Mean 1 along the batch and sequence axes. -/
def muB1 (mu : FVec F S2x16x64 .f32) : FVec F S4x16x8192x64 .f32 :=
  broadcastInDim S4x16x8192x64 ![0, 1, 2, 3] bcast_S1x16x1x64_S4x16x8192x64_0_1_2_3
    (broadcastInDim S1x16x1x64 ![1, 3] bcast_S16x64_S1x16x1x64_1_3
      (shapeCast S16x64 (extractStridedSlice S1x16x64 ![1, 0, 0] mu slices_S2x16x64_S1x16x64_1_0_0) shapeCasts_S1x16x64_S16x64))

/-- The keys shifted by each mean and combined with the clipped weights. -/
def Km (K : FVec F S4x16x8192x64 .f32) (pi : FVec F S2 .f32) (mu : FVec F S2x16x64 .f32) : FVec F S4x16x8192x64 .f32 :=
  addf (mulf (subf K (muB0 mu)) (pB0 pi)) (mulf (subf K (muB1 mu)) (pB1 pi))

/-- elu, as printed: where x > 0 take x, elsewhere one times expm1 of (zero where x > 0, x elsewhere). -/
def elu (x : FVec F S4x16x8192x64 .f32) : FVec F S4x16x8192x64 .f32 :=
  select (cmpf .ogt x (splat4 0x00000000#32)) x
    (mulf (splat4 0x3F800000#32)
      (Host.expm1 (select (cmpf .ogt x (splat4 0x00000000#32)) (splat4 0x00000000#32) x)))

/-- The mask (a value per batch and position) along the head and feature axes. -/
def maskB (mask : FVec F S4x8192 .f32) : FVec F S4x16x8192x64 .f32 :=
  broadcastInDim S4x16x8192x64 ![0, 1, 2, 3] bcast_S4x1x8192x1_S4x16x8192x64_0_1_2_3
    (broadcastInDim S4x1x8192x1 ![0, 2] bcast_S4x8192_S4x1x8192x1_0_2 mask)

/-- The query features: (elu Q + 1) scaled. -/
def Qf (Q : FVec F S4x16x8192x64 .f32) : FVec F S4x16x8192x64 .f32 :=
  mulf (addf (elu Q) (splat4 0x3F800000#32)) (splat4 0x3DD744FD#32)
/-- The key features: (elu Km + 1) masked, then scaled. -/
def Kf (K : FVec F S4x16x8192x64 .f32) (mask : FVec F S4x8192 .f32) (pi : FVec F S2 .f32) (mu : FVec F S2x16x64 .f32) :
    FVec F S4x16x8192x64 .f32 :=
  mulf (mulf (addf (elu (Km K pi mu)) (splat4 0x3F800000#32)) (maskB mask)) (splat4 0x3DD744FD#32)
/-- The masked values. -/
def Vm (V : FVec F S4x16x8192x64 .f32) (mask : FVec F S4x8192 .f32) : FVec F S4x16x8192x64 .f32 :=
  mulf V (maskB mask)
/-- The state: key features against masked values, contracted over the sequence axis, per batch and head. -/
def KV (K V : FVec F S4x16x8192x64 .f32) (mask : FVec F S4x8192 .f32) (pi : FVec F S2 .f32) (mu : FVec F S2x16x64 .f32) :
    FVec F S4x16x64x64 .f32 :=
  Host.dotGeneral dot_S4x16x8192x64_S4x16x8192x64_S4x16x64x64_2_2_3_3_01_01 none (Kf K mask pi mu) (Vm V mask)
/-- The result: query features against the state, contracted over the feature axis, per batch and head. -/
def refOut (Q K V : FVec F S4x16x8192x64 .f32) (mask : FVec F S4x8192 .f32) (pi : FVec F S2 .f32) (mu : FVec F S2x16x64 .f32) :
    FVec F S4x16x8192x64 .f32 :=
  Host.dotGeneral dot_S4x16x8192x64_S4x16x64x64_S4x16x8192x64_3_2_2_3_01_01 none (Qf Q) (KV K V mask pi mu)

/-! ## The program as a list -/

/-- @main's 76 operations in order, the calls unfolded: `clip` is six over `main_call0`'s buffers; each
    `elu` is fifteen over its record's (seven of its own, `_where`'s three, four more, the last select). -/
abbrev ops : List (HloOp τ sig (Elt F)) :=
  [
    nullary main_cst (constant S_ .f32 0x00000000#32),
    nullary main_cst_0 (constant S_ .f32 0x3F800000#32),
    TRef.unary (.of main_cst : TRef sig ⟨S_, .f32⟩) main_call0.v0 id,
    TRef.unary main_call0.v0 main_call0.v1 (broadcastInDim S2 ![] bcast_S_S2),
    TRef.binary main_call0.v1 (.of main_arg4 : TRef sig ⟨S2, .f32⟩) main_call0.v2 maximumf,
    TRef.unary (.of main_cst_0 : TRef sig ⟨S_, .f32⟩) main_call0.v3 id,
    TRef.unary main_call0.v3 main_call0.v4 (broadcastInDim S2 ![] bcast_S_S2),
    TRef.binary main_call0.v4 main_call0.v2 main_call0.v5 minimumf,
    unary main_arg5 main_v1 ((extractStridedSlice S1x16x64 ![0, 0, 0] · slices_S2x16x64_S1x16x64_0_0_0) : (⟨S2x16x64, .f32⟩ : BufTy).Contents (Elt F) → (⟨S1x16x64, .f32⟩ : BufTy).Contents (Elt F)),
    reshape main_v1 main_v2 rfl shapeCasts_S1x16x64_S16x64,
    unary main_v2 main_v3 (broadcastInDim S1x16x1x64 ![1, 3] bcast_S16x64_S1x16x1x64_1_3 : (⟨S16x64, .f32⟩ : BufTy).Contents (Elt F) → (⟨S1x16x1x64, .f32⟩ : BufTy).Contents (Elt F)),
    unary main_v3 main_v4 (broadcastInDim S4x16x8192x64 ![0, 1, 2, 3] bcast_S1x16x1x64_S4x16x8192x64_0_1_2_3 : (⟨S1x16x1x64, .f32⟩ : BufTy).Contents (Elt F) → (⟨S4x16x8192x64, .f32⟩ : BufTy).Contents (Elt F)),
    binary main_arg1 main_v4 main_v5 (subf : (⟨S4x16x8192x64, .f32⟩ : BufTy).Contents (Elt F) → (⟨S4x16x8192x64, .f32⟩ : BufTy).Contents (Elt F) → (⟨S4x16x8192x64, .f32⟩ : BufTy).Contents (Elt F)),
    unary main_arg5 main_v6 ((extractStridedSlice S1x16x64 ![1, 0, 0] · slices_S2x16x64_S1x16x64_1_0_0) : (⟨S2x16x64, .f32⟩ : BufTy).Contents (Elt F) → (⟨S1x16x64, .f32⟩ : BufTy).Contents (Elt F)),
    reshape main_v6 main_v7 rfl shapeCasts_S1x16x64_S16x64,
    unary main_v7 main_v8 (broadcastInDim S1x16x1x64 ![1, 3] bcast_S16x64_S1x16x1x64_1_3 : (⟨S16x64, .f32⟩ : BufTy).Contents (Elt F) → (⟨S1x16x1x64, .f32⟩ : BufTy).Contents (Elt F)),
    unary main_v8 main_v9 (broadcastInDim S4x16x8192x64 ![0, 1, 2, 3] bcast_S1x16x1x64_S4x16x8192x64_0_1_2_3 : (⟨S1x16x1x64, .f32⟩ : BufTy).Contents (Elt F) → (⟨S4x16x8192x64, .f32⟩ : BufTy).Contents (Elt F)),
    binary main_arg1 main_v9 main_v10 (subf : (⟨S4x16x8192x64, .f32⟩ : BufTy).Contents (Elt F) → (⟨S4x16x8192x64, .f32⟩ : BufTy).Contents (Elt F) → (⟨S4x16x8192x64, .f32⟩ : BufTy).Contents (Elt F)),
    unary main_v0 main_v11 ((extractStridedSlice S1 ![0] · slices_S2_S1_0) : (⟨S2, .f32⟩ : BufTy).Contents (Elt F) → (⟨S1, .f32⟩ : BufTy).Contents (Elt F)),
    reshape main_v11 main_v12 rfl shapeCasts_S1_S_,
    unary main_v12 main_v13 (broadcastInDim S4x16x8192x64 ![] bcast_S_S4x16x8192x64 : (⟨S_, .f32⟩ : BufTy).Contents (Elt F) → (⟨S4x16x8192x64, .f32⟩ : BufTy).Contents (Elt F)),
    binary main_v5 main_v13 main_v14 (mulf : (⟨S4x16x8192x64, .f32⟩ : BufTy).Contents (Elt F) → (⟨S4x16x8192x64, .f32⟩ : BufTy).Contents (Elt F) → (⟨S4x16x8192x64, .f32⟩ : BufTy).Contents (Elt F)),
    unary main_v0 main_v15 ((extractStridedSlice S1 ![1] · slices_S2_S1_1) : (⟨S2, .f32⟩ : BufTy).Contents (Elt F) → (⟨S1, .f32⟩ : BufTy).Contents (Elt F)),
    reshape main_v15 main_v16 rfl shapeCasts_S1_S_,
    unary main_v16 main_v17 (broadcastInDim S4x16x8192x64 ![] bcast_S_S4x16x8192x64 : (⟨S_, .f32⟩ : BufTy).Contents (Elt F) → (⟨S4x16x8192x64, .f32⟩ : BufTy).Contents (Elt F)),
    binary main_v10 main_v17 main_v18 (mulf : (⟨S4x16x8192x64, .f32⟩ : BufTy).Contents (Elt F) → (⟨S4x16x8192x64, .f32⟩ : BufTy).Contents (Elt F) → (⟨S4x16x8192x64, .f32⟩ : BufTy).Contents (Elt F)),
    binary main_v14 main_v18 main_v19 (addf : (⟨S4x16x8192x64, .f32⟩ : BufTy).Contents (Elt F) → (⟨S4x16x8192x64, .f32⟩ : BufTy).Contents (Elt F) → (⟨S4x16x8192x64, .f32⟩ : BufTy).Contents (Elt F)),
    unary main_arg3 main_v20 (broadcastInDim S4x1x8192x1 ![0, 2] bcast_S4x8192_S4x1x8192x1_0_2 : (⟨S4x8192, .f32⟩ : BufTy).Contents (Elt F) → (⟨S4x1x8192x1, .f32⟩ : BufTy).Contents (Elt F)),
    TRef.nullary main_call1.cst (constant S_ .f32 0x00000000#32),
    TRef.unary main_call1.cst main_call1.v0 (broadcastInDim S4x16x8192x64 ![] bcast_S_S4x16x8192x64),
    TRef.binary (.of main_arg0 : TRef sig ⟨S4x16x8192x64, .f32⟩) main_call1.v0 main_call1.v1 (cmpf .ogt),
    TRef.nullary main_call1.cst_0 (constant S_ .f32 0x00000000#32),
    TRef.unary main_call1.cst_0 main_call1.v2 (broadcastInDim S4x16x8192x64 ![] bcast_S_S4x16x8192x64),
    TRef.binary (.of main_arg0 : TRef sig ⟨S4x16x8192x64, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4x16x8192x64 ![] bcast_S_S4x16x8192x64),
    TRef.ternary main_call1.v3 main_call1.call0.v1 (.of main_arg0 : TRef sig ⟨S4x16x8192x64, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S4x16x8192x64 ![] bcast_S_S4x16x8192x64),
    TRef.binary main_call1.v6 main_call1.v5 main_call1.v7 mulf,
    TRef.ternary main_call1.v1 (.of main_arg0 : TRef sig ⟨S4x16x8192x64, .f32⟩) main_call1.v7 main_call1.call1.v0 select,
    nullary main_cst_1 (constant S_ .f32 0x3F800000#32),
    unary main_cst_1 main_v22 (broadcastInDim S4x16x8192x64 ![] bcast_S_S4x16x8192x64 : (⟨S_, .f32⟩ : BufTy).Contents (Elt F) → (⟨S4x16x8192x64, .f32⟩ : BufTy).Contents (Elt F)),
    binary main_v21 main_v22 main_v23 (addf : (⟨S4x16x8192x64, .f32⟩ : BufTy).Contents (Elt F) → (⟨S4x16x8192x64, .f32⟩ : BufTy).Contents (Elt F) → (⟨S4x16x8192x64, .f32⟩ : BufTy).Contents (Elt F)),
    nullary main_cst_2 (constant S_ .f32 0x3DD744FD#32),
    unary main_cst_2 main_v24 (broadcastInDim S4x16x8192x64 ![] bcast_S_S4x16x8192x64 : (⟨S_, .f32⟩ : BufTy).Contents (Elt F) → (⟨S4x16x8192x64, .f32⟩ : BufTy).Contents (Elt F)),
    binary main_v23 main_v24 main_v25 (mulf : (⟨S4x16x8192x64, .f32⟩ : BufTy).Contents (Elt F) → (⟨S4x16x8192x64, .f32⟩ : BufTy).Contents (Elt F) → (⟨S4x16x8192x64, .f32⟩ : BufTy).Contents (Elt F)),
    TRef.nullary main_call2.cst (constant S_ .f32 0x00000000#32),
    TRef.unary main_call2.cst main_call2.v0 (broadcastInDim S4x16x8192x64 ![] bcast_S_S4x16x8192x64),
    TRef.binary (.of main_v19 : TRef sig ⟨S4x16x8192x64, .f32⟩) main_call2.v0 main_call2.v1 (cmpf .ogt),
    TRef.nullary main_call2.cst_0 (constant S_ .f32 0x00000000#32),
    TRef.unary main_call2.cst_0 main_call2.v2 (broadcastInDim S4x16x8192x64 ![] bcast_S_S4x16x8192x64),
    TRef.binary (.of main_v19 : TRef sig ⟨S4x16x8192x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4x16x8192x64 ![] bcast_S_S4x16x8192x64),
    TRef.ternary main_call2.v3 main_call2.call0.v1 (.of main_v19 : TRef sig ⟨S4x16x8192x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S4x16x8192x64 ![] bcast_S_S4x16x8192x64),
    TRef.binary main_call2.v6 main_call2.v5 main_call2.v7 mulf,
    TRef.ternary main_call2.v1 (.of main_v19 : TRef sig ⟨S4x16x8192x64, .f32⟩) main_call2.v7 main_call2.call1.v0 select,
    nullary main_cst_3 (constant S_ .f32 0x3F800000#32),
    unary main_cst_3 main_v27 (broadcastInDim S4x16x8192x64 ![] bcast_S_S4x16x8192x64 : (⟨S_, .f32⟩ : BufTy).Contents (Elt F) → (⟨S4x16x8192x64, .f32⟩ : BufTy).Contents (Elt F)),
    binary main_v26 main_v27 main_v28 (addf : (⟨S4x16x8192x64, .f32⟩ : BufTy).Contents (Elt F) → (⟨S4x16x8192x64, .f32⟩ : BufTy).Contents (Elt F) → (⟨S4x16x8192x64, .f32⟩ : BufTy).Contents (Elt F)),
    unary main_v20 main_v29 (broadcastInDim S4x16x8192x64 ![0, 1, 2, 3] bcast_S4x1x8192x1_S4x16x8192x64_0_1_2_3 : (⟨S4x1x8192x1, .f32⟩ : BufTy).Contents (Elt F) → (⟨S4x16x8192x64, .f32⟩ : BufTy).Contents (Elt F)),
    binary main_v28 main_v29 main_v30 (mulf : (⟨S4x16x8192x64, .f32⟩ : BufTy).Contents (Elt F) → (⟨S4x16x8192x64, .f32⟩ : BufTy).Contents (Elt F) → (⟨S4x16x8192x64, .f32⟩ : BufTy).Contents (Elt F)),
    nullary main_cst_4 (constant S_ .f32 0x3DD744FD#32),
    unary main_cst_4 main_v31 (broadcastInDim S4x16x8192x64 ![] bcast_S_S4x16x8192x64 : (⟨S_, .f32⟩ : BufTy).Contents (Elt F) → (⟨S4x16x8192x64, .f32⟩ : BufTy).Contents (Elt F)),
    binary main_v30 main_v31 main_v32 (mulf : (⟨S4x16x8192x64, .f32⟩ : BufTy).Contents (Elt F) → (⟨S4x16x8192x64, .f32⟩ : BufTy).Contents (Elt F) → (⟨S4x16x8192x64, .f32⟩ : BufTy).Contents (Elt F)),
    unary main_v20 main_v33 (broadcastInDim S4x16x8192x64 ![0, 1, 2, 3] bcast_S4x1x8192x1_S4x16x8192x64_0_1_2_3 : (⟨S4x1x8192x1, .f32⟩ : BufTy).Contents (Elt F) → (⟨S4x16x8192x64, .f32⟩ : BufTy).Contents (Elt F)),
    binary main_arg2 main_v33 main_v34 (mulf : (⟨S4x16x8192x64, .f32⟩ : BufTy).Contents (Elt F) → (⟨S4x16x8192x64, .f32⟩ : BufTy).Contents (Elt F) → (⟨S4x16x8192x64, .f32⟩ : BufTy).Contents (Elt F)),
    binary main_v32 main_v34 main_v35 ((fun l r => Host.dotGeneral dot_S4x16x8192x64_S4x16x8192x64_S4x16x64x64_2_2_3_3_01_01 none l r) : (⟨S4x16x8192x64, .f32⟩ : BufTy).Contents (Elt F) → (⟨S4x16x8192x64, .f32⟩ : BufTy).Contents (Elt F) → (⟨S4x16x64x64, .f32⟩ : BufTy).Contents (Elt F)),
    binary main_v25 main_v35 main_v36 ((fun l r => Host.dotGeneral dot_S4x16x8192x64_S4x16x64x64_S4x16x8192x64_3_2_2_3_01_01 none l r) : (⟨S4x16x8192x64, .f32⟩ : BufTy).Contents (Elt F) → (⟨S4x16x64x64, .f32⟩ : BufTy).Contents (Elt F) → (⟨S4x16x8192x64, .f32⟩ : BufTy).Contents (Elt F)) ]

set_option maxRecDepth 4096 in
set_option maxHeartbeats 4000000 in
/-- @main is that straight line: the functions' definitions unfolded at their calls, both sides are one chain
    of steps once sequencing is reassociated. -/
theorem main_eq (c : Dev nD) : main (F := F) c = seq ops := by
  simp only [main, fn_clip.body, fn_elu.body, fn_elu_1.body, fn_where.body, fn_where_0.body, fn_where_2.body,
    fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., binary_bufs_sub ..⟩

/-! ## What the line leaves in the result and in the arguments -/

set_option maxRecDepth 8192 in
set_option maxHeartbeats 4000000 in
/-- The fold at the result buffer is `refOut` of the arguments' contents: each operation's result at its own
    buffer is its function's value, at any other buffer what was there; the typed references' casts are the
    identity at these literal references. -/
theorem after_v36 (V : Valuation τ sig (Elt F)) :
    after ops V (main_v36 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

/-- No operation writes an argument. -/
theorem after_arg0 (V : Valuation τ sig (Elt F)) :
    after ops V (main_arg0 : DevRef τ sig) = (V (main_arg0 : DevRef τ sig)) := by
  after_results_simp
theorem after_arg1 (V : Valuation τ sig (Elt F)) :
    after ops V (main_arg1 : DevRef τ sig) = (V (main_arg1 : DevRef τ sig)) := by
  after_results_simp
theorem after_arg2 (V : Valuation τ sig (Elt F)) :
    after ops V (main_arg2 : DevRef τ sig) = (V (main_arg2 : DevRef τ sig)) := by
  after_results_simp
theorem after_arg3 (V : Valuation τ sig (Elt F)) :
    after ops V (main_arg3 : DevRef τ sig) = (V (main_arg3 : DevRef τ sig)) := by
  after_results_simp
theorem after_arg4 (V : Valuation τ sig (Elt F)) :
    after ops V (main_arg4 : DevRef τ sig) = (V (main_arg4 : DevRef τ sig)) := by
  after_results_simp
theorem after_arg5 (V : Valuation τ sig (Elt F)) :
    after ops V (main_arg5 : DevRef τ sig) = (V (main_arg5 : DevRef τ sig)) := by
  after_results_simp

/-! ## The run -/

/-- On every device, for any float values, from any memory with zero counters: every weakly fair execution of
    @main terminates with the result at `refOut` of the arguments' launch contents and the arguments unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v36)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v36).trans (after_v36 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _)⟩)
    (run_seq scopedRefs_eq scopedSems_eq defs main (fun _ => ops) main_eq (fun _ => ops_sub) m ρ)

end Cert.ReferenceIdeal.RefValue

end
-- ==== Proof.RefRead.lean ====
/- The reference's value read at an index, at the ideal instance: each stage of `refOut` at coordinates, down to
   the arrangement over plain coordinates (`Cert.Spec.outR`): broadcasts, slices and reshapes read the operand
   at the matching coordinates, pointwise operations are the extended reals' own, and each of the two batched
   products is a sum over its one contracted axis. -/
import proofs.«130264_j15891378995472_2_alg».proof.Proof.RefRun
import proofs.«130264_j15891378995472_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The scalar words and the clipped weights -/

/-- A splat reads its word everywhere. -/
theorem splat4_apply (w : BitVec 32) (i : S4x16x8192x64.Idx) :
    splat4 (F := Ideal) w i = Ideal.ofBits .f32 w :=
  broadcastInDim_apply _ bcast_S_S4x16x8192x64 (constant (F := Ideal) S_ .f32 w) i ix0 (fun a => a.elim0)

theorem splat2_apply (w : BitVec 32) (i : S2.Idx) :
    splat2 (F := Ideal) w i = Ideal.ofBits .f32 w :=
  broadcastInDim_apply _ bcast_S_S2 (constant (F := Ideal) S_ .f32 w) i ix0 (fun a => a.elim0)

/-- The clipped weights, element by element. -/
theorem clipP_apply (pi : FVec Ideal S2 .f32) (i : S2.Idx) :
    clipP pi i = Cert.Spec.clip (pi i) := by
  show min (splat2 (F := Ideal) 0x3F800000#32 i) (max (splat2 (F := Ideal) 0x00000000#32 i) (pi i)) = _
  rw [splat2_apply, splat2_apply]
  rfl

/-- Clipped weight 0, wherever it is read. -/
theorem pB0_apply (pi : FVec Ideal S2 .f32) (j : S4x16x8192x64.Idx) :
    pB0 pi j = Cert.Spec.clip (pi (ix1 0)) := by
  unfold pB0
  rw [broadcastInDim_apply _ bcast_S_S4x16x8192x64 _ j ix0 (fun a => a.elim0),
    shapeCast_apply _ shapeCasts_S1_S_ ix0 (ix1 (0 : Fin 1)) (by
      rw [Shape.rowMajor_val_one]; exact (Shape.rowMajorPi_zero _ _).symm),
    extractStridedSlice_apply ![0] (clipP pi) slices_S2_S1_0 (ix1 (0 : Fin 1)) (ix1 (0 : Fin 2))
      (fun a => match a with | ⟨0, _⟩ => rfl),
    clipP_apply]

/-- Clipped weight 1, wherever it is read. -/
theorem pB1_apply (pi : FVec Ideal S2 .f32) (j : S4x16x8192x64.Idx) :
    pB1 pi j = Cert.Spec.clip (pi (ix1 1)) := by
  unfold pB1
  rw [broadcastInDim_apply _ bcast_S_S4x16x8192x64 _ j ix0 (fun a => a.elim0),
    shapeCast_apply _ shapeCasts_S1_S_ ix0 (ix1 (0 : Fin 1)) (by
      rw [Shape.rowMajor_val_one]; exact (Shape.rowMajorPi_zero _ _).symm),
    extractStridedSlice_apply ![1] (clipP pi) slices_S2_S1_1 (ix1 (0 : Fin 1)) (ix1 (1 : Fin 2))
      (fun a => match a with | ⟨0, _⟩ => rfl),
    clipP_apply]

/-! ## The means and the mask along the axes they are broadcast over -/

/-- Mean 0 at a coordinate: the row of its head and feature. -/
theorem muB0_apply (mu : FVec Ideal S2x16x64 .f32) (b : Fin 4) (h : Fin 16) (l : Fin 8192) (d : Fin 64) :
    muB0 mu (ix4 b h l d) = mu (ix3 0 h d) := by
  unfold muB0
  rw [broadcastInDim_apply _ bcast_S1x16x1x64_S4x16x8192x64_0_1_2_3 _ (ix4 b h l d) (ix4 (0 : Fin 1) h (0 : Fin 1) d)
        (fun a => match a with | ⟨0, _⟩ => rfl | ⟨1, _⟩ => rfl | ⟨2, _⟩ => rfl | ⟨3, _⟩ => rfl),
    broadcastInDim_apply _ bcast_S16x64_S1x16x1x64_1_3 _ (ix4 (0 : Fin 1) h (0 : Fin 1) d) (ix2 h d)
        (fun a => match a with | ⟨0, _⟩ => rfl | ⟨1, _⟩ => rfl),
    shapeCast_1ab_ab_apply _ shapeCasts_S1x16x64_S16x64 h d,
    extractStridedSlice_apply ![0, 0, 0] mu slices_S2x16x64_S1x16x64_0_0_0 (ix3 (0 : Fin 1) h d) (ix3 (0 : Fin 2) h d)
      (fun a => match a with | ⟨0, _⟩ => rfl | ⟨1, _⟩ => (Nat.zero_add _).symm | ⟨2, _⟩ => (Nat.zero_add _).symm)]

/-- Mean 1 at a coordinate. -/
theorem muB1_apply (mu : FVec Ideal S2x16x64 .f32) (b : Fin 4) (h : Fin 16) (l : Fin 8192) (d : Fin 64) :
    muB1 mu (ix4 b h l d) = mu (ix3 1 h d) := by
  unfold muB1
  rw [broadcastInDim_apply _ bcast_S1x16x1x64_S4x16x8192x64_0_1_2_3 _ (ix4 b h l d) (ix4 (0 : Fin 1) h (0 : Fin 1) d)
        (fun a => match a with | ⟨0, _⟩ => rfl | ⟨1, _⟩ => rfl | ⟨2, _⟩ => rfl | ⟨3, _⟩ => rfl),
    broadcastInDim_apply _ bcast_S16x64_S1x16x1x64_1_3 _ (ix4 (0 : Fin 1) h (0 : Fin 1) d) (ix2 h d)
        (fun a => match a with | ⟨0, _⟩ => rfl | ⟨1, _⟩ => rfl),
    shapeCast_1ab_ab_apply _ shapeCasts_S1x16x64_S16x64 h d,
    extractStridedSlice_apply ![1, 0, 0] mu slices_S2x16x64_S1x16x64_1_0_0 (ix3 (0 : Fin 1) h d) (ix3 (1 : Fin 2) h d)
      (fun a => match a with | ⟨0, _⟩ => rfl | ⟨1, _⟩ => (Nat.zero_add _).symm | ⟨2, _⟩ => (Nat.zero_add _).symm)]

/-- The mask at a coordinate: the value of its batch and position. -/
theorem maskB_apply (mask : FVec Ideal S4x8192 .f32) (b : Fin 4) (h : Fin 16) (l : Fin 8192) (d : Fin 64) :
    maskB mask (ix4 b h l d) = mask (ix2 b l) := by
  unfold maskB
  rw [broadcastInDim_apply _ bcast_S4x1x8192x1_S4x16x8192x64_0_1_2_3 _ (ix4 b h l d) (ix4 b (0 : Fin 1) l (0 : Fin 1))
        (fun a => match a with | ⟨0, _⟩ => rfl | ⟨1, _⟩ => rfl | ⟨2, _⟩ => rfl | ⟨3, _⟩ => rfl),
    broadcastInDim_apply _ bcast_S4x8192_S4x1x8192x1_0_2 _ (ix4 b (0 : Fin 1) l (0 : Fin 1)) (ix2 b l)
        (fun a => match a with | ⟨0, _⟩ => rfl | ⟨1, _⟩ => rfl)]

/-! ## The pointwise stages at a coordinate -/

/-- The combined shifted keys. -/
theorem Km_apply (K : FVec Ideal S4x16x8192x64 .f32) (pi : FVec Ideal S2 .f32) (mu : FVec Ideal S2x16x64 .f32)
    (b : Fin 4) (h : Fin 16) (l : Fin 8192) (d : Fin 64) :
    Km K pi mu (ix4 b h l d) = Cert.Spec.kmR (fun b h l d => K (ix4 b h l d)) (fun i => pi (ix1 i)) (fun i h d => mu (ix3 i h d)) b h l d := by
  show (K (ix4 b h l d) - muB0 mu (ix4 b h l d)) * pB0 pi (ix4 b h l d)
      + (K (ix4 b h l d) - muB1 mu (ix4 b h l d)) * pB1 pi (ix4 b h l d) = _
  rw [muB0_apply, muB1_apply, pB0_apply, pB1_apply]
  rfl

/-- elu, element by element. -/
theorem elu_apply (x : FVec Ideal S4x16x8192x64 .f32) (i : S4x16x8192x64.Idx) :
    elu x i = Cert.Spec.elu (x i) := by
  show Scalar.select (Ideal.cmp .ogt (x i) (splat4 (F := Ideal) 0x00000000#32 i)) (x i)
      (splat4 (F := Ideal) 0x3F800000#32 i
        * (Ideal.exp (Scalar.select (Ideal.cmp .ogt (x i) (splat4 (F := Ideal) 0x00000000#32 i))
            (splat4 (F := Ideal) 0x00000000#32 i) (x i)) - 1)) = _
  rw [splat4_apply, splat4_apply]
  rfl

/-- The query features. -/
theorem Qf_apply (Q : FVec Ideal S4x16x8192x64 .f32) (b : Fin 4) (h : Fin 16) (l : Fin 8192) (d : Fin 64) :
    Qf Q (ix4 b h l d) = Cert.Spec.qfR (fun b h l d => Q (ix4 b h l d)) b h l d := by
  show (elu Q (ix4 b h l d) + splat4 (F := Ideal) 0x3F800000#32 (ix4 b h l d))
      * splat4 (F := Ideal) 0x3DD744FD#32 (ix4 b h l d) = _
  rw [elu_apply, splat4_apply, splat4_apply]
  rfl

/-- The key features. -/
theorem Kf_apply (K : FVec Ideal S4x16x8192x64 .f32) (mask : FVec Ideal S4x8192 .f32) (pi : FVec Ideal S2 .f32)
    (mu : FVec Ideal S2x16x64 .f32) (b : Fin 4) (h : Fin 16) (l : Fin 8192) (d : Fin 64) :
    Kf K mask pi mu (ix4 b h l d) = Cert.Spec.kfR (fun b h l d => K (ix4 b h l d)) (fun b l => mask (ix2 b l)) (fun i => pi (ix1 i)) (fun i h d => mu (ix3 i h d)) b h l d := by
  show ((elu (Km K pi mu) (ix4 b h l d) + splat4 (F := Ideal) 0x3F800000#32 (ix4 b h l d)) * maskB mask (ix4 b h l d))
      * splat4 (F := Ideal) 0x3DD744FD#32 (ix4 b h l d) = _
  rw [elu_apply, Km_apply, maskB_apply, splat4_apply, splat4_apply]
  rfl

/-- The masked values. -/
theorem Vm_apply (V : FVec Ideal S4x16x8192x64 .f32) (mask : FVec Ideal S4x8192 .f32)
    (b : Fin 4) (h : Fin 16) (l : Fin 8192) (e : Fin 64) :
    Vm V mask (ix4 b h l e) = Cert.Spec.vmR (fun b h l d => V (ix4 b h l d)) (fun b l => mask (ix2 b l)) b h l e := by
  show V (ix4 b h l e) * maskB mask (ix4 b h l e) = _
  rw [maskB_apply]
  rfl

/-! ## The two products: each a sum over its one contracted axis

Each operand index of a product at a result index and a contraction position, coordinate by coordinate: a batch
axis and a free axis read the result index, the contracted axis reads the contraction position. -/

theorem lhs_kv_0 (i : S4x16x64x64.Idx) (q : dot_S4x16x8192x64_S4x16x8192x64_S4x16x64x64_2_2_3_3_01_01.contr.Idx) :
    (dot_S4x16x8192x64_S4x16x8192x64_S4x16x64x64_2_2_3_3_01_01.lhsIdx i q 0).val = (i 0).val := by
  unfold DotDims.lhsIdx
  rw [dif_pos (show (0 : Fin S4x16x8192x64.rank) ∈ dot_S4x16x8192x64_S4x16x8192x64_S4x16x64x64_2_2_3_3_01_01.lhsBatch by decide)]
  rfl
theorem lhs_kv_1 (i : S4x16x64x64.Idx) (q : dot_S4x16x8192x64_S4x16x8192x64_S4x16x64x64_2_2_3_3_01_01.contr.Idx) :
    (dot_S4x16x8192x64_S4x16x8192x64_S4x16x64x64_2_2_3_3_01_01.lhsIdx i q 1).val = (i 1).val := by
  unfold DotDims.lhsIdx
  rw [dif_pos (show (1 : Fin S4x16x8192x64.rank) ∈ dot_S4x16x8192x64_S4x16x8192x64_S4x16x64x64_2_2_3_3_01_01.lhsBatch by decide)]
  rfl
theorem lhs_kv_2 (i : S4x16x64x64.Idx) (q : dot_S4x16x8192x64_S4x16x8192x64_S4x16x64x64_2_2_3_3_01_01.contr.Idx) :
    (dot_S4x16x8192x64_S4x16x8192x64_S4x16x64x64_2_2_3_3_01_01.lhsIdx i q 2).val = (q ⟨0, by decide⟩).val :=
  dot_S4x16x8192x64_S4x16x8192x64_S4x16x64x64_2_2_3_3_01_01.lhsIdx_val_of_single rfl i q
theorem lhs_kv_3 (i : S4x16x64x64.Idx) (q : dot_S4x16x8192x64_S4x16x8192x64_S4x16x64x64_2_2_3_3_01_01.contr.Idx) :
    (dot_S4x16x8192x64_S4x16x8192x64_S4x16x64x64_2_2_3_3_01_01.lhsIdx i q 3).val = (i 2).val := by
  unfold DotDims.lhsIdx
  rw [dif_neg (show ¬(3 : Fin S4x16x8192x64.rank) ∈ dot_S4x16x8192x64_S4x16x8192x64_S4x16x64x64_2_2_3_3_01_01.lhsBatch by decide), dif_pos (show (3 : Fin S4x16x8192x64.rank) ∈ dot_S4x16x8192x64_S4x16x8192x64_S4x16x64x64_2_2_3_3_01_01.lhsNonContracting by decide)]
  rfl
theorem rhs_kv_0 (i : S4x16x64x64.Idx) (q : dot_S4x16x8192x64_S4x16x8192x64_S4x16x64x64_2_2_3_3_01_01.contr.Idx) :
    (dot_S4x16x8192x64_S4x16x8192x64_S4x16x64x64_2_2_3_3_01_01.rhsIdx i q 0).val = (i 0).val := by
  unfold DotDims.rhsIdx
  rw [dif_pos (show (0 : Fin S4x16x8192x64.rank) ∈ dot_S4x16x8192x64_S4x16x8192x64_S4x16x64x64_2_2_3_3_01_01.rhsBatch by decide)]
  rfl
theorem rhs_kv_1 (i : S4x16x64x64.Idx) (q : dot_S4x16x8192x64_S4x16x8192x64_S4x16x64x64_2_2_3_3_01_01.contr.Idx) :
    (dot_S4x16x8192x64_S4x16x8192x64_S4x16x64x64_2_2_3_3_01_01.rhsIdx i q 1).val = (i 1).val := by
  unfold DotDims.rhsIdx
  rw [dif_pos (show (1 : Fin S4x16x8192x64.rank) ∈ dot_S4x16x8192x64_S4x16x8192x64_S4x16x64x64_2_2_3_3_01_01.rhsBatch by decide)]
  rfl
theorem rhs_kv_2 (i : S4x16x64x64.Idx) (q : dot_S4x16x8192x64_S4x16x8192x64_S4x16x64x64_2_2_3_3_01_01.contr.Idx) :
    (dot_S4x16x8192x64_S4x16x8192x64_S4x16x64x64_2_2_3_3_01_01.rhsIdx i q 2).val = (q ⟨0, by decide⟩).val :=
  dot_S4x16x8192x64_S4x16x8192x64_S4x16x64x64_2_2_3_3_01_01.rhsIdx_val_of_single rfl i q
theorem rhs_kv_3 (i : S4x16x64x64.Idx) (q : dot_S4x16x8192x64_S4x16x8192x64_S4x16x64x64_2_2_3_3_01_01.contr.Idx) :
    (dot_S4x16x8192x64_S4x16x8192x64_S4x16x64x64_2_2_3_3_01_01.rhsIdx i q 3).val = (i 3).val := by
  unfold DotDims.rhsIdx
  rw [dif_neg (show ¬(3 : Fin S4x16x8192x64.rank) ∈ dot_S4x16x8192x64_S4x16x8192x64_S4x16x64x64_2_2_3_3_01_01.rhsBatch by decide), dif_pos (show (3 : Fin S4x16x8192x64.rank) ∈ dot_S4x16x8192x64_S4x16x8192x64_S4x16x64x64_2_2_3_3_01_01.rhsNonContracting by decide)]
  rfl
theorem lhs_out_0 (i : S4x16x8192x64.Idx) (q : dot_S4x16x8192x64_S4x16x64x64_S4x16x8192x64_3_2_2_3_01_01.contr.Idx) :
    (dot_S4x16x8192x64_S4x16x64x64_S4x16x8192x64_3_2_2_3_01_01.lhsIdx i q 0).val = (i 0).val := by
  unfold DotDims.lhsIdx
  rw [dif_pos (show (0 : Fin S4x16x8192x64.rank) ∈ dot_S4x16x8192x64_S4x16x64x64_S4x16x8192x64_3_2_2_3_01_01.lhsBatch by decide)]
  rfl
theorem lhs_out_1 (i : S4x16x8192x64.Idx) (q : dot_S4x16x8192x64_S4x16x64x64_S4x16x8192x64_3_2_2_3_01_01.contr.Idx) :
    (dot_S4x16x8192x64_S4x16x64x64_S4x16x8192x64_3_2_2_3_01_01.lhsIdx i q 1).val = (i 1).val := by
  unfold DotDims.lhsIdx
  rw [dif_pos (show (1 : Fin S4x16x8192x64.rank) ∈ dot_S4x16x8192x64_S4x16x64x64_S4x16x8192x64_3_2_2_3_01_01.lhsBatch by decide)]
  rfl
theorem lhs_out_2 (i : S4x16x8192x64.Idx) (q : dot_S4x16x8192x64_S4x16x64x64_S4x16x8192x64_3_2_2_3_01_01.contr.Idx) :
    (dot_S4x16x8192x64_S4x16x64x64_S4x16x8192x64_3_2_2_3_01_01.lhsIdx i q 2).val = (i 2).val := by
  unfold DotDims.lhsIdx
  rw [dif_neg (show ¬(2 : Fin S4x16x8192x64.rank) ∈ dot_S4x16x8192x64_S4x16x64x64_S4x16x8192x64_3_2_2_3_01_01.lhsBatch by decide), dif_pos (show (2 : Fin S4x16x8192x64.rank) ∈ dot_S4x16x8192x64_S4x16x64x64_S4x16x8192x64_3_2_2_3_01_01.lhsNonContracting by decide)]
  rfl
theorem lhs_out_3 (i : S4x16x8192x64.Idx) (q : dot_S4x16x8192x64_S4x16x64x64_S4x16x8192x64_3_2_2_3_01_01.contr.Idx) :
    (dot_S4x16x8192x64_S4x16x64x64_S4x16x8192x64_3_2_2_3_01_01.lhsIdx i q 3).val = (q ⟨0, by decide⟩).val :=
  dot_S4x16x8192x64_S4x16x64x64_S4x16x8192x64_3_2_2_3_01_01.lhsIdx_val_of_single rfl i q
theorem rhs_out_0 (i : S4x16x8192x64.Idx) (q : dot_S4x16x8192x64_S4x16x64x64_S4x16x8192x64_3_2_2_3_01_01.contr.Idx) :
    (dot_S4x16x8192x64_S4x16x64x64_S4x16x8192x64_3_2_2_3_01_01.rhsIdx i q 0).val = (i 0).val := by
  unfold DotDims.rhsIdx
  rw [dif_pos (show (0 : Fin S4x16x64x64.rank) ∈ dot_S4x16x8192x64_S4x16x64x64_S4x16x8192x64_3_2_2_3_01_01.rhsBatch by decide)]
  rfl
theorem rhs_out_1 (i : S4x16x8192x64.Idx) (q : dot_S4x16x8192x64_S4x16x64x64_S4x16x8192x64_3_2_2_3_01_01.contr.Idx) :
    (dot_S4x16x8192x64_S4x16x64x64_S4x16x8192x64_3_2_2_3_01_01.rhsIdx i q 1).val = (i 1).val := by
  unfold DotDims.rhsIdx
  rw [dif_pos (show (1 : Fin S4x16x64x64.rank) ∈ dot_S4x16x8192x64_S4x16x64x64_S4x16x8192x64_3_2_2_3_01_01.rhsBatch by decide)]
  rfl
theorem rhs_out_2 (i : S4x16x8192x64.Idx) (q : dot_S4x16x8192x64_S4x16x64x64_S4x16x8192x64_3_2_2_3_01_01.contr.Idx) :
    (dot_S4x16x8192x64_S4x16x64x64_S4x16x8192x64_3_2_2_3_01_01.rhsIdx i q 2).val = (q ⟨0, by decide⟩).val :=
  dot_S4x16x8192x64_S4x16x64x64_S4x16x8192x64_3_2_2_3_01_01.rhsIdx_val_of_single rfl i q
theorem rhs_out_3 (i : S4x16x8192x64.Idx) (q : dot_S4x16x8192x64_S4x16x64x64_S4x16x8192x64_3_2_2_3_01_01.contr.Idx) :
    (dot_S4x16x8192x64_S4x16x64x64_S4x16x8192x64_3_2_2_3_01_01.rhsIdx i q 3).val = (i 3).val := by
  unfold DotDims.rhsIdx
  rw [dif_neg (show ¬(3 : Fin S4x16x64x64.rank) ∈ dot_S4x16x8192x64_S4x16x64x64_S4x16x8192x64_3_2_2_3_01_01.rhsBatch by decide), dif_pos (show (3 : Fin S4x16x64x64.rank) ∈ dot_S4x16x8192x64_S4x16x64x64_S4x16x8192x64_3_2_2_3_01_01.rhsNonContracting by decide)]
  rfl

/-- The state at a coordinate: the sum over the sequence of key feature times masked value. -/
theorem KV_apply (K V : FVec Ideal S4x16x8192x64 .f32) (mask : FVec Ideal S4x8192 .f32) (pi : FVec Ideal S2 .f32)
    (mu : FVec Ideal S2x16x64 .f32) (b : Fin 4) (h : Fin 16) (d e : Fin 64) :
    KV K V mask pi mu (ix4 b h d e)
      = ∑ l : Fin 8192, Kf K mask pi mu (ix4 b h l d) * Vm V mask (ix4 b h l e) := by
  unfold KV
  simp only [Host.dotGeneral]
  rw [Ideal.dotGeneral_apply, ← Equiv.sum_comp (contrEquiv1 dot_S4x16x8192x64_S4x16x8192x64_S4x16x64x64_2_2_3_3_01_01 8192 rfl rfl).symm]
  refine Finset.sum_congr rfl fun k _ => ?_
  have hk := contrEquiv1_symm_val dot_S4x16x8192x64_S4x16x8192x64_S4x16x64x64_2_2_3_3_01_01 8192 rfl rfl k
  have el : dot_S4x16x8192x64_S4x16x8192x64_S4x16x64x64_2_2_3_3_01_01.lhsIdx (ix4 b h d e) ((contrEquiv1 dot_S4x16x8192x64_S4x16x8192x64_S4x16x64x64_2_2_3_3_01_01 8192 rfl rfl).symm k) = ix4 b h k d :=
    funext fun a => Fin.ext (by
    match a with
    | ⟨0, _⟩ => exact lhs_kv_0 _ _
    | ⟨1, _⟩ => exact lhs_kv_1 _ _
    | ⟨2, _⟩ => exact (lhs_kv_2 _ _).trans hk
    | ⟨3, _⟩ => exact lhs_kv_3 _ _)
  have er : dot_S4x16x8192x64_S4x16x8192x64_S4x16x64x64_2_2_3_3_01_01.rhsIdx (ix4 b h d e) ((contrEquiv1 dot_S4x16x8192x64_S4x16x8192x64_S4x16x64x64_2_2_3_3_01_01 8192 rfl rfl).symm k) = ix4 b h k e :=
    funext fun a => Fin.ext (by
    match a with
    | ⟨0, _⟩ => exact rhs_kv_0 _ _
    | ⟨1, _⟩ => exact rhs_kv_1 _ _
    | ⟨2, _⟩ => exact (rhs_kv_2 _ _).trans hk
    | ⟨3, _⟩ => exact rhs_kv_3 _ _)
  rw [el, er]

/-- The result at a coordinate: the sum over the features of query feature times state. -/
theorem refOut_apply_sum (Q K V : FVec Ideal S4x16x8192x64 .f32) (mask : FVec Ideal S4x8192 .f32) (pi : FVec Ideal S2 .f32)
    (mu : FVec Ideal S2x16x64 .f32) (b : Fin 4) (h : Fin 16) (l : Fin 8192) (e : Fin 64) :
    refOut (F := Ideal) Q K V mask pi mu (ix4 b h l e)
      = ∑ d : Fin 64, Qf Q (ix4 b h l d) * KV K V mask pi mu (ix4 b h d e) := by
  unfold refOut
  simp only [Host.dotGeneral]
  rw [Ideal.dotGeneral_apply, ← Equiv.sum_comp (contrEquiv1 dot_S4x16x8192x64_S4x16x64x64_S4x16x8192x64_3_2_2_3_01_01 64 rfl rfl).symm]
  refine Finset.sum_congr rfl fun k _ => ?_
  have hk := contrEquiv1_symm_val dot_S4x16x8192x64_S4x16x64x64_S4x16x8192x64_3_2_2_3_01_01 64 rfl rfl k
  have el : dot_S4x16x8192x64_S4x16x64x64_S4x16x8192x64_3_2_2_3_01_01.lhsIdx (ix4 b h l e) ((contrEquiv1 dot_S4x16x8192x64_S4x16x64x64_S4x16x8192x64_3_2_2_3_01_01 64 rfl rfl).symm k) = ix4 b h l k :=
    funext fun a => Fin.ext (by
    match a with
    | ⟨0, _⟩ => exact lhs_out_0 _ _
    | ⟨1, _⟩ => exact lhs_out_1 _ _
    | ⟨2, _⟩ => exact lhs_out_2 _ _
    | ⟨3, _⟩ => exact (lhs_out_3 _ _).trans hk)
  have er : dot_S4x16x8192x64_S4x16x64x64_S4x16x8192x64_3_2_2_3_01_01.rhsIdx (ix4 b h l e) ((contrEquiv1 dot_S4x16x8192x64_S4x16x64x64_S4x16x8192x64_3_2_2_3_01_01 64 rfl rfl).symm k) = ix4 b h k e :=
    funext fun a => Fin.ext (by
    match a with
    | ⟨0, _⟩ => exact rhs_out_0 _ _
    | ⟨1, _⟩ => exact rhs_out_1 _ _
    | ⟨2, _⟩ => exact (rhs_out_2 _ _).trans hk
    | ⟨3, _⟩ => exact rhs_out_3 _ _)
  rw [el, er]

/-! ## The reference's value at a coordinate -/

/-- The result buffer's value at a coordinate is the reference's arrangement over plain coordinates. -/
theorem refOut_apply (Q K V : FVec Ideal S4x16x8192x64 .f32) (mask : FVec Ideal S4x8192 .f32) (pi : FVec Ideal S2 .f32)
    (mu : FVec Ideal S2x16x64 .f32) (b : Fin 4) (h : Fin 16) (l : Fin 8192) (e : Fin 64) :
    refOut (F := Ideal) Q K V mask pi mu (ix4 b h l e)
      = Cert.Spec.outR (fun b h l d => Q (ix4 b h l d)) (fun b h l d => K (ix4 b h l d)) (fun b h l d => V (ix4 b h l d))
          (fun b l => mask (ix2 b l)) (fun i => pi (ix1 i)) (fun i h d => mu (ix3 i h d)) b h l e := by
  rw [refOut_apply_sum]
  unfold Cert.Spec.outR Cert.Spec.kvR
  refine Finset.sum_congr rfl fun d _ => ?_
  rw [Qf_apply, KV_apply]
  refine congrArg (_ * ·) (Finset.sum_congr rfl fun l' _ => ?_)
  rw [Kf_apply, Vm_apply]

end Cert.ReferenceIdeal.RefValue

end
-- ==== Proof.SpecLaw.lean ====
import proofs.«130264_j15891378995472_2_alg».proof.Proof.Spec

/-
  The two arrangements of the computation agree on real inputs.

  Every input is a real number, so every intermediate value is a real number and the identities below are
  identities of real arithmetic read through the embedding of ℝ in the extended reals:
    * elu(x) + 1 = (x + 1 if x > 0 else exp x);
    * (K − mu0)·p0 + (K − mu1)·p1 = (p0 + p1)·K − (mu0·p0 + mu1·p1);
    * ((phi·m)·s)·(V·m) = (phi·s)·(V·(m·m));
    * a sum over 8192 rows is the sum over the first 4096 rows plus the sum over the last 4096 rows.
-/

namespace Cert.Spec

open Idealize.ShloMosaic

/-! ## The three constants -/

theorem zero_eq : zero = 0 := by simp [zero, Ideal.ofBits, Ideal.ieee]

theorem one_eq : one = ((1 : ℝ) : EReal) := by
  simp [one, Ideal.ofBits, Ideal.ieee, -EReal.coe_mul]; norm_num

/-- The scale word is a finite pattern, hence some real number; its value is never needed. -/
theorem scale_real : ∃ s : ℝ, scale = (s : EReal) := by
  unfold scale Ideal.ofBits Ideal.ieee
  simp only []
  rw [if_neg (by decide), if_neg (by decide)]
  exact ⟨_, rfl⟩

/-! ## The comparison bit and the selection on a real argument -/

theorem pos_of_pos {x : ℝ} (hx : 0 < x) : pos (x : EReal) = 1 := by
  have h : (0 : EReal) < (x : EReal) := by exact_mod_cast hx
  simp [pos, Ideal.cmp, zero_eq, h]

theorem pos_of_not_pos {x : ℝ} (hx : ¬ 0 < x) : pos (x : EReal) = 0 := by
  have h : ¬ (0 : EReal) < (x : EReal) := by exact_mod_cast hx
  simp [pos, Ideal.cmp, zero_eq, h]

theorem select_one {α : Type} (a b : α) : Scalar.select 1 a b = a := by simp [Scalar.select]

theorem select_zero {α : Type} (a b : α) : Scalar.select 0 a b = b := by
  have h : (0 : BitVec 1) ≠ 1 := by decide
  simp [Scalar.select, h]

/-! ## The feature map -/

/-- On a real argument the kernel's feature map is the real "x + 1 if x > 0 else exp x". -/
theorem phiK_coe (x : ℝ) : phiK (x : EReal) = ((if 0 < x then x + 1 else Real.exp x : ℝ) : EReal) := by
  by_cases hx : 0 < x
  · rw [phiK, pos_of_pos hx, select_one, if_pos hx, one_eq, ← EReal.coe_add]
  · rw [phiK, pos_of_not_pos hx, select_zero, if_neg hx, Ideal.exp_coe]

/-- Law (1): elu(x) + 1 is the kernel's feature map, on a real argument. -/
theorem elu_add_one (x : ℝ) : elu (x : EReal) + one = phiK (x : EReal) := by
  by_cases hx : 0 < x
  · rw [elu, phiK, pos_of_pos hx, select_one, select_one]
  · rw [elu, phiK, pos_of_not_pos hx, select_zero, select_zero, select_zero, Ideal.exp_coe, one_eq,
      ← EReal.coe_one, ← EReal.coe_sub, ← EReal.coe_mul, ← EReal.coe_add]
    congr 1
    ring

/-! ## The clipped weights and the shifted key -/

theorem clip_real {x : EReal} (hx : ∃ r : ℝ, x = (r : EReal)) : ∃ r : ℝ, clip x = (r : EReal) := by
  obtain ⟨r, rfl⟩ := hx
  refine ⟨min 1 (max 0 r), ?_⟩
  rw [clip, one_eq, zero_eq, ← EReal.coe_zero, EReal.coe_strictMono.monotone.map_min,
    EReal.coe_strictMono.monotone.map_max]

section
variable (Q K V : Fin 4 → Fin 16 → Fin 8192 → Fin 64 → EReal) (mask : Fin 4 → Fin 8192 → EReal)
  (pi : Fin 2 → EReal) (mu : Fin 2 → Fin 16 → Fin 64 → EReal)

/-- Law (2): the factored shifted key is the per-component shifted key, and it is a real. -/
theorem kmK_eq_kmR (hK : ∀ b h l d, ∃ r : ℝ, K b h l d = (r : EReal))
    (hpi : ∀ i, ∃ r : ℝ, pi i = (r : EReal)) (hmu : ∀ i h d, ∃ r : ℝ, mu i h d = (r : EReal))
    (b : Fin 4) (h : Fin 16) (l : Fin 8192) (d : Fin 64) :
    ∃ x : ℝ, kmK K pi mu b h l d = (x : EReal) ∧ kmR K pi mu b h l d = (x : EReal) := by
  obtain ⟨k, hk⟩ := hK b h l d
  obtain ⟨p0, hp0⟩ := clip_real (hpi 0)
  obtain ⟨p1, hp1⟩ := clip_real (hpi 1)
  obtain ⟨m0, hm0⟩ := hmu 0 h d
  obtain ⟨m1, hm1⟩ := hmu 1 h d
  refine ⟨(p0 + p1) * k - (m0 * p0 + m1 * p1), ?_, ?_⟩
  · rw [kmK, coef, adj, hk, hp0, hp1, hm0, hm1]
    simp only [← EReal.coe_add, ← EReal.coe_mul, ← EReal.coe_sub]
  · rw [kmR, hk, hp0, hp1, hm0, hm1]
    simp only [← EReal.coe_add, ← EReal.coe_mul, ← EReal.coe_sub]
    congr 1
    ring

/-- Laws (1) and (3) on the query side. -/
theorem qfK_eq_qfR (hQ : ∀ b h l d, ∃ r : ℝ, Q b h l d = (r : EReal))
    (b : Fin 4) (h : Fin 16) (l : Fin 8192) (d : Fin 64) : qfK Q b h l d = qfR Q b h l d := by
  obtain ⟨q, hq⟩ := hQ b h l d
  rw [qfK, qfR, hq, elu_add_one]

/-- Laws (1)-(3) on one row of the state sum. -/
theorem term_eq (hK : ∀ b h l d, ∃ r : ℝ, K b h l d = (r : EReal))
    (hV : ∀ b h l d, ∃ r : ℝ, V b h l d = (r : EReal)) (hmask : ∀ b l, ∃ r : ℝ, mask b l = (r : EReal))
    (hpi : ∀ i, ∃ r : ℝ, pi i = (r : EReal)) (hmu : ∀ i h d, ∃ r : ℝ, mu i h d = (r : EReal))
    (b : Fin 4) (h : Fin 16) (l : Fin 8192) (d e : Fin 64) :
    kfK K pi mu b h l d * vmK V mask b h l e = kfR K mask pi mu b h l d * vmR V mask b h l e := by
  obtain ⟨x, hxK, hxR⟩ := kmK_eq_kmR K pi mu hK hpi hmu b h l d
  obtain ⟨v, hv⟩ := hV b h l e
  obtain ⟨m, hm⟩ := hmask b l
  obtain ⟨s, hs⟩ := scale_real
  rw [kfK, vmK, kfR, vmR, hxK, hxR, elu_add_one, phiK_coe, hv, hm, hs]
  simp only [← EReal.coe_mul]
  congr 1
  ring

end

/-! ## The split of the sequence sum -/

/-- Law (4): a sum over the 8192 rows is the sum over the first half plus the sum over the second half. -/
theorem sum_halves {M : Type} [AddCommMonoid M] (f : Fin 8192 → M) :
    ∑ l, f l = (∑ r : Fin 4096, f (row 0 r)) + ∑ r : Fin 4096, f (row 1 r) := by
  have h := Fin.sum_univ_add (a := 4096) (b := 4096) f
  have h0 : ∀ r : Fin 4096, Fin.castAdd 4096 r = row 0 r := by
    intro r; apply Fin.ext; simp [row]
  have h1 : ∀ r : Fin 4096, Fin.natAdd 4096 r = row 1 r := by
    intro r; apply Fin.ext; simp [row]; omega
  simp only [h0, h1] at h
  exact h

section
variable (Q K V : Fin 4 → Fin 16 → Fin 8192 → Fin 64 → EReal) (mask : Fin 4 → Fin 8192 → EReal)
  (pi : Fin 2 → EReal) (mu : Fin 2 → Fin 16 → Fin 64 → EReal)

/-- The two states agree. -/
theorem kvK_eq_kvR (hK : ∀ b h l d, ∃ r : ℝ, K b h l d = (r : EReal))
    (hV : ∀ b h l d, ∃ r : ℝ, V b h l d = (r : EReal)) (hmask : ∀ b l, ∃ r : ℝ, mask b l = (r : EReal))
    (hpi : ∀ i, ∃ r : ℝ, pi i = (r : EReal)) (hmu : ∀ i h d, ∃ r : ℝ, mu i h d = (r : EReal))
    (b : Fin 4) (h : Fin 16) (d e : Fin 64) :
    kvK K V mask pi mu b h d e = kvR K V mask pi mu b h d e := by
  rw [kvK, kvR, halfK, halfK, zero_eq, zero_add,
    sum_halves (fun l => kfR K mask pi mu b h l d * vmR V mask b h l e)]
  congr 1 <;>
    exact Finset.sum_congr rfl (fun r _ => term_eq K V mask pi mu hK hV hmask hpi hmu b h _ d e)

/-- The kernel's arrangement and the reference's arrangement agree on real inputs. -/
theorem outK_eq_outR (hQ : ∀ b h l d, ∃ r : ℝ, Q b h l d = (r : EReal))
    (hK : ∀ b h l d, ∃ r : ℝ, K b h l d = (r : EReal))
    (hV : ∀ b h l d, ∃ r : ℝ, V b h l d = (r : EReal)) (hmask : ∀ b l, ∃ r : ℝ, mask b l = (r : EReal))
    (hpi : ∀ i, ∃ r : ℝ, pi i = (r : EReal)) (hmu : ∀ i h d, ∃ r : ℝ, mu i h d = (r : EReal))
    (b : Fin 4) (h : Fin 16) (l : Fin 8192) (e : Fin 64) :
    outK Q K V mask pi mu b h l e = outR Q K V mask pi mu b h l e := by
  rw [outK, outR]
  refine Finset.sum_congr rfl (fun d _ => ?_)
  rw [qfK_eq_qfR Q hQ, kvK_eq_kvR K V mask pi mu hK hV hmask hpi hmu]

end

end Cert.Spec
-- ==== Proof.Finite.lean ====
import proofs.«130264_j15891378995472_2_alg».proof.Pre_finite_inputs
import Idealize.ShloMosaic.Lib.ReduceAll
import Idealize.ShloMosaic.Lib.ValueIdx
import Idealize.ShloMosaic.PureOps.Ideal

/-
  From the precondition to "every entry of every argument array is a real number".

  The precondition is the conjunction, over the six argument arrays, of "every entry x has |x| < +∞",
  where |x| is max x (−x) in the extended reals and +∞ is the word 0x7F800000. An extended real whose
  absolute value is below +∞ is neither +∞ nor −∞, hence a real number.
-/

namespace Cert.Finite

open Idealize.ShloMosaic

/-- The word 0x7F800000 denotes +∞. -/
theorem ofBits_inf_f32 : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The same, with the comparison given as the bit a float comparison returns. -/
theorem real_of_cmp (x : EReal)
    (h : Ideal.cmp .olt (max x (-x)) (Ideal.ofBits .f32 0x7F800000#32) = 1#1) : ∃ r : ℝ, x = (r : EReal) := by
  rw [ofBits_inf_f32] at h
  refine real_of_abs_lt_top x ?_
  by_contra hn
  simp [Ideal.cmp, hn] at h

/-- The scalar shape has one index. -/
instance subsingleton_idx0 : Subsingleton (⟨0, ![]⟩ : Shape).Idx := ⟨fun a b => funext fun d => d.elim0⟩

/-- One conjunct: if "all entries have |x| < +∞" came out true, every entry is a real number. -/
theorem all_real {s : Shape} (hb : (⟨0, ![]⟩ : Shape).BroadcastsInDim s (![] : Fin 0 → Fin s.rank))
    {axes : List (Fin s.rank)} (hr : s.ReducesTo axes (⟨0, ![]⟩ : Shape)) (hu : 0 < (⟨0, ![]⟩ : Shape).numel)
    (a : FVec Ideal s .f32)
    (h : Host.reduce IntOp.andi
        (cmpf .olt (Host.absf a) (broadcastInDim s ![] hb (constant (⟨0, ![]⟩ : Shape) .f32 0x7F800000#32)))
        (constantI (⟨0, ![]⟩ : Shape) 1 1#1) hr hu ValueIdx.ix0 = 1#1) :
    ∀ i, ∃ r : ℝ, a i = (r : EReal) := by
  intro i
  have hi := Host.reduce_andi_all _ _ hr hu _ h i
  exact real_of_cmp (a i) hi

open Cert.Pre_finite_inputs in
/-- The precondition holds only of arrays of real numbers. -/
theorem reals_of_pre [Cert.Pre_finite_inputs.Facts]
    (a0 a1 a2 : FVec Ideal S4x16x8192x64 .f32) (a3 : FVec Ideal S4x8192 .f32) (a4 : FVec Ideal S2 .f32)
    (a5 : FVec Ideal S2x16x64 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  simp only [Cert.Pre_finite_inputs.fn, Cert.Pre_finite_inputs.fn_part1, andi, IntOp.andi_eq_one] at h0
  obtain ⟨⟨⟨⟨⟨e0, e1⟩, e2⟩, e3⟩, e4⟩, e5⟩ := h0
  exact ⟨all_real _ _ _ a0 e0, all_real _ _ _ a1 e1, all_real _ _ _ a2 e2, all_real _ _ _ a3 e3,
    all_real _ _ _ a4 e4, all_real _ _ _ a5 e5⟩

end Cert.Finite
-- ==== Proof.lean ====
/-
  The certificate's five claims, assembled.

  The kernel program is three stretches of host operations (the clipped mixture weights, their sum, the
  weighted mean shift, the mask reshaped) and two kernels: the first reduces keys and values over the sequence
  into a 64×64 state per (batch, head), accumulating the two halves of the sequence in a scratch buffer carried
  between grid points; the second multiplies the featurised queries by that state. Its frames (every execution
  terminates, nothing faults, the arguments end as launched) come from running each kernel's body once per case
  and composing the regions; they hold at any float instance, so at the word level and at the ideal one alike.
  The reference is a host program with outlined calls, run as one list of operations.

  At the ideal instance both results are one function of the arguments under the precondition that every input
  is finite: the kernel's shifted key (p0+p1)·K − (mu0·p0+mu1·p1) is the reference's (K−mu0)·p0 + (K−mu1)·p1 by
  distributivity on the reals; "x+1 if x>0 else exp x" is elu(x)+1 written through expm1; the mask's two factors
  commute to either side of the product; and a sum over the sequence is the sum of its two halves.
-/
import proofs.«130264_j15891378995472_2_alg».proof.Defs
import proofs.«130264_j15891378995472_2_alg».proof.Proof.Gen.Kernel
import proofs.«130264_j15891378995472_2_alg».proof.Proof.Gen.KernelIdeal
import proofs.«130264_j15891378995472_2_alg».proof.Proof.Gen.ReferenceIdeal
import proofs.«130264_j15891378995472_2_alg».proof.Proof.Gen.Pre_finite_inputs
import proofs.«130264_j15891378995472_2_alg».proof.Proof.KB.Run
import proofs.«130264_j15891378995472_2_alg».proof.Proof.KI.KernelValue
import proofs.«130264_j15891378995472_2_alg».proof.Proof.RefRead
import proofs.«130264_j15891378995472_2_alg».proof.Proof.SpecLaw
import proofs.«130264_j15891378995472_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level program runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: its run with the result dropped. -/
theorem frame_ri : Cert.frame_ReferenceIdeal (hReferenceIdeal := Cert.ReferenceIdeal.Gen.facts) (hPre_finite_inputs := Cert.Pre_finite_inputs.Gen.facts) :=
  fun m g _ => (θ_run _ _ _).mono (fun _ h c => (h c).2) (Cert.ReferenceIdeal.RefValue.run (F := Ideal) m g)

/-- The ideal pass rewrote nothing. -/
theorem preserves : Cert.preserves_Kernel_KernelIdeal := trivial

/-- Both idealized programs end with the same result array: index by index the kernel's arrangement of the formula
    is the reference's, on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W5 (F := Ideal) m c (Proc.devRef .tc Cert.KernelIdeal.main_v24), ?_, ?_⟩
  · exact (θ_run _ _ _).mono (fun r h c =>
      ⟨h c _ (Cert.KernelIdeal.Hand.mem_uc Cert.KernelIdeal.main_v24 (by decide)),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c),
       (h c _ (Cert.KernelIdeal.Hand.mem_uc Cert.KernelIdeal.main_arg2 (by decide))).trans (Cert.KernelIdeal.Hand.W5_main_arg2 m c),
       (h c _ (Cert.KernelIdeal.Hand.mem_uc Cert.KernelIdeal.main_arg3 (by decide))).trans (Cert.KernelIdeal.Hand.W5_main_arg3 m c),
       (h c _ (Cert.KernelIdeal.Hand.mem_uc Cert.KernelIdeal.main_arg4 (by decide))).trans (Cert.KernelIdeal.Hand.W5_main_arg4 m c),
       (h c _ (Cert.KernelIdeal.Hand.mem_uc Cert.KernelIdeal.main_arg5 (by decide))).trans (Cert.KernelIdeal.Hand.W5_main_arg5 m c)⟩)
      (Cert.KernelIdeal.Hand.run_all (F := Ideal) m ρ)
  · refine (θ_run _ _ _).mono (fun r h c => ⟨(h c).1.trans ?_, (h c).2⟩)
      (Cert.ReferenceIdeal.RefValue.run (F := Ideal) m' ρ')
    obtain ⟨a0, a1, a2, a3, a4, a5⟩ := hagree c
    obtain ⟨r0, r1, r2, r3, r4, r5⟩ := Cert.Finite.reals_of_pre _ _ _ _ _ _ (hpre c)
    rw [a0, a1, a2, a3, a4, a5]
    funext j
    obtain ⟨b, hh, l, e, rfl⟩ : ∃ (b : Fin 4) (hh : Fin 16) (l : Fin 8192) (e : Fin 64), j = ix4 b hh l e :=
      ⟨j 0, j 1, j 2, j 3, eq_ix4 j⟩
    refine (Cert.ReferenceIdeal.RefValue.refOut_apply _ _ _ _ _ _ b hh l e).trans ?_
    refine ((Cert.Spec.outK_eq_outR _ _ _ _ _ _ (fun _ _ _ _ => r0 _) (fun _ _ _ _ => r1 _) (fun _ _ _ _ => r2 _)
      (fun _ _ => r3 _) (fun _ => r4 _) (fun _ _ _ => r5 _) b hh l e).symm).trans ?_
    exact (Cert.KernelIdeal.Hand.result_apply m c b hh l e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
